-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x18x64 : Shape := ⟨3, ![4096, 18, 64]⟩
abbrev S4096x18x18 : Shape := ⟨3, ![4096, 18, 18]⟩
abbrev S128x64 : Shape := ⟨2, ![128, 64]⟩
abbrev S128 : Shape := ⟨1, ![128]⟩
abbrev S64x128 : Shape := ⟨2, ![64, 128]⟩
abbrev S64 : Shape := ⟨1, ![64]⟩
abbrev S1x64 : Shape := ⟨2, ![1, 64]⟩
abbrev S1 : Shape := ⟨1, ![1]⟩
abbrev S_ : Shape := ⟨0, ![]⟩

class Facts : Prop where
  bcast_S_S4096x18x64 : S_.BroadcastsInDim S4096x18x64 (![] : Fin 0 → Fin S4096x18x64.rank)
  reducesTo_S4096x18x64_S_d0_1_2 : S4096x18x64.ReducesTo [0, 1, 2] S_
  h_S_ : 0 < S_.numel
  bcast_S_S4096x18x18 : S_.BroadcastsInDim S4096x18x18 (![] : Fin 0 → Fin S4096x18x18.rank)
  reducesTo_S4096x18x18_S_d0_1_2 : S4096x18x18.ReducesTo [0, 1, 2] S_
  bcast_S_S128x64 : S_.BroadcastsInDim S128x64 (![] : Fin 0 → Fin S128x64.rank)
  reducesTo_S128x64_S_d0_1 : S128x64.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S1x64 : S_.BroadcastsInDim S1x64 (![] : Fin 0 → Fin S1x64.rank)
  reducesTo_S1x64_S_d0_1 : S1x64.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg6 : FVec F S128 .f32) (main_arg11 : FVec F S64 .f32) (main_v63 : IVec S_ 1) (main_v67 : IVec S_ 1) : IVec S_ 1 :=
  let main_v68 : IVec S_ 1 := andi main_v63 main_v67
  let main_cst_26 : FVec F S_ .f32 := constant S_ .f32 0x3727C5AC#32
  let main_v69 : FVec F S128 .f32 := broadcastInDim S128 ![] bcast_S_S128 main_cst_26
  let main_v70 : FVec F S128 .f32 := addf main_arg6 main_v69
  let main_cst_27 : FVec F S_ .f32 := constant S_ .f32 0x00000000#32
  let main_v71 : FVec F S128 .f32 := broadcastInDim S128 ![] bcast_S_S128 main_cst_27
  let main_v72 : IVec S128 1 := cmpf .ogt main_v70 main_v71
  let main_c_28 : IVec S_ 1 := constantI S_ 1 1#1
  let main_v73 : IVec S_ 1 := (fun x v => Host.reduce IntOp.andi x v reducesTo_S128_S_d0 h_S_) main_v72 main_c_28
  let main_v74 : IVec S_ 1 := andi main_v68 main_v73
  let main_cst_29 : FVec F S_ .f32 := constant S_ .f32 0x3727C5AC#32
  let main_v75 : FVec F S64 .f32 := broadcastInDim S64 ![] bcast_S_S64 main_cst_29
  let main_v76 : FVec F S64 .f32 := addf main_arg11 main_v75
  let main_cst_30 : FVec F S_ .f32 := constant S_ .f32 0x00000000#32
  let main_v77 : FVec F S64 .f32 := broadcastInDim S64 ![] bcast_S_S64 main_cst_30
  let main_v78 : IVec S64 1 := cmpf .ogt main_v76 main_v77
  let main_c_31 : IVec S_ 1 := constantI S_ 1 1#1
  let main_v79 : IVec S_ 1 := (fun x v => Host.reduce IntOp.andi x v reducesTo_S64_S_d0 h_S_) main_v78 main_c_31
  let main_v80 : IVec S_ 1 := andi main_v74 main_v79
  main_v80

def fn_part3 {F : FTy → Type} [FloatOps F] (main_arg6 : FVec F S128 .f32) (main_arg11 : FVec F S64 .f32) (main_arg12 : FVec F S1x64 .f32) (main_arg13 : FVec F S1 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64 .f32 := Host.absf main_arg11
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S1x64 .f32 := Host.absf main_arg12
  let main_cst_22 : FVec F S_ .f32 := constant S_ .f32 0x7F800000#32
  let main_v60 : FVec F S1x64 .f32 := broadcastInDim S1x64 ![] bcast_S_S1x64 main_cst_22
  let main_v61 : IVec S1x64 1 := cmpf .olt main_v59 main_v60
  let main_c_23 : IVec S_ 1 := constantI S_ 1 1#1
  let main_v62 : IVec S_ 1 := (fun x v => Host.reduce IntOp.andi x v reducesTo_S1x64_S_d0_1 h_S_) main_v61 main_c_23
  let main_v63 : IVec S_ 1 := andi main_v58 main_v62
  let main_v64 : FVec F S1 .f32 := Host.absf main_arg13
  let main_cst_24 : FVec F S_ .f32 := constant S_ .f32 0x7F800000#32
  let main_v65 : FVec F S1 .f32 := broadcastInDim S1 ![] bcast_S_S1 main_cst_24
  let main_v66 : IVec S1 1 := cmpf .olt main_v64 main_v65
  let main_c_25 : IVec S_ 1 := constantI S_ 1 1#1
  let main_v67 : IVec S_ 1 := (fun x v => Host.reduce IntOp.andi x v reducesTo_S1_S_d0 h_S_) main_v66 main_c_25
  fn_part4 (F := F) main_arg6 main_arg11 main_v63 main_v67

def fn_part2 {F : FTy → Type} [FloatOps F] (main_arg6 : FVec F S128 .f32) (main_arg7 : FVec F S64x128 .f32) (main_arg8 : FVec F S64 .f32) (main_arg9 : FVec F S64 .f32) (main_arg10 : FVec F S64 .f32) (main_arg11 : FVec F S64 .f32) (main_arg12 : FVec F S1x64 .f32) (main_arg13 : FVec F S1 .f32) (main_v33 : IVec S_ 1) : IVec S_ 1 :=
  let main_v34 : FVec F S64x128 .f32 := Host.absf main_arg7
  let main_cst_12 : FVec F S_ .f32 := constant S_ .f32 0x7F800000#32
  let main_v35 : FVec F S64x128 .f32 := broadcastInDim S64x128 ![] bcast_S_S64x128 main_cst_12
  let main_v36 : IVec S64x128 1 := cmpf .olt main_v34 main_v35
  let main_c_13 : IVec S_ 1 := constantI S_ 1 1#1
  let main_v37 : IVec S_ 1 := (fun x v => Host.reduce IntOp.andi x v reducesTo_S64x128_S_d0_1 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64 .f32 := Host.absf main_arg10
  let main_cst_18 : FVec F S_ .f32 := constant S_ .f32 0x7F800000#32
  let main_v50 : FVec F S64 .f32 := broadcastInDim S64 ![] bcast_S_S64 main_cst_18
  fn_part3 (F := F) main_arg6 main_arg11 main_arg12 main_arg13 main_v48 main_v49 main_v50

def fn_part1 {F : FTy → Type} [FloatOps F] (main_arg4 : FVec F S128 .f32) (main_arg5 : FVec F S128 .f32) (main_arg6 : FVec F S128 .f32) (main_arg7 : FVec F S64x128 .f32) (main_arg8 : FVec F S64 .f32) (main_arg9 : FVec F S64 .f32) (main_arg10 : FVec F S64 .f32) (main_arg11 : FVec F S64 .f32) (main_arg12 : FVec F S1x64 .f32) (main_arg13 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg6 main_arg7 main_arg8 main_arg9 main_arg10 main_arg11 main_arg12 main_arg13 main_v33

def fn {F : FTy → Type} [FloatOps F] (main_arg0 : FVec F S4096x18x64 .f32) (main_arg1 : FVec F S4096x18x18 .f32) (main_arg2 : FVec F S128x64 .f32) (main_arg3 : FVec F S128 .f32) (main_arg4 : FVec F S128 .f32) (main_arg5 : FVec F S128 .f32) (main_arg6 : FVec F S128 .f32) (main_arg7 : FVec F S64x128 .f32) (main_arg8 : FVec F S64 .f32) (main_arg9 : FVec F S64 .f32) (main_arg10 : FVec F S64 .f32) (main_arg11 : FVec F S64 .f32) (main_arg12 : FVec F S1x64 .f32) (main_arg13 : FVec F S1 .f32) : IVec S_ 1 :=
  let main_v0 : FVec F S4096x18x64 .f32 := Host.absf main_arg0
  let main_cst : FVec F S_ .f32 := constant S_ .f32 0x7F800000#32
  let main_v1 : FVec F S4096x18x64 .f32 := broadcastInDim S4096x18x64 ![] bcast_S_S4096x18x64 main_cst
  let main_v2 : IVec S4096x18x64 1 := cmpf .olt main_v0 main_v1
  let main_c : IVec S_ 1 := constantI S_ 1 1#1
  let main_v3 : IVec S_ 1 := (fun x v => Host.reduce IntOp.andi x v reducesTo_S4096x18x64_S_d0_1_2 h_S_) main_v2 main_c
  let main_v4 : FVec F S4096x18x18 .f32 := Host.absf main_arg1
  let main_cst_0 : FVec F S_ .f32 := constant S_ .f32 0x7F800000#32
  let main_v5 : FVec F S4096x18x18 .f32 := broadcastInDim S4096x18x18 ![] bcast_S_S4096x18x18 main_cst_0
  let main_v6 : IVec S4096x18x18 1 := cmpf .olt main_v4 main_v5
  let main_c_1 : IVec S_ 1 := constantI S_ 1 1#1
  let main_v7 : IVec S_ 1 := (fun x v => Host.reduce IntOp.andi x v reducesTo_S4096x18x18_S_d0_1_2 h_S_) main_v6 main_c_1
  let main_v8 : IVec S_ 1 := andi main_v3 main_v7
  let main_v9 : FVec F S128x64 .f32 := Host.absf main_arg2
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_arg12 main_arg13 main_v13 main_v16
-- ==== Kernel.lean ====
abbrev S4096x18x64 : Shape := ⟨3, ![4096, 18, 64]⟩
abbrev S4096x18x18 : Shape := ⟨3, ![4096, 18, 18]⟩
abbrev S128x64 : Shape := ⟨2, ![128, 64]⟩
abbrev S128 : Shape := ⟨1, ![128]⟩
abbrev S64x128 : Shape := ⟨2, ![64, 128]⟩
abbrev S64 : Shape := ⟨1, ![64]⟩
abbrev S1x64 : Shape := ⟨2, ![1, 64]⟩
abbrev S1 : Shape := ⟨1, ![1]⟩
abbrev S18x18 : Shape := ⟨2, ![18, 18]⟩
abbrev S_ : Shape := ⟨0, ![]⟩
abbrev S1x128 : Shape := ⟨2, ![1, 128]⟩
abbrev S64x1 : Shape := ⟨2, ![64, 1]⟩
abbrev S1x1 : Shape := ⟨2, ![1, 1]⟩
abbrev S4096x18x18x2 : Shape := ⟨4, ![4096, 18, 18, 2]⟩
abbrev S64x18x64 : Shape := ⟨3, ![64, 18, 64]⟩
abbrev S64x18x18 : Shape := ⟨3, ![64, 18, 18]⟩
abbrev S64x18x18x2 : Shape := ⟨4, ![64, 18, 18, 2]⟩
abbrev S64x18x1x64 : Shape := ⟨4, ![64, 18, 1, 64]⟩
abbrev S64x1x18x64 : Shape := ⟨4, ![64, 1, 18, 64]⟩
abbrev S64x18x18x64 : Shape := ⟨4, ![64, 18, 18, 64]⟩
abbrev S20736x64 : Shape := ⟨2, ![20736, 64]⟩
abbrev S20736x128 : Shape := ⟨2, ![20736, 128]⟩
abbrev S20736x1 : Shape := ⟨2, ![20736, 1]⟩
abbrev S1x18x18 : Shape := ⟨3, ![1, 18, 18]⟩
abbrev S64x18 : Shape := ⟨2, ![64, 18]⟩
abbrev S64x18x1 : Shape := ⟨3, ![64, 18, 1]⟩
abbrev S64x18x18x1 : Shape := ⟨4, ![64, 18, 18, 1]⟩

abbrev nBuf : Space → Nat
  | .hbm => 39
  | .vmem => 16
  | .smem => 0
  | _ => 0

abbrev bufTy : (tb : Table) → Fin (tcTables nBuf tb) → BufTy
  | .hbm, ⟨0, _⟩ => ⟨S4096x18x64, .f32⟩
  | .hbm, ⟨1, _⟩ => ⟨S4096x18x18, .f32⟩
  | .hbm, ⟨2, _⟩ => ⟨S128x64, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S64x128, .f32⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S64, .f32⟩
  | .hbm, ⟨12, _⟩ => ⟨S1x64, .f32⟩
  | .hbm, ⟨13, _⟩ => ⟨S1, .f32⟩
  | .hbm, ⟨14, _⟩ => ⟨S18x18, .f32⟩
  | .hbm, ⟨15, _⟩ => ⟨S18x18, .f32⟩
  | .hbm, ⟨16, _⟩ => ⟨S_, .f32⟩
  | .hbm, ⟨17, _⟩ => ⟨S128, .f32⟩
  | .hbm, ⟨18, _⟩ => ⟨S128, .f32⟩
  | .hbm, ⟨19, _⟩ => ⟨S128, .f32⟩
  | .hbm, ⟨20, _⟩ => ⟨S128, .f32⟩
  | .hbm, ⟨21, _⟩ => ⟨S1x128, .f32⟩
  | .hbm, ⟨22, _⟩ => ⟨S128, .f32⟩
  | .hbm, ⟨23, _⟩ => ⟨S128, .f32⟩
  | .hbm, ⟨24, _⟩ => ⟨S1x128, .f32⟩
  | .hbm, ⟨25, _⟩ => ⟨S_, .f32⟩
  | .hbm, ⟨26, _⟩ => ⟨S64, .f32⟩
  | .hbm, ⟨27, _⟩ => ⟨S64, .f32⟩
  | .hbm, ⟨28, _⟩ => ⟨S64, .f32⟩
  | .hbm, ⟨29, _⟩ => ⟨S64, .f32⟩
  | .hbm, ⟨30, _⟩ => ⟨S1x64, .f32⟩
  | .hbm, ⟨31, _⟩ => ⟨S64, .f32⟩
  | .hbm, ⟨32, _⟩ => ⟨S64, .f32⟩
  | .hbm, ⟨33, _⟩ => ⟨S1x64, .f32⟩
  | .hbm, ⟨34, _⟩ => ⟨S64x128, .f32⟩
  | .hbm, ⟨35, _⟩ => ⟨S128x64, .f32⟩
  | .hbm, ⟨36, _⟩ => ⟨S64x1, .f32⟩
  | .hbm, ⟨37, _⟩ => ⟨S1x1, .f32⟩
  | .hbm, ⟨38, _⟩ => ⟨S4096x18x18x2, .f32⟩
  | .local _ .vmem, ⟨0, _⟩ => ⟨S64x18x64, .f32⟩
  | .local _ .vmem, ⟨1, _⟩ => ⟨S64x18x64, .f32⟩
  | .local _ .vmem, ⟨2, _⟩ => ⟨S64x18x18, .f32⟩
  | .local _ .vmem, ⟨3, _⟩ => ⟨S64x18x18, .f32⟩
  | .local _ .vmem, ⟨4, _⟩ => ⟨S64x128, .f32⟩
  | .local _ .vmem, ⟨5, _⟩ => ⟨S1x128, .f32⟩
  | .local _ .vmem, ⟨6, _⟩ => ⟨S1x128, .f32⟩
  | .local _ .vmem, ⟨7, _⟩ => ⟨S128x64, .f32⟩
  | .local _ .vmem, ⟨8, _⟩ => ⟨S1x64, .f32⟩
  | .local _ .vmem, ⟨9, _⟩ => ⟨S1x64, .f32⟩
  | .local _ .vmem, ⟨10, _⟩ => ⟨S64x1, .f32⟩
  | .local _ .vmem, ⟨11, _⟩ => ⟨S1x1, .f32⟩
  | .local _ .vmem, ⟨12, _⟩ => ⟨S18x18, .f32⟩
  | .local _ .vmem, ⟨13, _⟩ => ⟨S18x18, .f32⟩
  | .local _ .vmem, ⟨14, _⟩ => ⟨S64x18x18x2, .f32⟩
  | .local _ .vmem, ⟨15, _⟩ => ⟨S64x18x18x2, .f32⟩
  | _, _ => ⟨S4096x18x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_cst_0 : Ref sig .tc := ⟨.hbm, 15, rfl⟩
abbrev main_cst_1 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst_2 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg12_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem12_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S64x18x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x18x18 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S18x18 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S18x18 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S64x18x18x2 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  bcast_S_S128 : S_.BroadcastsInDim S128 (![] : Fin 0 → Fin S128.rank)
  shapeCasts_S128_S1x128 : S128.ShapeCasts S1x128
  bcast_S_S64 : S_.BroadcastsInDim S64 (![] : Fin 0 → Fin S64.rank)
  shapeCasts_S64_S1x64 : S64.ShapeCasts S1x64
  transposes_S128x64_S64x128_1_0 : S128x64.Transposes [1, 0] S64x128
  transposes_S64x128_S128x64_1_0 : S64x128.Transposes [1, 0] S128x64
  transposes_S1x64_S64x1_1_0 : S1x64.Transposes [1, 0] S64x1
  shapeCasts_S1_S1x1 : S1.ShapeCasts S1x1
  inb_S64x18x64_S64x18x64_0_0_0 : ∀ a, (![0, 0, 0] : Fin 3 → Nat) a + S64x18x64.size a ≤ S64x18x64.size a
  h_S64x18x64 : 0 < S64x18x64.numel
  shapeCasts_S64x18x64_S64x18x1x64 : S64x18x64.ShapeCasts S64x18x1x64
  shapeCasts_S64x18x64_S64x1x18x64 : S64x18x64.ShapeCasts S64x1x18x64
  broadcasts_S64x18x1x64_S64x18x18x64 : S64x18x1x64.Broadcasts S64x18x18x64
  broadcasts_S64x1x18x64_S64x18x18x64 : S64x1x18x64.Broadcasts S64x18x18x64
  shapeCasts_S64x18x18x64_S20736x64 : S64x18x18x64.ShapeCasts S20736x64
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S20736x128 : S1x128.Broadcasts S20736x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S20736x64 : S1x64.Broadcasts S20736x64
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  shapeCasts_S20736x1_S64x18x18 : S20736x1.ShapeCasts S64x18x18
  inb_S18x18_S18x18_0_0 : ∀ a, (![0, 0] : Fin 2 → Nat) a + S18x18.size a ≤ S18x18.size a
  h_S18x18 : 0 < S18x18.numel
  shapeCasts_S18x18_S1x18x18 : S18x18.ShapeCasts S1x18x18
  broadcasts_S1x18x18_S64x18x18 : S1x18x18.Broadcasts S64x18x18
  reduces_S64x18x18_S64x18 : S64x18x18.Reduces [2] S64x18
  shapeCasts_S64x18_S64x18x1 : S64x18.ShapeCasts S64x18x1
  broadcasts_S64x18x1_S64x18x18 : S64x18x1.Broadcasts S64x18x18
  inb_S64x18x18_S64x18x18_0_0_0 : ∀ a, (![0, 0, 0] : Fin 3 → Nat) a + S64x18x18.size a ≤ S64x18x18.size a
  h_S64x18x18 : 0 < S64x18x18.numel
  shapeCasts_S64x18x18_S64x18x18x1 : S64x18x18.ShapeCasts S64x18x18x1
  concatenates_S64x18x18x1_S64x18x18x1_S64x18x18x2_d3 : Shape.Concatenates [S64x18x18x1, S64x18x18x1] S64x18x18x2 3
  inb_S64x18x18x2_S64x18x18x2_0_0_0_0 : ∀ a, (![0, 0, 0, 0] : Fin 4 → Nat) a + S64x18x18x2.size a ≤ S64x18x18x2.size a
  h_S64x18x18x2 : 0 < S64x18x18x2.numel
  dot_S20736x64_S64x128_S20736x128_1_0_0_1_n_n_wf : DotDims.WF S20736x64 S64x128 S20736x128 [1] [0] [0] [1] [] []
  dot_S20736x128_S128x64_S20736x64_1_0_0_1_n_n_wf : DotDims.WF S20736x128 S128x64 S20736x64 [1] [0] [0] [1] [] []
  dot_S20736x64_S64x1_S20736x1_1_0_0_1_n_n_wf : DotDims.WF S20736x64 S64x1 S20736x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x18x64.size a ≤ S4096x18x64.size a
  hwx0_0 : ∀ i : grid0.Coords, EltTy.bits .f32 = 32 ∨ (Rect.block (s := S4096x18x64) S64x18x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x18x18.size a ≤ S4096x18x18.size a
  hwx0_1 : ∀ i : grid0.Coords, EltTy.bits .f32 = 32 ∨ (Rect.block (s := S4096x18x18) S64x18x18.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x64.size a ≤ S128x64.size a
  hwx0_5 : ∀ i : grid0.Coords, EltTy.bits .f32 = 32 ∨ (Rect.block (s := S128x64) S128x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64x1.size a ≤ S64x1.size a
  hwx0_8 : ∀ i : grid0.Coords, EltTy.bits .f32 = 32 ∨ (Rect.block (s := S64x1) S64x1.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x1.size a ≤ S1x1.size a
  hwx0_9 : ∀ i : grid0.Coords, EltTy.bits .f32 = 32 ∨ (Rect.block (s := S1x1) S1x1.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S18x18.size a ≤ S18x18.size a
  hwx0_10 : ∀ i : grid0.Coords, EltTy.bits .f32 = 32 ∨ (Rect.block (s := S18x18) S18x18.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S18x18.size a ≤ S18x18.size a
  hwx0_11 : ∀ i : grid0.Coords, EltTy.bits .f32 = 32 ∨ (Rect.block (s := S18x18) S18x18.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S64x18x18x2.size a ≤ S4096x18x18x2.size a
  hwx0_12 : ∀ i : grid0.Coords, EltTy.bits .f32 = 32 ∨ (Rect.block (s := S4096x18x18x2) S64x18x18x2.size (cc0_transform_12 i) (hinb0_12 i)).WholeWords (EltTy.packing .f32)

variable [Facts₀]

def dot_S20736x64_S64x128_S20736x128_1_0_0_1_n_n : DotDims S20736x64 S64x128 S20736x128 where
  lhsContracting := [1]
  rhsContracting := [0]
  lhsNonContracting := [0]
  rhsNonContracting := [1]
  lhsBatch := []
  rhsBatch := []
  wf := dot_S20736x64_S64x128_S20736x128_1_0_0_1_n_n_wf
def dot_S20736x128_S128x64_S20736x64_1_0_0_1_n_n : DotDims S20736x128 S128x64 S20736x64 where
  lhsContracting := [1]
  rhsContracting := [0]
  lhsNonContracting := [0]
  rhsNonContracting := [1]
  lhsBatch := []
  rhsBatch := []
  wf := dot_S20736x128_S128x64_S20736x64_1_0_0_1_n_n_wf
def dot_S20736x64_S64x1_S20736x1_1_0_0_1_n_n : DotDims S20736x64 S64x1 S20736x1 where
  lhsContracting := [1]
  rhsContracting := [0]
  lhsNonContracting := [0]
  rhsNonContracting := [1]
  lhsBatch := []
  rhsBatch := []
  wf := dot_S20736x64_S64x1_S20736x1_1_0_0_1_n_n_wf

abbrev win0_0 : Pipeline.Window sig grid0 :=
  Pipeline.Window.ofSpec (Memref.whole main_arg0) S64x18x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x18x18.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S128x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v12) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v15) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v18) S64x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v19) S1x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_cst) S18x18.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_cst_0) S18x18.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v20) S64x18x18x2.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S4096x18x64 : Shape := ⟨3, ![4096, 18, 64]⟩
abbrev S4096x18x18 : Shape := ⟨3, ![4096, 18, 18]⟩
abbrev S128x64 : Shape := ⟨2, ![128, 64]⟩
abbrev S128 : Shape := ⟨1, ![128]⟩
abbrev S64x128 : Shape := ⟨2, ![64, 128]⟩
abbrev S64 : Shape := ⟨1, ![64]⟩
abbrev S1x64 : Shape := ⟨2, ![1, 64]⟩
abbrev S1 : Shape := ⟨1, ![1]⟩
abbrev S18x18 : Shape := ⟨2, ![18, 18]⟩
abbrev S4096x18x1x64 : Shape := ⟨4, ![4096, 18, 1, 64]⟩
abbrev S4096x1x18x64 : Shape := ⟨4, ![4096, 1, 18, 64]⟩
abbrev S4096x18x18x64 : Shape := ⟨4, ![4096, 18, 18, 64]⟩
abbrev S4096x18x18x128 : Shape := ⟨4, ![4096, 18, 18, 128]⟩
abbrev S1x1x1x128 : Shape := ⟨4, ![1, 1, 1, 128]⟩
abbrev S_ : Shape := ⟨0, ![]⟩
abbrev S1x1x1x64 : Shape := ⟨4, ![1, 1, 1, 64]⟩
abbrev S4096x18x18x1 : Shape := ⟨4, ![4096, 18, 18, 1]⟩
abbrev S1x18x18 : Shape := ⟨3, ![1, 18, 18]⟩
abbrev S4096x18 : Shape := ⟨2, ![4096, 18]⟩
abbrev S4096x18x1 : Shape := ⟨3, ![4096, 18, 1]⟩
abbrev S4096x18x18x2 : Shape := ⟨4, ![4096, 18, 18, 2]⟩

abbrev nBuf : Space → Nat
  | .hbm => 94
  | .vmem => 0
  | .smem => 0
  | _ => 0

abbrev bufTy : (tb : Table) → Fin (tcTables nBuf tb) → BufTy
  | .hbm, ⟨0, _⟩ => ⟨S4096x18x64, .f32⟩
  | .hbm, ⟨1, _⟩ => ⟨S4096x18x18, .f32⟩
  | .hbm, ⟨2, _⟩ => ⟨S128x64, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S64x128, .f32⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S64, .f32⟩
  | .hbm, ⟨12, _⟩ => ⟨S1x64, .f32⟩
  | .hbm, ⟨13, _⟩ => ⟨S1, .f32⟩
  | .hbm, ⟨14, _⟩ => ⟨S18x18, .f32⟩
  | .hbm, ⟨15, _⟩ => ⟨S18x18, .f32⟩
  | .hbm, ⟨16, _⟩ => ⟨S4096x18x1x64, .f32⟩
  | .hbm, ⟨17, _⟩ => ⟨S4096x1x18x64, .f32⟩
  | .hbm, ⟨18, _⟩ => ⟨S4096x18x18x64, .f32⟩
  | .hbm, ⟨19, _⟩ => ⟨S4096x18x18x64, .f32⟩
  | .hbm, ⟨20, _⟩ => ⟨S4096x18x18x64, .f32⟩
  | .hbm, ⟨21, _⟩ => ⟨S4096x18x18x64, .f32⟩
  | .hbm, ⟨22, _⟩ => ⟨S4096x18x18x128, .f32⟩
  | .hbm, ⟨23, _⟩ => ⟨S1x1x1x128, .f32⟩
  | .hbm, ⟨24, _⟩ => ⟨S4096x18x18x128, .f32⟩
  | .hbm, ⟨25, _⟩ => ⟨S4096x18x18x128, .f32⟩
  | .hbm, ⟨26, _⟩ => ⟨S_, .f32⟩
  | .hbm, ⟨27, _⟩ => ⟨S128, .f32⟩
  | .hbm, ⟨28, _⟩ => ⟨S128, .f32⟩
  | .hbm, ⟨29, _⟩ => ⟨S128, .f32⟩
  | .hbm, ⟨30, _⟩ => ⟨S128, .f32⟩
  | .hbm, ⟨31, _⟩ => ⟨S1x1x1x128, .f32⟩
  | .hbm, ⟨32, _⟩ => ⟨S4096x18x18x128, .f32⟩
  | .hbm, ⟨33, _⟩ => ⟨S4096x18x18x128, .f32⟩
  | .hbm, ⟨34, _⟩ => ⟨S1x1x1x128, .f32⟩
  | .hbm, ⟨35, _⟩ => ⟨S4096x18x18x128, .f32⟩
  | .hbm, ⟨36, _⟩ => ⟨S4096x18x18x128, .f32⟩
  | .hbm, ⟨37, _⟩ => ⟨S_, .f32⟩
  | .hbm, ⟨38, _⟩ => ⟨S4096x18x18x128, .f32⟩
  | .hbm, ⟨39, _⟩ => ⟨S4096x18x18x128, .i1⟩
  | .hbm, ⟨40, _⟩ => ⟨S_, .f32⟩
  | .hbm, ⟨41, _⟩ => ⟨S4096x18x18x128, .f32⟩
  | .hbm, ⟨42, _⟩ => ⟨S4096x18x18x128, .f32⟩
  | .hbm, ⟨43, _⟩ => ⟨S4096x18x18x128, .f32⟩
  | .hbm, ⟨44, _⟩ => ⟨S4096x18x18x64, .f32⟩
  | .hbm, ⟨45, _⟩ => ⟨S1x1x1x64, .f32⟩
  | .hbm, ⟨46, _⟩ => ⟨S4096x18x18x64, .f32⟩
  | .hbm, ⟨47, _⟩ => ⟨S4096x18x18x64, .f32⟩
  | .hbm, ⟨48, _⟩ => ⟨S_, .f32⟩
  | .hbm, ⟨49, _⟩ => ⟨S64, .f32⟩
  | .hbm, ⟨50, _⟩ => ⟨S64, .f32⟩
  | .hbm, ⟨51, _⟩ => ⟨S64, .f32⟩
  | .hbm, ⟨52, _⟩ => ⟨S64, .f32⟩
  | .hbm, ⟨53, _⟩ => ⟨S1x1x1x64, .f32⟩
  | .hbm, ⟨54, _⟩ => ⟨S4096x18x18x64, .f32⟩
  | .hbm, ⟨55, _⟩ => ⟨S4096x18x18x64, .f32⟩
  | .hbm, ⟨56, _⟩ => ⟨S1x1x1x64, .f32⟩
  | .hbm, ⟨57, _⟩ => ⟨S4096x18x18x64, .f32⟩
  | .hbm, ⟨58, _⟩ => ⟨S4096x18x18x64, .f32⟩
  | .hbm, ⟨59, _⟩ => ⟨S_, .f32⟩
  | .hbm, ⟨60, _⟩ => ⟨S4096x18x18x64, .f32⟩
  | .hbm, ⟨61, _⟩ => ⟨S4096x18x18x64, .i1⟩
  | .hbm, ⟨62, _⟩ => ⟨S_, .f32⟩
  | .hbm, ⟨63, _⟩ => ⟨S4096x18x18x64, .f32⟩
  | .hbm, ⟨64, _⟩ => ⟨S4096x18x18x64, .f32⟩
  | .hbm, ⟨65, _⟩ => ⟨S4096x18x18x64, .f32⟩
  | .hbm, ⟨66, _⟩ => ⟨S4096x18x18x1, .f32⟩
  | .hbm, ⟨67, _⟩ => ⟨S4096x18x18, .f32⟩
  | .hbm, ⟨68, _⟩ => ⟨S_, .f32⟩
  | .hbm, ⟨69, _⟩ => ⟨S4096x18x18, .f32⟩
  | .hbm, ⟨70, _⟩ => ⟨S4096x18x18, .f32⟩
  | .hbm, ⟨71, _⟩ => ⟨S1x18x18, .f32⟩
  | .hbm, ⟨72, _⟩ => ⟨S4096x18x18, .f32⟩
  | .hbm, ⟨73, _⟩ => ⟨S4096x18x18, .f32⟩
  | .hbm, ⟨74, _⟩ => ⟨S1x18x18, .f32⟩
  | .hbm, ⟨75, _⟩ => ⟨S4096x18x18, .f32⟩
  | .hbm, ⟨76, _⟩ => ⟨S4096x18x18, .f32⟩
  | .hbm, ⟨77, _⟩ => ⟨S_, .f32⟩
  | .hbm, ⟨78, _⟩ => ⟨S4096x18, .f32⟩
  | .hbm, ⟨79, _⟩ => ⟨S_, .f32⟩
  | .hbm, ⟨80, _⟩ => ⟨S4096x18, .f32⟩
  | .hbm, ⟨81, _⟩ => ⟨S4096x18, .f32⟩
  | .hbm, ⟨82, _⟩ => ⟨S4096x18x1, .f32⟩
  | .hbm, ⟨83, _⟩ => ⟨S4096x18x18, .f32⟩
  | .hbm, ⟨84, _⟩ => ⟨S4096x18x18, .f32⟩
  | .hbm, ⟨85, _⟩ => ⟨S4096x18x18, .f32⟩
  | .hbm, ⟨86, _⟩ => ⟨S_, .f32⟩
  | .hbm, ⟨87, _⟩ => ⟨S4096x18, .f32⟩
  | .hbm, ⟨88, _⟩ => ⟨S4096x18x1, .f32⟩
  | .hbm, ⟨89, _⟩ => ⟨S4096x18x18, .f32⟩
  | .hbm, ⟨90, _⟩ => ⟨S4096x18x18, .f32⟩
  | .hbm, ⟨91, _⟩ => ⟨S4096x18x18x1, .f32⟩
  | .hbm, ⟨92, _⟩ => ⟨S4096x18x18x1, .f32⟩
  | .hbm, ⟨93, _⟩ => ⟨S4096x18x18x2, .f32⟩
  | _, _ => ⟨S4096x18x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_cst_0 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst_1 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_2 : Ref sig .tc := ⟨.hbm, 37, rfl⟩
abbrev main_v20 : Ref sig .tc := ⟨.hbm, 38, rfl⟩
abbrev main_v21 : Ref sig .tc := ⟨.hbm, 39, rfl⟩
abbrev main_cst_3 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_4 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_5 : Ref sig .tc := ⟨.hbm, 59, rfl⟩
abbrev main_v39 : Ref sig .tc := ⟨.hbm, 60, rfl⟩
abbrev main_v40 : Ref sig .tc := ⟨.hbm, 61, rfl⟩
abbrev main_cst_6 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_7 : Ref sig .tc := ⟨.hbm, 77, rfl⟩
abbrev main_v55 : Ref sig .tc := ⟨.hbm, 78, rfl⟩
abbrev main_cst_8 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_9 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩

abbrev nD : Nat := 1
abbrev τ : Topo := Topo.v7x

variable {F : FTy → Type} [FloatOps F]

class Facts₀ : Prop where
  bcast_S4096x18x64_S4096x18x1x64_0_1_3 : S4096x18x64.BroadcastsInDim S4096x18x1x64 (![0, 1, 3] : Fin 3 → Fin S4096x18x1x64.rank)
  bcast_S4096x18x64_S4096x1x18x64_0_2_3 : S4096x18x64.BroadcastsInDim S4096x1x18x64 (![0, 2, 3] : Fin 3 → Fin S4096x1x18x64.rank)
  bcast_S4096x18x1x64_S4096x18x18x64_0_1_2_3 : S4096x18x1x64.BroadcastsInDim S4096x18x18x64 (![0, 1, 2, 3] : Fin 4 → Fin S4096x18x18x64.rank)
  bcast_S4096x1x18x64_S4096x18x18x64_0_1_2_3 : S4096x1x18x64.BroadcastsInDim S4096x18x18x64 (![0, 1, 2, 3] : Fin 4 → Fin S4096x18x18x64.rank)
  bcast_S128_S1x1x1x128_3 : S128.BroadcastsInDim S1x1x1x128 (![3] : Fin 1 → Fin S1x1x1x128.rank)
  bcast_S1x1x1x128_S4096x18x18x128_0_1_2_3 : S1x1x1x128.BroadcastsInDim S4096x18x18x128 (![0, 1, 2, 3] : Fin 4 → Fin S4096x18x18x128.rank)
  bcast_S_S128 : S_.BroadcastsInDim S128 (![] : Fin 0 → Fin S128.rank)
  bcast_S_S4096x18x18x128 : S_.BroadcastsInDim S4096x18x18x128 (![] : Fin 0 → Fin S4096x18x18x128.rank)
  bcast_S64_S1x1x1x64_3 : S64.BroadcastsInDim S1x1x1x64 (![3] : Fin 1 → Fin S1x1x1x64.rank)
  bcast_S1x1x1x64_S4096x18x18x64_0_1_2_3 : S1x1x1x64.BroadcastsInDim S4096x18x18x64 (![0, 1, 2, 3] : Fin 4 → Fin S4096x18x18x64.rank)
  bcast_S_S64 : S_.BroadcastsInDim S64 (![] : Fin 0 → Fin S64.rank)
  bcast_S_S4096x18x18x64 : S_.BroadcastsInDim S4096x18x18x64 (![] : Fin 0 → Fin S4096x18x18x64.rank)
  shapeCasts_S4096x18x18x1_S4096x18x18 : S4096x18x18x1.ShapeCasts S4096x18x18
  shapeCasts_S1_S_ : S1.ShapeCasts S_
  bcast_S_S4096x18x18 : S_.BroadcastsInDim S4096x18x18 (![] : Fin 0 → Fin S4096x18x18.rank)
  bcast_S18x18_S1x18x18_1_2 : S18x18.BroadcastsInDim S1x18x18 (![1, 2] : Fin 2 → Fin S1x18x18.rank)
  bcast_S1x18x18_S4096x18x18_0_1_2 : S1x18x18.BroadcastsInDim S4096x18x18 (![0, 1, 2] : Fin 3 → Fin S4096x18x18.rank)
  reducesTo_S4096x18x18_S4096x18_d2 : S4096x18x18.ReducesTo [2] S4096x18
  h_S_ : 0 < S_.numel
  bcast_S_S4096x18 : S_.BroadcastsInDim S4096x18 (![] : Fin 0 → Fin S4096x18.rank)
  bcast_S4096x18_S4096x18x1_0_1 : S4096x18.BroadcastsInDim S4096x18x1 (![0, 1] : Fin 2 → Fin S4096x18x1.rank)
  bcast_S4096x18x1_S4096x18x18_0_1_2 : S4096x18x1.BroadcastsInDim S4096x18x18 (![0, 1, 2] : Fin 3 → Fin S4096x18x18.rank)
  bcast_S4096x18x18_S4096x18x18x1_0_1_2 : S4096x18x18.BroadcastsInDim S4096x18x18x1 (![0, 1, 2] : Fin 3 → Fin S4096x18x18x1.rank)
  concatenates_S4096x18x18x1_S4096x18x18x1_S4096x18x18x2_d3 : Shape.Concatenates [S4096x18x18x1, S4096x18x18x1] S4096x18x18x2 3
  dot_S4096x18x18x64_S128x64_S4096x18x18x128_3_1_012_0_n_n_wf : DotDims.WF S4096x18x18x64 S128x64 S4096x18x18x128 [3] [1] [0, 1, 2] [0] [] []
  dot_S4096x18x18x128_S64x128_S4096x18x18x64_3_1_012_0_n_n_wf : DotDims.WF S4096x18x18x128 S64x128 S4096x18x18x64 [3] [1] [0, 1, 2] [0] [] []
  dot_S4096x18x18x64_S1x64_S4096x18x18x1_3_1_012_0_n_n_wf : DotDims.WF S4096x18x18x64 S1x64 S4096x18x18x1 [3] [1] [0, 1, 2] [0] [] []

variable [Facts₀]

def dot_S4096x18x18x64_S128x64_S4096x18x18x128_3_1_012_0_n_n : DotDims S4096x18x18x64 S128x64 S4096x18x18x128 where
  lhsContracting := [3]
  rhsContracting := [1]
  lhsNonContracting := [0, 1, 2]
  rhsNonContracting := [0]
  lhsBatch := []
  rhsBatch := []
  wf := dot_S4096x18x18x64_S128x64_S4096x18x18x128_3_1_012_0_n_n_wf
def dot_S4096x18x18x128_S64x128_S4096x18x18x64_3_1_012_0_n_n : DotDims S4096x18x18x128 S64x128 S4096x18x18x64 where
  lhsContracting := [3]
  rhsContracting := [1]
  lhsNonContracting := [0, 1, 2]
  rhsNonContracting := [0]
  lhsBatch := []
  rhsBatch := []
  wf := dot_S4096x18x18x128_S64x128_S4096x18x18x64_3_1_012_0_n_n_wf
def dot_S4096x18x18x64_S1x64_S4096x18x18x1_3_1_012_0_n_n : DotDims S4096x18x18x64 S1x64 S4096x18x18x1 where
  lhsContracting := [3]
  rhsContracting := [1]
  lhsNonContracting := [0, 1, 2]
  rhsNonContracting := [0]
  lhsBatch := []
  rhsBatch := []
  wf := dot_S4096x18x18x64_S1x64_S4096x18x18x1_3_1_012_0_n_n_wf

class Facts : Prop extends Facts₀ where

variable [Facts]
-- ==== Proof.PreFacts.lean ====
import proofs.«134835_j64166811403051_1_alg».proof.Pre_finite_inputs
import proofs.«134835_j64166811403051_1_alg».proof.Proof.Gen.Pre_finite_inputs
import Idealize.ShloMosaic.PureOps.Ideal
import Idealize.ShloMosaic.PureOps.Ideal.Laws
import Idealize.ShloMosaic.Lib.ValueIdx
import Idealize.ShloMosaic.Lib.ReduceAll

/-!
  What the precondition says about the fourteen argument arrays when floats are extended reals.

  The precondition is one i1 word: the and of sixteen all-reductions. Fourteen of them reduce the words
  |a i| < +infinity over one argument array each; two more reduce the words a i + eps > 0 over the two
  variance vectors (eps the f32 pattern 0x3727C5AC). An and of one-bit words is 1 only when each is, and an
  all-reduction by and is 1 only when every element is; so the word being 1 gives, entry by entry,
  max x (-x) < ⊤ — which fails at both infinities, hence x is a real — and 0 < x + eps.
-/

noncomputable section
namespace Cert.PreFacts
open Idealize.ShloMosaic Cert.Pre_finite_inputs

/-- Every entry of the array is a real number (neither infinity). -/
def AllReal {S : Shape} (a : FVec Ideal S .f32) : Prop := ∀ i : S.Idx, ∃ r : ℝ, a i = (r : EReal)

/-- The domain the precondition states: all fourteen arrays real-valued, and both variance vectors above -eps. -/
structure Dom (a0 : FVec Ideal S4096x18x64 .f32) (a1 : FVec Ideal S4096x18x18 .f32) (a2 : FVec Ideal S128x64 .f32)
    (a3 a4 a5 a6 : FVec Ideal S128 .f32) (a7 : FVec Ideal S64x128 .f32) (a8 a9 a10 a11 : FVec Ideal S64 .f32)
    (a12 : FVec Ideal S1x64 .f32) (a13 : FVec Ideal S1 .f32) : Prop where
  r0 : AllReal a0
  r1 : AllReal a1
  r2 : AllReal a2
  r3 : AllReal a3
  r4 : AllReal a4
  r5 : AllReal a5
  r6 : AllReal a6
  r7 : AllReal a7
  r8 : AllReal a8
  r9 : AllReal a9
  r10 : AllReal a10
  r11 : AllReal a11
  r12 : AllReal a12
  r13 : AllReal a13
  pos6 : ∀ i, (0 : EReal) < a6 i + Ideal.ofBits .f32 0x3727C5AC#32
  pos11 : ∀ i, (0 : EReal) < a11 i + Ideal.ofBits .f32 0x3727C5AC#32

/-- The rank-0 result shape has exactly one index. -/
theorem subsingleton_S_ : Subsingleton S_.Idx := ⟨fun a b => funext fun d => d.elim0⟩

/-- The f32 pattern of +infinity denotes the top extended real. -/
theorem inf_f32 : Ideal.ofBits .f32 0x7F800000#32 = (⊤ : EReal) := by simp [Ideal.ofBits, Ideal.ieee]

theorem ofBool_eq_one (b : Bool) : BitVec.ofBool b = 1#1 ↔ b = true := by cases b <;> decide

/-- |x| < +infinity holds only at a real x: at either infinity max x (-x) is the top element. -/
theorem real_of_abs_lt_top (x : EReal) (h : Ideal.cmp .olt (max x (-x)) (⊤ : EReal) = 1#1) : ∃ r : ℝ, x = (r : EReal) := by
  unfold Ideal.cmp at h
  rw [ofBool_eq_one] at h
  simp only [decide_eq_true_eq] at h
  induction x using EReal.rec with
  | bot => simp at h
  | coe r => exact ⟨r, rfl⟩
  | top => simp at h

/-- x + eps > 0 as a comparison word says 0 < x + eps. -/
theorem pos_of_gt_zero (x eps : EReal) (h : Ideal.cmp .ogt (x + eps) (Ideal.ofBits .f32 0x00000000#32) = 1#1) : (0 : EReal) < x + eps := by
  unfold Ideal.cmp at h
  rw [ofBool_eq_one, Ideal.ofBits_zero_f32] at h
  simpa only [decide_eq_true_eq] using h

/-- An all-reduce by and of the words |a i| < +infinity that is 1 says every entry of a is real. -/
theorem allReal_of_all {S : Shape} {axes : List (Fin S.rank)} (a : FVec Ideal S .f32)
    (hb : S_.BroadcastsInDim S (![] : Fin 0 → Fin S.rank)) (hr : S.ReducesTo axes S_) (hu : 0 < S_.numel)
    (e : Host.reduce IntOp.andi (cmpf .olt (Host.absf a) (broadcastInDim S ![] hb (constant (F := Ideal) S_ .f32 0x7F800000#32)))
      (constantI S_ 1 1#1) hr hu ValueIdx.ix0 = 1#1) : AllReal a := by
  intro i
  haveI := subsingleton_S_
  have hi := Host.reduce_andi_all _ _ hr hu _ e i
  refine real_of_abs_lt_top (a i) ?_
  rw [← inf_f32]
  exact hi

/-- An all-reduce by and of the words a i + eps > 0 that is 1 says 0 < a i + eps at every entry. -/
theorem pos_of_all {S : Shape} {axes : List (Fin S.rank)} (a : FVec Ideal S .f32)
    (hb : S_.BroadcastsInDim S (![] : Fin 0 → Fin S.rank)) (hr : S.ReducesTo axes S_) (hu : 0 < S_.numel)
    (e : Host.reduce IntOp.andi (cmpf .ogt (addf a (broadcastInDim S ![] hb (constant (F := Ideal) S_ .f32 0x3727C5AC#32)))
        (broadcastInDim S ![] hb (constant (F := Ideal) S_ .f32 0x00000000#32)))
      (constantI S_ 1 1#1) hr hu ValueIdx.ix0 = 1#1) : ∀ i, (0 : EReal) < a i + Ideal.ofBits .f32 0x3727C5AC#32 := by
  intro i
  haveI := subsingleton_S_
  have hi := Host.reduce_andi_all _ _ hr hu _ e i
  exact pos_of_gt_zero (a i) _ hi

/-- The and of two one-element words, read at the single index, is 1 only when both are. -/
theorem andi_ix0 (x y : IVec S_ 1) (h : andi x y ValueIdx.ix0 = 1#1) : x ValueIdx.ix0 = 1#1 ∧ y ValueIdx.ix0 = 1#1 :=
  IntOp.andi_eq_one.1 h

theorem dom_of_pre [hP : Cert.Pre_finite_inputs.Facts] (a0 : FVec Ideal S4096x18x64 .f32) (a1 : FVec Ideal S4096x18x18 .f32) (a2 : FVec Ideal S128x64 .f32)
    (a3 a4 a5 a6 : FVec Ideal S128 .f32) (a7 : FVec Ideal S64x128 .f32) (a8 a9 a10 a11 : FVec Ideal S64 .f32)
    (a12 : FVec Ideal S1x64 .f32) (a13 : FVec Ideal S1 .f32)
    (h : Cert.Pre_finite_inputs.fn (F := Ideal) a0 a1 a2 a3 a4 a5 a6 a7 a8 a9 a10 a11 a12 a13 = fun _ => 1#1) :
    Dom a0 a1 a2 a3 a4 a5 a6 a7 a8 a9 a10 a11 a12 a13 := by
  -- the precondition's one word, with the printed chain of lets unfolded: an and of sixteen all-reductions
  have e := congrFun h ValueIdx.ix0
  dsimp only [fn] at e
  dsimp only [fn_part1] at e
  dsimp only [fn_part2] at e
  dsimp only [fn_part3] at e
  dsimp only [fn_part4] at e
  -- the conjuncts, last first
  obtain ⟨e, p11⟩ := andi_ix0 _ _ e
  obtain ⟨e, p6⟩ := andi_ix0 _ _ e
  obtain ⟨e, q13⟩ := andi_ix0 _ _ e
  obtain ⟨e, q12⟩ := andi_ix0 _ _ e
  obtain ⟨e, q11⟩ := andi_ix0 _ _ e
  obtain ⟨e, q10⟩ := andi_ix0 _ _ e
  obtain ⟨e, q9⟩ := andi_ix0 _ _ e
  obtain ⟨e, q8⟩ := andi_ix0 _ _ e
  obtain ⟨e, q7⟩ := andi_ix0 _ _ e
  obtain ⟨e, q6⟩ := andi_ix0 _ _ e
  obtain ⟨e, q5⟩ := andi_ix0 _ _ e
  obtain ⟨e, q4⟩ := andi_ix0 _ _ e
  obtain ⟨e, q3⟩ := andi_ix0 _ _ e
  obtain ⟨e, q2⟩ := andi_ix0 _ _ e
  obtain ⟨q0, q1⟩ := andi_ix0 _ _ e
  exact
    { r0 := allReal_of_all a0 _ _ _ q0
      r1 := allReal_of_all a1 _ _ _ q1
      r2 := allReal_of_all a2 _ _ _ q2
      r3 := allReal_of_all a3 _ _ _ q3
      r4 := allReal_of_all a4 _ _ _ q4
      r5 := allReal_of_all a5 _ _ _ q5
      r6 := allReal_of_all a6 _ _ _ q6
      r7 := allReal_of_all a7 _ _ _ q7
      r8 := allReal_of_all a8 _ _ _ q8
      r9 := allReal_of_all a9 _ _ _ q9
      r10 := allReal_of_all a10 _ _ _ q10
      r11 := allReal_of_all a11 _ _ _ q11
      r12 := allReal_of_all a12 _ _ _ q12
      r13 := allReal_of_all a13 _ _ _ q13
      pos6 := pos_of_all a6 _ _ _ p6
      pos11 := pos_of_all a11 _ _ _ p11 }

end Cert.PreFacts
end
-- ==== Proof.Spec.lean ====
/-
  The value both programs compute, index by index, over the extended reals.

  A batch of 4096 graphs, 18 nodes each, 64 features per node. For a pair of nodes (i, j) of graph b the squared
  feature difference d(b,i,j,c) = (x(b,i,c) - x(b,j,c))² goes through a per-pair three-layer perceptron
  64 → 128 → 64 → 1: a linear map, an affine normalisation with scale s = g / √(v + ε), a leaky rectifier, twice, then
  a linear map to one logit plus a bias. The logit is masked (times M(i,j), plus E(i,j)) and each row i is
  normalised by a softmax over j. The result pairs the given edge array with that softmax along a last axis of
  extent 2.

  The normalisation is written in two arrangements, `bnR x m s b = (x - m)·s + b` and `bnK x m s b = x·s + (b - m·s)`;
  everything else is common, so the whole function takes the arrangement as a parameter.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

abbrev SN : Shape := ⟨3, ![4096, 18, 64]⟩
abbrev SE : Shape := ⟨3, ![4096, 18, 18]⟩
abbrev SW1 : Shape := ⟨2, ![128, 64]⟩
abbrev SV1 : Shape := ⟨1, ![128]⟩
abbrev SW2 : Shape := ⟨2, ![64, 128]⟩
abbrev SV2 : Shape := ⟨1, ![64]⟩
abbrev SW3 : Shape := ⟨2, ![1, 64]⟩
abbrev SB3 : Shape := ⟨1, ![1]⟩
abbrev SM : Shape := ⟨2, ![18, 18]⟩
abbrev SO : Shape := ⟨4, ![4096, 18, 18, 2]⟩

/-- The variance offset ε, the f32 nearest 1e-5, as the real it denotes. -/
def eps : EReal := Ideal.ofBits .f32 0x3727C5AC#32
/-- Zero. -/
def zero : EReal := Ideal.ofBits .f32 0x00000000#32
/-- The rectifier's negative slope, the f32 nearest 0.01. -/
def slope : EReal := Ideal.ofBits .f32 0x3C23D70A#32
/-- Minus infinity, the start of a running maximum. -/
def ninf : EReal := Ideal.ofBits .f32 0xFF800000#32

/-- The normalisation's scale g / √(v + ε). -/
def scale (g v : EReal) : EReal := Ideal.div g (Ideal.sqrt (v + eps))

/-- (x - m)·s + b. -/
def bnR (x m s b : EReal) : EReal := (x - m) * s + b
/-- x·s + (b - m·s). -/
def bnK (x m s b : EReal) : EReal := x * s + (b - m * s)

/-- The leaky rectifier: p where p ≥ 0, slope·p elsewhere. -/
def act (p : EReal) : EReal := Scalar.select (Ideal.cmp .oge p zero) p (slope * p)

/-- The squared feature difference of nodes i and j of graph b at feature c. -/
def sim (a0 : FVec Ideal SN .f32) (b : Fin 4096) (i j : Fin 18) (c : Fin 64) : EReal :=
  (a0 (ix3 b i c) - a0 (ix3 b j c)) * (a0 (ix3 b i c) - a0 (ix3 b j c))

/-- First linear map: Σ_c d(b,i,j,c) · W1(o,c). -/
def x1 (a0 : FVec Ideal SN .f32) (a2 : FVec Ideal SW1 .f32) (b : Fin 4096) (i j : Fin 18) (o : Fin 128) : EReal :=
  ∑ c : Fin 64, sim a0 b i j c * a2 (ix2 o c)

/-- First hidden layer. -/
def h1 (bn : EReal → EReal → EReal → EReal → EReal) (a0 : FVec Ideal SN .f32) (a2 : FVec Ideal SW1 .f32)
    (a3 a4 a5 a6 : FVec Ideal SV1 .f32) (b : Fin 4096) (i j : Fin 18) (o : Fin 128) : EReal :=
  act (bn (x1 a0 a2 b i j o) (a5 (ix1 o)) (scale (a3 (ix1 o)) (a6 (ix1 o))) (a4 (ix1 o)))

/-- Second linear map: Σ_o h1(b,i,j,o) · W2(c,o). -/
def x2 (bn : EReal → EReal → EReal → EReal → EReal) (a0 : FVec Ideal SN .f32) (a2 : FVec Ideal SW1 .f32)
    (a3 a4 a5 a6 : FVec Ideal SV1 .f32) (a7 : FVec Ideal SW2 .f32) (b : Fin 4096) (i j : Fin 18) (c : Fin 64) : EReal :=
  ∑ o : Fin 128, h1 bn a0 a2 a3 a4 a5 a6 b i j o * a7 (ix2 c o)

/-- Second hidden layer. -/
def h2 (bn : EReal → EReal → EReal → EReal → EReal) (a0 : FVec Ideal SN .f32) (a2 : FVec Ideal SW1 .f32)
    (a3 a4 a5 a6 : FVec Ideal SV1 .f32) (a7 : FVec Ideal SW2 .f32) (a8 a9 a10 a11 : FVec Ideal SV2 .f32)
    (b : Fin 4096) (i j : Fin 18) (c : Fin 64) : EReal :=
  act (bn (x2 bn a0 a2 a3 a4 a5 a6 a7 b i j c) (a10 (ix1 c)) (scale (a8 (ix1 c)) (a11 (ix1 c))) (a9 (ix1 c)))

/-- The logit of the pair (i, j): Σ_c h2(b,i,j,c) · W3(0,c) + b3. -/
def logit (bn : EReal → EReal → EReal → EReal → EReal) (a0 : FVec Ideal SN .f32) (a2 : FVec Ideal SW1 .f32)
    (a3 a4 a5 a6 : FVec Ideal SV1 .f32) (a7 : FVec Ideal SW2 .f32) (a8 a9 a10 a11 : FVec Ideal SV2 .f32)
    (a12 : FVec Ideal SW3 .f32) (a13 : FVec Ideal SB3 .f32) (b : Fin 4096) (i j : Fin 18) : EReal :=
  (∑ c : Fin 64, h2 bn a0 a2 a3 a4 a5 a6 a7 a8 a9 a10 a11 b i j c * a12 (ix2 (0 : Fin 1) c)) + a13 (ix1 (0 : Fin 1))

/-- The masked logit: logit · M(i,j) + E(i,j). -/
def z (bn : EReal → EReal → EReal → EReal → EReal) (mk ey : FVec Ideal SM .f32) (a0 : FVec Ideal SN .f32)
    (a2 : FVec Ideal SW1 .f32) (a3 a4 a5 a6 : FVec Ideal SV1 .f32) (a7 : FVec Ideal SW2 .f32)
    (a8 a9 a10 a11 : FVec Ideal SV2 .f32) (a12 : FVec Ideal SW3 .f32) (a13 : FVec Ideal SB3 .f32)
    (b : Fin 4096) (i j : Fin 18) : EReal :=
  logit bn a0 a2 a3 a4 a5 a6 a7 a8 a9 a10 a11 a12 a13 b i j * mk (ix2 i j) + ey (ix2 i j)

/-- A row's maximum, taken from minus infinity. -/
def rowmax (r : Fin 18 → EReal) : EReal := max ninf ((Finset.univ : Finset (Fin 18)).fold max ninf r)
/-- exp (r j - max r). -/
def expo (r : Fin 18 → EReal) (j : Fin 18) : EReal := Ideal.exp (r j - rowmax r)
/-- The softmax of a row at j. -/
def soft (r : Fin 18 → EReal) (j : Fin 18) : EReal := Ideal.div (expo r j) (∑ k : Fin 18, expo r k)

/-- The whole result: channel 0 the given edge array, channel 1 the row softmax of the masked logits. -/
def G (bn : EReal → EReal → EReal → EReal → EReal) (mk ey : FVec Ideal SM .f32) (a0 : FVec Ideal SN .f32)
    (a1 : FVec Ideal SE .f32) (a2 : FVec Ideal SW1 .f32) (a3 a4 a5 a6 : FVec Ideal SV1 .f32) (a7 : FVec Ideal SW2 .f32)
    (a8 a9 a10 a11 : FVec Ideal SV2 .f32) (a12 : FVec Ideal SW3 .f32) (a13 : FVec Ideal SB3 .f32) : FVec Ideal SO .f32 :=
  fun idx =>
    if (idx 3).val = 0 then a1 (ix3 (idx 0) (idx 1) (idx 2))
    else soft (fun k => z bn mk ey a0 a2 a3 a4 a5 a6 a7 a8 a9 a10 a11 a12 a13 (idx 0) (idx 1) k) (idx 2)

theorem G_ch0 (bn : EReal → EReal → EReal → EReal → EReal) (mk ey : FVec Ideal SM .f32) (a0 : FVec Ideal SN .f32)
    (a1 : FVec Ideal SE .f32) (a2 : FVec Ideal SW1 .f32) (a3 a4 a5 a6 : FVec Ideal SV1 .f32) (a7 : FVec Ideal SW2 .f32)
    (a8 a9 a10 a11 : FVec Ideal SV2 .f32) (a12 : FVec Ideal SW3 .f32) (a13 : FVec Ideal SB3 .f32)
    (b : Fin 4096) (i j : Fin 18) :
    G bn mk ey a0 a1 a2 a3 a4 a5 a6 a7 a8 a9 a10 a11 a12 a13 (ix4 b i j (0 : Fin 2)) = a1 (ix3 b i j) := rfl

theorem G_ch1 (bn : EReal → EReal → EReal → EReal → EReal) (mk ey : FVec Ideal SM .f32) (a0 : FVec Ideal SN .f32)
    (a1 : FVec Ideal SE .f32) (a2 : FVec Ideal SW1 .f32) (a3 a4 a5 a6 : FVec Ideal SV1 .f32) (a7 : FVec Ideal SW2 .f32)
    (a8 a9 a10 a11 : FVec Ideal SV2 .f32) (a12 : FVec Ideal SW3 .f32) (a13 : FVec Ideal SB3 .f32)
    (b : Fin 4096) (i j : Fin 18) :
    G bn mk ey a0 a1 a2 a3 a4 a5 a6 a7 a8 a9 a10 a11 a12 a13 (ix4 b i j (1 : Fin 2))
      = soft (fun k => z bn mk ey a0 a2 a3 a4 a5 a6 a7 a8 a9 a10 a11 a12 a13 b i k) j := rfl

/-- The mask and the added diagonal as arrays: the f32 patterns of a table, row-major. -/
def table (lit : Fin 324 → BitVec 32) : FVec Ideal SM .f32 := fun i => Ideal.ofBits .f32 (lit (SM.rowMajor i))

end Cert.Spec

end
-- ==== Proof.SpecAlg.lean ====
/-
  The two arrangements of the affine normalisation agree on real operands, so the two instances of the
  whole function agree on the domain the precondition states.

  For real x, m, s, b the identity x·s + (b - m·s) = (x - m)·s + b is distributivity in the field of reals; on the
  extended reals it can fail, but only when an operand is infinite. So the proof goes layer by layer and carries
  "this value is a real" along: the squared differences and the first linear map are finite sums of products of
  reals; the scale g / √(v + ε) is a real because v + ε is a positive real, so its square root is a nonzero real;
  a normalised value is then a real, and the leaky rectifier returns either its argument or a real multiple of it.
  The same holds for the second layer. From the second normalisation on, the two functions are built from equal
  values by the same operations (the last linear map, the mask, the row softmax), whatever those values are.
-/
import proofs.«134835_j64166811403051_1_alg».proof.Proof.Spec

noncomputable section

open scoped BigOperators

namespace Cert.Spec

open Idealize.ShloMosaic Idealize.ShloMosaic.ValueIdx

/-- The extended real is a real number (neither infinity). -/
def IsReal (x : EReal) : Prop := ∃ r : ℝ, x = (r : EReal)

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.sub {x y : EReal} (hx : IsReal x) (hy : IsReal y) : IsReal (x - y) := by
  obtain ⟨a, rfl⟩ := hx
  obtain ⟨b, rfl⟩ := hy
  exact ⟨a - b, (EReal.coe_sub a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- A finite sum of reals is a real. -/
theorem IsReal.sum {ι : Type} (s : Finset ι) (f : ι → EReal) (hf : ∀ i ∈ s, IsReal (f i)) : IsReal (∑ i ∈ s, f i) := by
  classical
  revert hf
  refine Finset.induction_on s ?_ ?_
  · intro _
    exact ⟨0, by rw [Finset.sum_empty, EReal.coe_zero]⟩
  · intro a t ha ih hf
    rw [Finset.sum_insert ha]
    exact (hf a (Finset.mem_insert_self a t)).add (ih fun i hi => hf i (Finset.mem_insert_of_mem hi))

/-- On reals the two arrangements of the normalisation are one value: distributivity. -/
theorem bn_eq {x m s b : EReal} (hx : IsReal x) (hm : IsReal m) (hs : IsReal s) (hb : IsReal b) :
    bnK x m s b = bnR x m s b := by
  obtain ⟨x, rfl⟩ := hx
  obtain ⟨m, rfl⟩ := hm
  obtain ⟨s, rfl⟩ := hs
  obtain ⟨b, rfl⟩ := hb
  unfold bnK bnR
  have e : x * s + (b - m * s) = (x - m) * s + b := by ring
  exact_mod_cast congrArg (fun t : ℝ => (t : EReal)) e

theorem bnR_real {x m s b : EReal} (hx : IsReal x) (hm : IsReal m) (hs : IsReal s) (hb : IsReal b) :
    IsReal (bnR x m s b) := by
  unfold bnR
  exact ((hx.sub hm).mul hs).add hb

/-- A pattern whose exponent field is not all ones denotes a real: a subnormal or a normal number. -/
theorem ieee_real (e m : Nat) {w : Nat} (b : BitVec w) (h : (b.extractLsb' m e).toNat ≠ 2 ^ e - 1) :
    IsReal (Ideal.ieee e m b) := by
  unfold Ideal.ieee
  dsimp only
  rw [if_neg h]
  split
  · exact ⟨_, rfl⟩
  · exact ⟨_, rfl⟩

theorem eps_real : IsReal eps := by
  show IsReal (Ideal.ieee 8 23 (0x3727C5AC#32))
  exact ieee_real 8 23 _ (by decide)

theorem slope_real : IsReal slope := by
  show IsReal (Ideal.ieee 8 23 (0x3C23D70A#32))
  exact ieee_real 8 23 _ (by decide)

/-- The scale g / √(v + ε) is a real when g and v are and v + ε is positive: the root is a nonzero real. -/
theorem scale_real {g v : EReal} (hg : IsReal g) (hv : IsReal v) (hpos : 0 < v + eps) : IsReal (scale g v) := by
  obtain ⟨rg, rfl⟩ := hg
  obtain ⟨rv, rfl⟩ := hv
  obtain ⟨re, hre⟩ := eps_real
  unfold scale
  rw [hre] at hpos ⊢
  rw [← EReal.coe_add] at hpos ⊢
  have hp : 0 < rv + re := EReal.coe_pos.1 hpos
  rw [Ideal.sqrt_coe, if_neg (not_lt.2 hp.le), Ideal.div_coe (ne_of_gt (Real.sqrt_pos.2 hp)), ← EReal.coe_mul]
  exact ⟨_, rfl⟩

/-- The leaky rectifier of a real is a real: the argument itself, or the slope times it. -/
theorem act_real {p : EReal} (hp : IsReal p) : IsReal (act p) := by
  unfold act Scalar.select
  split
  · exact hp
  · exact slope_real.mul hp

theorem sim_real (a0 : FVec Ideal SN .f32) (r0 : ∀ i, IsReal (a0 i)) (b : Fin 4096) (i j : Fin 18) (c : Fin 64) :
    IsReal (sim a0 b i j c) := by
  unfold sim
  exact ((r0 _).sub (r0 _)).mul ((r0 _).sub (r0 _))

theorem x1_real (a0 : FVec Ideal SN .f32) (a2 : FVec Ideal SW1 .f32) (r0 : ∀ i, IsReal (a0 i)) (r2 : ∀ i, IsReal (a2 i))
    (b : Fin 4096) (i j : Fin 18) (o : Fin 128) : IsReal (x1 a0 a2 b i j o) := by
  unfold x1
  exact IsReal.sum _ _ fun c _ => (sim_real a0 r0 b i j c).mul (r2 _)

/-- First hidden layer: the two arrangements agree. -/
theorem h1_eq (a0 : FVec Ideal SN .f32) (a2 : FVec Ideal SW1 .f32) (a3 a4 a5 a6 : FVec Ideal SV1 .f32)
    (r0 : ∀ i, IsReal (a0 i)) (r2 : ∀ i, IsReal (a2 i)) (r3 : ∀ i, IsReal (a3 i)) (r4 : ∀ i, IsReal (a4 i))
    (r5 : ∀ i, IsReal (a5 i)) (r6 : ∀ i, IsReal (a6 i)) (p6 : ∀ i, (0 : EReal) < a6 i + eps)
    (b : Fin 4096) (i j : Fin 18) (o : Fin 128) :
    h1 bnK a0 a2 a3 a4 a5 a6 b i j o = h1 bnR a0 a2 a3 a4 a5 a6 b i j o := by
  unfold h1
  rw [bn_eq (x1_real a0 a2 r0 r2 b i j o) (r5 _) (scale_real (r3 _) (r6 _) (p6 _)) (r4 _)]

/-- First hidden layer: a real. -/
theorem h1_real (a0 : FVec Ideal SN .f32) (a2 : FVec Ideal SW1 .f32) (a3 a4 a5 a6 : FVec Ideal SV1 .f32)
    (r0 : ∀ i, IsReal (a0 i)) (r2 : ∀ i, IsReal (a2 i)) (r3 : ∀ i, IsReal (a3 i)) (r4 : ∀ i, IsReal (a4 i))
    (r5 : ∀ i, IsReal (a5 i)) (r6 : ∀ i, IsReal (a6 i)) (p6 : ∀ i, (0 : EReal) < a6 i + eps)
    (b : Fin 4096) (i j : Fin 18) (o : Fin 128) :
    IsReal (h1 bnR a0 a2 a3 a4 a5 a6 b i j o) := by
  unfold h1
  exact act_real (bnR_real (x1_real a0 a2 r0 r2 b i j o) (r5 _) (scale_real (r3 _) (r6 _) (p6 _)) (r4 _))

/-- Second linear map: the two arrangements agree, term by term. -/
theorem x2_eq (a0 : FVec Ideal SN .f32) (a2 : FVec Ideal SW1 .f32) (a3 a4 a5 a6 : FVec Ideal SV1 .f32) (a7 : FVec Ideal SW2 .f32)
    (r0 : ∀ i, IsReal (a0 i)) (r2 : ∀ i, IsReal (a2 i)) (r3 : ∀ i, IsReal (a3 i)) (r4 : ∀ i, IsReal (a4 i))
    (r5 : ∀ i, IsReal (a5 i)) (r6 : ∀ i, IsReal (a6 i)) (p6 : ∀ i, (0 : EReal) < a6 i + eps)
    (b : Fin 4096) (i j : Fin 18) (c : Fin 64) :
    x2 bnK a0 a2 a3 a4 a5 a6 a7 b i j c = x2 bnR a0 a2 a3 a4 a5 a6 a7 b i j c := by
  unfold x2
  refine Finset.sum_congr rfl fun o _ => ?_
  rw [h1_eq a0 a2 a3 a4 a5 a6 r0 r2 r3 r4 r5 r6 p6 b i j o]

/-- Second linear map: a real. -/
theorem x2_real (a0 : FVec Ideal SN .f32) (a2 : FVec Ideal SW1 .f32) (a3 a4 a5 a6 : FVec Ideal SV1 .f32) (a7 : FVec Ideal SW2 .f32)
    (r0 : ∀ i, IsReal (a0 i)) (r2 : ∀ i, IsReal (a2 i)) (r3 : ∀ i, IsReal (a3 i)) (r4 : ∀ i, IsReal (a4 i))
    (r5 : ∀ i, IsReal (a5 i)) (r6 : ∀ i, IsReal (a6 i)) (p6 : ∀ i, (0 : EReal) < a6 i + eps) (r7 : ∀ i, IsReal (a7 i))
    (b : Fin 4096) (i j : Fin 18) (c : Fin 64) :
    IsReal (x2 bnR a0 a2 a3 a4 a5 a6 a7 b i j c) := by
  unfold x2
  exact IsReal.sum _ _ fun o _ => (h1_real a0 a2 a3 a4 a5 a6 r0 r2 r3 r4 r5 r6 p6 b i j o).mul (r7 _)

/-- Second hidden layer: the two arrangements agree. -/
theorem h2_eq (a0 : FVec Ideal SN .f32) (a2 : FVec Ideal SW1 .f32) (a3 a4 a5 a6 : FVec Ideal SV1 .f32) (a7 : FVec Ideal SW2 .f32)
    (a8 a9 a10 a11 : FVec Ideal SV2 .f32)
    (r0 : ∀ i, IsReal (a0 i)) (r2 : ∀ i, IsReal (a2 i)) (r3 : ∀ i, IsReal (a3 i)) (r4 : ∀ i, IsReal (a4 i))
    (r5 : ∀ i, IsReal (a5 i)) (r6 : ∀ i, IsReal (a6 i)) (p6 : ∀ i, (0 : EReal) < a6 i + eps)
    (r7 : ∀ i, IsReal (a7 i)) (r8 : ∀ i, IsReal (a8 i)) (r9 : ∀ i, IsReal (a9 i)) (r10 : ∀ i, IsReal (a10 i))
    (r11 : ∀ i, IsReal (a11 i)) (p11 : ∀ i, (0 : EReal) < a11 i + eps)
    (b : Fin 4096) (i j : Fin 18) (c : Fin 64) :
    h2 bnK a0 a2 a3 a4 a5 a6 a7 a8 a9 a10 a11 b i j c = h2 bnR a0 a2 a3 a4 a5 a6 a7 a8 a9 a10 a11 b i j c := by
  unfold h2
  rw [x2_eq a0 a2 a3 a4 a5 a6 a7 r0 r2 r3 r4 r5 r6 p6 b i j c,
    bn_eq (x2_real a0 a2 a3 a4 a5 a6 a7 r0 r2 r3 r4 r5 r6 p6 r7 b i j c) (r10 _) (scale_real (r8 _) (r11 _) (p11 _)) (r9 _)]

/-- The logit: the same last linear map and bias over equal second-layer values. -/
theorem logit_eq (a0 : FVec Ideal SN .f32) (a2 : FVec Ideal SW1 .f32) (a3 a4 a5 a6 : FVec Ideal SV1 .f32) (a7 : FVec Ideal SW2 .f32)
    (a8 a9 a10 a11 : FVec Ideal SV2 .f32) (a12 : FVec Ideal SW3 .f32) (a13 : FVec Ideal SB3 .f32)
    (r0 : ∀ i, IsReal (a0 i)) (r2 : ∀ i, IsReal (a2 i)) (r3 : ∀ i, IsReal (a3 i)) (r4 : ∀ i, IsReal (a4 i))
    (r5 : ∀ i, IsReal (a5 i)) (r6 : ∀ i, IsReal (a6 i)) (p6 : ∀ i, (0 : EReal) < a6 i + eps)
    (r7 : ∀ i, IsReal (a7 i)) (r8 : ∀ i, IsReal (a8 i)) (r9 : ∀ i, IsReal (a9 i)) (r10 : ∀ i, IsReal (a10 i))
    (r11 : ∀ i, IsReal (a11 i)) (p11 : ∀ i, (0 : EReal) < a11 i + eps)
    (b : Fin 4096) (i j : Fin 18) :
    logit bnK a0 a2 a3 a4 a5 a6 a7 a8 a9 a10 a11 a12 a13 b i j = logit bnR a0 a2 a3 a4 a5 a6 a7 a8 a9 a10 a11 a12 a13 b i j := by
  unfold logit
  refine congrArg (fun t => t + a13 (ix1 (0 : Fin 1))) (Finset.sum_congr rfl fun c _ => ?_)
  rw [h2_eq a0 a2 a3 a4 a5 a6 a7 a8 a9 a10 a11 r0 r2 r3 r4 r5 r6 p6 r7 r8 r9 r10 r11 p11 b i j c]

/-- The masked logit. -/
theorem z_eq (mk ey : FVec Ideal SM .f32) (a0 : FVec Ideal SN .f32) (a2 : FVec Ideal SW1 .f32) (a3 a4 a5 a6 : FVec Ideal SV1 .f32) (a7 : FVec Ideal SW2 .f32)
    (a8 a9 a10 a11 : FVec Ideal SV2 .f32) (a12 : FVec Ideal SW3 .f32) (a13 : FVec Ideal SB3 .f32)
    (r0 : ∀ i, IsReal (a0 i)) (r2 : ∀ i, IsReal (a2 i)) (r3 : ∀ i, IsReal (a3 i)) (r4 : ∀ i, IsReal (a4 i))
    (r5 : ∀ i, IsReal (a5 i)) (r6 : ∀ i, IsReal (a6 i)) (p6 : ∀ i, (0 : EReal) < a6 i + eps)
    (r7 : ∀ i, IsReal (a7 i)) (r8 : ∀ i, IsReal (a8 i)) (r9 : ∀ i, IsReal (a9 i)) (r10 : ∀ i, IsReal (a10 i))
    (r11 : ∀ i, IsReal (a11 i)) (p11 : ∀ i, (0 : EReal) < a11 i + eps)
    (b : Fin 4096) (i j : Fin 18) :
    z bnK mk ey a0 a2 a3 a4 a5 a6 a7 a8 a9 a10 a11 a12 a13 b i j = z bnR mk ey a0 a2 a3 a4 a5 a6 a7 a8 a9 a10 a11 a12 a13 b i j := by
  unfold z
  rw [logit_eq a0 a2 a3 a4 a5 a6 a7 a8 a9 a10 a11 a12 a13 r0 r2 r3 r4 r5 r6 p6 r7 r8 r9 r10 r11 p11 b i j]

/-- On the precondition's domain the whole function is the same under either arrangement. -/
theorem G_bnK_eq_bnR (mk ey : FVec Ideal SM .f32) (a0 : FVec Ideal SN .f32) (a1 : FVec Ideal SE .f32) (a2 : FVec Ideal SW1 .f32)
    (a3 a4 a5 a6 : FVec Ideal SV1 .f32) (a7 : FVec Ideal SW2 .f32) (a8 a9 a10 a11 : FVec Ideal SV2 .f32)
    (a12 : FVec Ideal SW3 .f32) (a13 : FVec Ideal SB3 .f32)
    (r0 : ∀ i, IsReal (a0 i)) (r2 : ∀ i, IsReal (a2 i)) (r3 : ∀ i, IsReal (a3 i)) (r4 : ∀ i, IsReal (a4 i)) (r5 : ∀ i, IsReal (a5 i))
    (r6 : ∀ i, IsReal (a6 i)) (r7 : ∀ i, IsReal (a7 i)) (r8 : ∀ i, IsReal (a8 i)) (r9 : ∀ i, IsReal (a9 i)) (r10 : ∀ i, IsReal (a10 i))
    (r11 : ∀ i, IsReal (a11 i)) (p6 : ∀ i, (0 : EReal) < a6 i + eps) (p11 : ∀ i, (0 : EReal) < a11 i + eps) :
    G bnK mk ey a0 a1 a2 a3 a4 a5 a6 a7 a8 a9 a10 a11 a12 a13 = G bnR mk ey a0 a1 a2 a3 a4 a5 a6 a7 a8 a9 a10 a11 a12 a13 := by
  funext idx
  unfold G
  split
  · rfl
  · exact congrArg (fun r => soft r (idx 2))
      (funext fun k => z_eq mk ey a0 a2 a3 a4 a5 a6 a7 a8 a9 a10 a11 a12 a13 r0 r2 r3 r4 r5 r6 p6 r7 r8 r9 r10 r11 p11 (idx 0) (idx 1) k)

end Cert.Spec

end
-- ==== Proof.Tables.lean ====
/-
  The two programs carry the same two constant tables (the pair mask and the added diagonal of the 18 × 18 node
  grid): entry by entry the 324 patterns of each table are equal.
-/
import proofs.«134835_j64166811403051_1_alg».proof.KernelIdeal
import proofs.«134835_j64166811403051_1_alg».proof.ReferenceIdeal

namespace Cert.Tables

/-- The mask tables of the two programs are one table. -/
theorem lit0_eq : Cert.KernelIdeal.lit0 = Cert.ReferenceIdeal.lit0 := by
  funext i
  fin_cases i <;> rfl

/-- The diagonal tables of the two programs are one table. -/
theorem lit1_eq : Cert.KernelIdeal.lit1 = Cert.ReferenceIdeal.lit1 := by
  funext i
  fin_cases i <;> rfl

end Cert.Tables
-- ==== Proof.KerLayout.lean ====
/-
  Re-laid arrays read at an index, for the shapes of one batch tile: 64 graphs, 18 nodes, 64 features.

  The pair array [64, 18, 18, ·] is flattened to [20736, ·] with pair (i, j) of graph g in row (g·18 + i)·18 + j.
  Each lemma says which entry of the operand a cast, a broadcast, a concatenation or a reduced index reads.
-/
import Idealize.ShloMosaic.Lib.Pipeline.Value
import Idealize.ShloMosaic.Lib.ValueIdx
import Idealize.ShloMosaic.Lib.ValueLayout
import Idealize.ShloMosaic.PureOps.Ideal.Laws

noncomputable section

namespace Cert.KerLayout

open Idealize.ShloMosaic Idealize.ShloMosaic.ValueIdx

variable {α : Type}

/-- The row of the flattened pair array holding pair (i, j) of graph g of the tile. -/
def row (g : Fin 64) (i j : Fin 18) : Fin 20736 :=
  ⟨(g.val * 18 + i.val) * 18 + j.val, by have := g.isLt; have := i.isLt; have := j.isLt; omega⟩

theorem row_val (g : Fin 64) (i j : Fin 18) : (row g i j).val = (g.val * 18 + i.val) * 18 + j.val := rfl

/-- [64,18,64] viewed as [64,18,1,64]. -/
theorem cast_i1c (x : (⟨3, ![64, 18, 64]⟩ : Shape).Idx → α) (h : (⟨3, ![64, 18, 64]⟩ : Shape).ShapeCasts ⟨4, ![64, 18, 1, 64]⟩)
    (g : Fin 64) (i : Fin 18) (u : Fin 1) (c : Fin 64) :
    shapeCast ⟨4, ![64, 18, 1, 64]⟩ x h (ix4 g i u c) = x (ix3 g i c) :=
  shapeCast_apply x h _ _ (by
    have hu : u.val = 0 := by omega
    rw [Shape.rowMajor_val_three, Shape.rowMajor_val_four]
    show (g.val * 18 + i.val) * 64 + c.val = ((g.val * 18 + i.val) * 1 + u.val) * 64 + c.val
    omega)

/-- [64,18,64] viewed as [64,1,18,64]. -/
theorem cast_1jc (x : (⟨3, ![64, 18, 64]⟩ : Shape).Idx → α) (h : (⟨3, ![64, 18, 64]⟩ : Shape).ShapeCasts ⟨4, ![64, 1, 18, 64]⟩)
    (g : Fin 64) (u : Fin 1) (j : Fin 18) (c : Fin 64) :
    shapeCast ⟨4, ![64, 1, 18, 64]⟩ x h (ix4 g u j c) = x (ix3 g j c) :=
  shapeCast_apply x h _ _ (by
    have hu : u.val = 0 := by omega
    rw [Shape.rowMajor_val_three, Shape.rowMajor_val_four]
    show (g.val * 18 + j.val) * 64 + c.val = ((g.val * 1 + u.val) * 18 + j.val) * 64 + c.val
    omega)

/-- [64,18,1,64] repeated along the third axis. -/
theorem bcast_i1c (x : (⟨4, ![64, 18, 1, 64]⟩ : Shape).Idx → α) (h : (⟨4, ![64, 18, 1, 64]⟩ : Shape).Broadcasts ⟨4, ![64, 18, 18, 64]⟩)
    (g : Fin 64) (i j : Fin 18) (c : Fin 64) :
    broadcastTo ⟨4, ![64, 18, 18, 64]⟩ x h (ix4 g i j c) = x (ix4 g i (0 : Fin 1) c) := by
  refine broadcastTo_apply x h (ix4 g i j c) (ix4 g i (0 : Fin 1) c) fun ax => ?_
  match ax with
  | ⟨0, _⟩ => rfl
  | ⟨1, _⟩ => rfl
  | ⟨2, _⟩ => rfl
  | ⟨3, _⟩ => rfl

/-- [64,1,18,64] repeated along the second axis. -/
theorem bcast_1jc (x : (⟨4, ![64, 1, 18, 64]⟩ : Shape).Idx → α) (h : (⟨4, ![64, 1, 18, 64]⟩ : Shape).Broadcasts ⟨4, ![64, 18, 18, 64]⟩)
    (g : Fin 64) (i j : Fin 18) (c : Fin 64) :
    broadcastTo ⟨4, ![64, 18, 18, 64]⟩ x h (ix4 g i j c) = x (ix4 g (0 : Fin 1) j c) := by
  refine broadcastTo_apply x h (ix4 g i j c) (ix4 g (0 : Fin 1) j c) fun ax => ?_
  match ax with
  | ⟨0, _⟩ => rfl
  | ⟨1, _⟩ => rfl
  | ⟨2, _⟩ => rfl
  | ⟨3, _⟩ => rfl

/-- The pair array flattened: row (g·18 + i)·18 + j holds pair (i, j) of graph g. -/
theorem cast_flat (x : (⟨4, ![64, 18, 18, 64]⟩ : Shape).Idx → α) (h : (⟨4, ![64, 18, 18, 64]⟩ : Shape).ShapeCasts ⟨2, ![20736, 64]⟩)
    (g : Fin 64) (i j : Fin 18) (c : Fin 64) :
    shapeCast ⟨2, ![20736, 64]⟩ x h (ix2 (row g i j) c) = x (ix4 g i j c) :=
  shapeCast_apply x h _ _ (by
    rw [Shape.rowMajor_val_four, Shape.rowMajor_val_two]
    show ((g.val * 18 + i.val) * 18 + j.val) * 64 + c.val = ((g.val * 18 + i.val) * 18 + j.val) * 64 + c.val
    rfl)

/-- A one-column flattened pair array folded back to [64,18,18]. -/
theorem cast_unflat (x : (⟨2, ![20736, 1]⟩ : Shape).Idx → α) (h : (⟨2, ![20736, 1]⟩ : Shape).ShapeCasts ⟨3, ![64, 18, 18]⟩)
    (g : Fin 64) (i j : Fin 18) :
    shapeCast ⟨3, ![64, 18, 18]⟩ x h (ix3 g i j) = x (ix2 (row g i j) (0 : Fin 1)) :=
  shapeCast_apply x h _ _ (by
    rw [Shape.rowMajor_val_two, Shape.rowMajor_val_three]
    show ((g.val * 18 + i.val) * 18 + j.val) * 1 + 0 = (g.val * 18 + i.val) * 18 + j.val
    omega)

/-- One [18,18] table repeated for every graph of the tile. -/
theorem bcast_table (x : (⟨3, ![1, 18, 18]⟩ : Shape).Idx → α) (h : (⟨3, ![1, 18, 18]⟩ : Shape).Broadcasts ⟨3, ![64, 18, 18]⟩)
    (g : Fin 64) (i j : Fin 18) :
    broadcastTo ⟨3, ![64, 18, 18]⟩ x h (ix3 g i j) = x (ix3 (0 : Fin 1) i j) := by
  refine broadcastTo_apply x h (ix3 g i j) (ix3 (0 : Fin 1) i j) fun ax => ?_
  match ax with
  | ⟨0, _⟩ => rfl
  | ⟨1, _⟩ => rfl
  | ⟨2, _⟩ => rfl

/-- A per-row value as a one-entry last axis. -/
theorem cast_col (x : (⟨2, ![64, 18]⟩ : Shape).Idx → α) (h : (⟨2, ![64, 18]⟩ : Shape).ShapeCasts ⟨3, ![64, 18, 1]⟩)
    (g : Fin 64) (i : Fin 18) (u : Fin 1) :
    shapeCast ⟨3, ![64, 18, 1]⟩ x h (ix3 g i u) = x (ix2 g i) :=
  shapeCast_apply x h _ _ (by
    have hu : u.val = 0 := by omega
    rw [Shape.rowMajor_val_two, Shape.rowMajor_val_three]
    show g.val * 18 + i.val = (g.val * 18 + i.val) * 1 + u.val
    omega)

/-- A per-row value repeated along the row. -/
theorem bcast_col (x : (⟨3, ![64, 18, 1]⟩ : Shape).Idx → α) (h : (⟨3, ![64, 18, 1]⟩ : Shape).Broadcasts ⟨3, ![64, 18, 18]⟩)
    (g : Fin 64) (i j : Fin 18) :
    broadcastTo ⟨3, ![64, 18, 18]⟩ x h (ix3 g i j) = x (ix3 g i (0 : Fin 1)) := by
  refine broadcastTo_apply x h (ix3 g i j) (ix3 g i (0 : Fin 1)) fun ax => ?_
  match ax with
  | ⟨0, _⟩ => rfl
  | ⟨1, _⟩ => rfl
  | ⟨2, _⟩ => rfl

/-- [64,18,18] with a one-entry last axis added. -/
theorem cast_last (x : (⟨3, ![64, 18, 18]⟩ : Shape).Idx → α) (h : (⟨3, ![64, 18, 18]⟩ : Shape).ShapeCasts ⟨4, ![64, 18, 18, 1]⟩)
    (g : Fin 64) (i j : Fin 18) (u : Fin 1) :
    shapeCast ⟨4, ![64, 18, 18, 1]⟩ x h (ix4 g i j u) = x (ix3 g i j) :=
  shapeCast_apply x h _ _ (by
    have hu : u.val = 0 := by omega
    rw [Shape.rowMajor_val_three, Shape.rowMajor_val_four]
    show (g.val * 18 + i.val) * 18 + j.val = ((g.val * 18 + i.val) * 18 + j.val) * 1 + u.val
    omega)

/-- Two one-entry last axes laid side by side: entry 0 is the first. -/
theorem concat_fst (x y : (⟨4, ![64, 18, 18, 1]⟩ : Shape).Idx → α)
    (h : Shape.Concatenates [(⟨4, ![64, 18, 18, 1]⟩ : Shape), ⟨4, ![64, 18, 18, 1]⟩] ⟨4, ![64, 18, 18, 2]⟩ 3)
    (g : Fin 64) (i j : Fin 18) :
    concatenate ⟨4, ![64, 18, 18, 2]⟩ 3 [⟨⟨4, ![64, 18, 18, 1]⟩, x⟩, ⟨⟨4, ![64, 18, 18, 1]⟩, y⟩] h (ix4 g i j (0 : Fin 2))
      = x (ix4 g i j (0 : Fin 1)) :=
  concatenate_pair_apply_left 3 x y h _ rfl _ fun b => by
    match b with
    | ⟨0, _⟩ => rfl
    | ⟨1, _⟩ => rfl
    | ⟨2, _⟩ => rfl
    | ⟨3, _⟩ => rfl

/-- … and entry 1 is the second. -/
theorem concat_snd (x y : (⟨4, ![64, 18, 18, 1]⟩ : Shape).Idx → α)
    (h : Shape.Concatenates [(⟨4, ![64, 18, 18, 1]⟩ : Shape), ⟨4, ![64, 18, 18, 1]⟩] ⟨4, ![64, 18, 18, 2]⟩ 3)
    (g : Fin 64) (i j : Fin 18) :
    concatenate ⟨4, ![64, 18, 18, 2]⟩ 3 [⟨⟨4, ![64, 18, 18, 1]⟩, x⟩, ⟨⟨4, ![64, 18, 18, 1]⟩, y⟩] h (ix4 g i j (1 : Fin 2))
      = y (ix4 g i j (0 : Fin 1)) :=
  concatenate_pair_apply_right 3 x y h _ rfl rfl _ (fun b hb => by
    match b, hb with
    | ⟨0, _⟩, _ => rfl
    | ⟨1, _⟩, _ => rfl
    | ⟨2, _⟩, _ => rfl
    | ⟨3, _⟩, hb => exact absurd (Fin.ext rfl) hb) rfl

/-- Reducing the last axis of [64,18,18]: the index at row (g, i) with k inserted is (g, i, k). -/
theorem lift_row (h : (⟨3, ![64, 18, 18]⟩ : Shape).Reduces [2] ⟨2, ![64, 18]⟩) (g : Fin 64) (i k : Fin 18) :
    h.lift (ix2 g i) k = ix3 g i k :=
  funext fun a => Fin.ext (by
    match a with
    | ⟨0, _⟩ => rfl
    | ⟨1, _⟩ => rfl
    | ⟨2, _⟩ => rfl)

end Cert.KerLayout

end
-- ==== Proof.KerPay.lean ====
/-
  The tile body's arithmetic read entry by entry.

  For one tile of 64 graphs the body flattens the 64·18·18 node pairs into rows, runs the three-layer perceptron as
  three matrix products over the rows with the normalisation in the arrangement x·s + t (t the precomputed shift),
  folds the logits back to [64,18,18], masks them, takes each row's softmax and pairs it with the edge block.
  Each stage is named here as a function of the blocks the body loads, shown equal to the body's payload term, and
  read at an index in terms of the previous stage at indices.
-/
import proofs.«134835_j64166811403051_1_alg».proof.Proof.Gen.KernelIdeal.Skeleton
import proofs.«134835_j64166811403051_1_alg».proof.Proof.Spec
import proofs.«134835_j64166811403051_1_alg».proof.Proof.KerLayout
import Idealize.ShloMosaic.PureOps.Ideal.Laws
import Idealize.ShloMosaic.Lib.ValueIdx
import Idealize.ShloMosaic.Lib.Pipeline.Value
import Idealize.ShloMosaic.Lib.ValueLayout

noncomputable section

open scoped BigOperators

namespace Cert.KernelIdeal.Pay

open Cert.KernelIdeal Cert.KernelIdeal.Gen Idealize.ShloMosaic Idealize.ShloMosaic.ValueIdx Cert.KerLayout

/-! ## The three matrix products at an entry: a sum over the contracted axis -/

theorem mm1 (lhs : FVec Ideal S20736x64 .bf16) (rhs : FVec Ideal S64x128 .bf16) (r : Fin 20736) (o : Fin 128) :
    matmul (F := Ideal) dot_S20736x64_S64x128_S20736x128_1_0_0_1_n_n none lhs rhs (constant S20736x128 .f32 0x00000000#32) (ix2 r o)
      = ∑ k : Fin 64, lhs (ix2 r k) * rhs (ix2 k o) := by
  refine (Ideal.matmul_constant_zero_apply dot_S20736x64_S64x128_S20736x128_1_0_0_1_n_n none lhs rhs (ix2 r o)).trans ?_
  refine ((contrEquiv1 dot_S20736x64_S64x128_S20736x128_1_0_0_1_n_n 64 rfl rfl).symm.sum_comp _).symm.trans ?_
  refine Finset.sum_congr rfl fun k _ => ?_
  have hL : dot_S20736x64_S64x128_S20736x128_1_0_0_1_n_n.lhsIdx (ix2 r o)
      ((contrEquiv1 dot_S20736x64_S64x128_S20736x128_1_0_0_1_n_n 64 rfl rfl).symm k) = ix2 r k :=
    funext fun a => Fin.ext (by
      match a with
      | ⟨0, _⟩ => rfl
      | ⟨1, _⟩ => exact (DotDims.lhsIdx_val_of_single _ rfl _ _).trans (contrEquiv1_symm_val _ 64 rfl rfl k))
  have hR : dot_S20736x64_S64x128_S20736x128_1_0_0_1_n_n.rhsIdx (ix2 r o)
      ((contrEquiv1 dot_S20736x64_S64x128_S20736x128_1_0_0_1_n_n 64 rfl rfl).symm k) = ix2 k o :=
    funext fun a => Fin.ext (by
      match a with
      | ⟨0, _⟩ => exact (DotDims.rhsIdx_val_of_single _ rfl _ _).trans (contrEquiv1_symm_val _ 64 rfl rfl k)
      | ⟨1, _⟩ => rfl)
  rw [hL, hR]

theorem mm2 (lhs : FVec Ideal S20736x128 .bf16) (rhs : FVec Ideal S128x64 .bf16) (r : Fin 20736) (k : Fin 64) :
    matmul (F := Ideal) dot_S20736x128_S128x64_S20736x64_1_0_0_1_n_n none lhs rhs (constant S20736x64 .f32 0x00000000#32) (ix2 r k)
      = ∑ o : Fin 128, lhs (ix2 r o) * rhs (ix2 o k) := by
  refine (Ideal.matmul_constant_zero_apply dot_S20736x128_S128x64_S20736x64_1_0_0_1_n_n none lhs rhs (ix2 r k)).trans ?_
  refine ((contrEquiv1 dot_S20736x128_S128x64_S20736x64_1_0_0_1_n_n 128 rfl rfl).symm.sum_comp _).symm.trans ?_
  refine Finset.sum_congr rfl fun o _ => ?_
  have hL : dot_S20736x128_S128x64_S20736x64_1_0_0_1_n_n.lhsIdx (ix2 r k)
      ((contrEquiv1 dot_S20736x128_S128x64_S20736x64_1_0_0_1_n_n 128 rfl rfl).symm o) = ix2 r o :=
    funext fun a => Fin.ext (by
      match a with
      | ⟨0, _⟩ => rfl
      | ⟨1, _⟩ => exact (DotDims.lhsIdx_val_of_single _ rfl _ _).trans (contrEquiv1_symm_val _ 128 rfl rfl o))
  have hR : dot_S20736x128_S128x64_S20736x64_1_0_0_1_n_n.rhsIdx (ix2 r k)
      ((contrEquiv1 dot_S20736x128_S128x64_S20736x64_1_0_0_1_n_n 128 rfl rfl).symm o) = ix2 o k :=
    funext fun a => Fin.ext (by
      match a with
      | ⟨0, _⟩ => exact (DotDims.rhsIdx_val_of_single _ rfl _ _).trans (contrEquiv1_symm_val _ 128 rfl rfl o)
      | ⟨1, _⟩ => rfl)
  rw [hL, hR]

theorem mm3 (lhs : FVec Ideal S20736x64 .f32) (rhs : FVec Ideal S64x1 .f32) (r : Fin 20736) (u : Fin 1) :
    matmul (F := Ideal) dot_S20736x64_S64x1_S20736x1_1_0_0_1_n_n none lhs rhs (constant S20736x1 .f32 0x00000000#32) (ix2 r u)
      = ∑ k : Fin 64, lhs (ix2 r k) * rhs (ix2 k u) := by
  refine (Ideal.matmul_constant_zero_apply dot_S20736x64_S64x1_S20736x1_1_0_0_1_n_n none lhs rhs (ix2 r u)).trans ?_
  refine ((contrEquiv1 dot_S20736x64_S64x1_S20736x1_1_0_0_1_n_n 64 rfl rfl).symm.sum_comp _).symm.trans ?_
  refine Finset.sum_congr rfl fun k _ => ?_
  have hL : dot_S20736x64_S64x1_S20736x1_1_0_0_1_n_n.lhsIdx (ix2 r u)
      ((contrEquiv1 dot_S20736x64_S64x1_S20736x1_1_0_0_1_n_n 64 rfl rfl).symm k) = ix2 r k :=
    funext fun a => Fin.ext (by
      match a with
      | ⟨0, _⟩ => rfl
      | ⟨1, _⟩ => exact (DotDims.lhsIdx_val_of_single _ rfl _ _).trans (contrEquiv1_symm_val _ 64 rfl rfl k))
  have hR : dot_S20736x64_S64x1_S20736x1_1_0_0_1_n_n.rhsIdx (ix2 r u)
      ((contrEquiv1 dot_S20736x64_S64x1_S20736x1_1_0_0_1_n_n 64 rfl rfl).symm k) = ix2 k u :=
    funext fun a => Fin.ext (by
      match a with
      | ⟨0, _⟩ => exact (DotDims.rhsIdx_val_of_single _ rfl _ _).trans (contrEquiv1_symm_val _ 64 rfl rfl k)
      | ⟨1, _⟩ => rfl)
  rw [hL, hR]

/-! ## The stages -/

/-- The squared feature differences of the tile's node pairs, one pair per row. -/
def dvec (x0 : Vec Ideal S64x18x64 .f32) : FVec Ideal S20736x64 .f32 :=
  shapeCast S20736x64
    (mulf
      (subf (broadcastTo S64x18x18x64 (shapeCast S64x18x1x64 x0 shapeCasts_S64x18x64_S64x18x1x64) broadcasts_S64x18x1x64_S64x18x18x64)
        (broadcastTo S64x18x18x64 (shapeCast S64x1x18x64 x0 shapeCasts_S64x18x64_S64x1x18x64) broadcasts_S64x1x18x64_S64x18x18x64))
      (subf (broadcastTo S64x18x18x64 (shapeCast S64x18x1x64 x0 shapeCasts_S64x18x64_S64x18x1x64) broadcasts_S64x18x1x64_S64x18x18x64)
        (broadcastTo S64x18x18x64 (shapeCast S64x1x18x64 x0 shapeCasts_S64x18x64_S64x1x18x64) broadcasts_S64x1x18x64_S64x18x18x64)))
    shapeCasts_S64x18x18x64_S20736x64

/-- The leaky rectifier on a whole array, the zero it compares with a parameter. -/
def lrelu {S : Shape} (z0 : Ideal .f32) (P : FVec Ideal S .f32) : FVec Ideal S .f32 :=
  select (cmpf .oge P (broadcast S z0)) P (mulf (broadcast S (Scalar.ofBits .f32 0x3C23D70A#32)) P)

/-- First layer before the rectifier: rows times the first weight block, times the scale row, plus the shift row. -/
def pre1 (x0 : Vec Ideal S64x18x64 .f32) (x2 : Vec Ideal S64x128 .f32) (x3 x4 : Vec Ideal S1x128 .f32) : FVec Ideal S20736x128 .f32 :=
  addf
    (mulf
      (matmul dot_S20736x64_S64x128_S20736x128_1_0_0_1_n_n none (truncf .bf16 (dvec x0) bitsLt_bf16_f32)
        (truncf .bf16 (shapeCast S64x128 x2 shapeCasts_S64x128_S64x128) bitsLt_bf16_f32) (constant S20736x128 .f32 0x00000000#32))
      (broadcastTo S20736x128 (shapeCast S1x128 x3 shapeCasts_S1x128_S1x128) broadcasts_S1x128_S20736x128))
    (broadcastTo S20736x128 (shapeCast S1x128 x4 shapeCasts_S1x128_S1x128) broadcasts_S1x128_S20736x128)

/-- Second layer before the rectifier. -/
def pre2 (x0 : Vec Ideal S64x18x64 .f32) (x2 : Vec Ideal S64x128 .f32) (x3 x4 : Vec Ideal S1x128 .f32) (x5 : Vec Ideal S128x64 .f32)
    (x6 x7 : Vec Ideal S1x64 .f32) : FVec Ideal S20736x64 .f32 :=
  addf
    (mulf
      (matmul dot_S20736x128_S128x64_S20736x64_1_0_0_1_n_n none
        (truncf .bf16 (lrelu (Scalar.ofBits .f32 0x00000000#32) (pre1 x0 x2 x3 x4)) bitsLt_bf16_f32)
        (truncf .bf16 (shapeCast S128x64 x5 shapeCasts_S128x64_S128x64) bitsLt_bf16_f32) (constant S20736x64 .f32 0x00000000#32))
      (broadcastTo S20736x64 (shapeCast S1x64 x6 shapeCasts_S1x64_S1x64) broadcasts_S1x64_S20736x64))
    (broadcastTo S20736x64 (shapeCast S1x64 x7 shapeCasts_S1x64_S1x64) broadcasts_S1x64_S20736x64)

theorem pay2_eq (x0 : Vec Ideal S64x18x64 .f32) (x2 : Vec Ideal S64x128 .f32) (x3 x4 : Vec Ideal S1x128 .f32) (x5 : Vec Ideal S128x64 .f32)
    (x6 x7 : Vec Ideal S1x64 .f32) : k0_pay2 (F := Ideal) x0 x2 x3 x4 x5 x6 x7 = pre2 x0 x2 x3 x4 x5 x6 x7 := rfl

/-- The logits folded back to [64,18,18]. -/
def logitv (v38 : FVec Ideal S20736x64 .f32) (z0 : Ideal .f32) (x8 : Vec Ideal S64x1 .f32) (x9 : Vec Ideal S1x1 .f32) : FVec Ideal S64x18x18 .f32 :=
  shapeCast S64x18x18
    (addf
      (matmul dot_S20736x64_S64x1_S20736x1_1_0_0_1_n_n none (lrelu z0 v38)
        (shapeCast S64x1 x8 shapeCasts_S64x1_S64x1 : FVec Ideal S64x1 .f32) (constant S20736x1 .f32 0x00000000#32))
      (broadcast S20736x1 (extractAt ![0, 0] x9 inpos_S1x1_p0_0)))
    shapeCasts_S20736x1_S64x18x18

/-- The masked logits. -/
def zv (L : FVec Ideal S64x18x18 .f32) (x10 x11 : Vec Ideal S18x18 .f32) : FVec Ideal S64x18x18 .f32 :=
  addf (mulf L (broadcastTo S64x18x18 (shapeCast S1x18x18 x10 shapeCasts_S18x18_S1x18x18) broadcasts_S1x18x18_S64x18x18))
    (broadcastTo S64x18x18 (shapeCast S1x18x18 x11 shapeCasts_S18x18_S1x18x18) broadcasts_S1x18x18_S64x18x18)

/-- Each row's maximum. -/
def mxv (Z : FVec Ideal S64x18x18 .f32) : FVec Ideal S64x18 .f32 :=
  maximumf (broadcast S64x18 (Scalar.ofBits .f32 0xFF800000#32))
    (multiReduction .maximumf [2] S64x18 Z 0xFF800000#32 reduces_S64x18x18_S64x18 (.inl rfl) rfl)

/-- exp (entry - row maximum). -/
def exv (Z : FVec Ideal S64x18x18 .f32) : FVec Ideal S64x18x18 .f32 :=
  exp (subf Z (broadcastTo S64x18x18 (shapeCast S64x18x1 (mxv Z) shapeCasts_S64x18_S64x18x1) broadcasts_S64x18x1_S64x18x18))

/-- The row softmax. -/
def smv (Z : FVec Ideal S64x18x18 .f32) : FVec Ideal S64x18x18 .f32 :=
  divf (exv Z)
    (broadcastTo S64x18x18
      (shapeCast S64x18x1 (multiReduction .add [2] S64x18 (exv Z) 0x00000000#32 reduces_S64x18x18_S64x18 (.inl rfl) rfl) shapeCasts_S64x18_S64x18x1)
      broadcasts_S64x18x1_S64x18x18)

set_option maxRecDepth 65536 in
theorem pay1_eq (v38 : FVec Ideal S20736x64 .f32) (z0 : Ideal .f32) (x8 : Vec Ideal S64x1 .f32) (x9 : Vec Ideal S1x1 .f32)
    (x10 x11 : Vec Ideal S18x18 .f32) (x1 : Vec Ideal S64x18x18 .f32) :
    k0_pay1 (F := Ideal) v38 z0 x8 x9 x10 x11 x1
      = concatenate S64x18x18x2 3
          [⟨S64x18x18x1, shapeCast S64x18x18x1 x1 shapeCasts_S64x18x18_S64x18x18x1⟩,
           ⟨S64x18x18x1, shapeCast S64x18x18x1 (smv (zv (logitv v38 z0 x8 x9) x10 x11)) shapeCasts_S64x18x18_S64x18x18x1⟩]
          concatenates_S64x18x18x1_S64x18x18x1_S64x18x18x2_d3 := rfl

/-! ## The stages at an index -/

theorem dvec_apply (x0 : Vec Ideal S64x18x64 .f32) (g : Fin 64) (i j : Fin 18) (c : Fin 64) :
    dvec x0 (ix2 (row g i j) c) = (x0 (ix3 g i c) - x0 (ix3 g j c)) * (x0 (ix3 g i c) - x0 (ix3 g j c)) := by
  unfold dvec
  refine (cast_flat _ _ g i j c).trans ?_
  show (broadcastTo S64x18x18x64 (shapeCast S64x18x1x64 x0 shapeCasts_S64x18x64_S64x18x1x64) broadcasts_S64x18x1x64_S64x18x18x64 (ix4 g i j c)
        - broadcastTo S64x18x18x64 (shapeCast S64x1x18x64 x0 shapeCasts_S64x18x64_S64x1x18x64) broadcasts_S64x1x18x64_S64x18x18x64 (ix4 g i j c))
      * (broadcastTo S64x18x18x64 (shapeCast S64x18x1x64 x0 shapeCasts_S64x18x64_S64x18x1x64) broadcasts_S64x18x1x64_S64x18x18x64 (ix4 g i j c)
        - broadcastTo S64x18x18x64 (shapeCast S64x1x18x64 x0 shapeCasts_S64x18x64_S64x1x18x64) broadcasts_S64x1x18x64_S64x18x18x64 (ix4 g i j c)) = _
  rw [bcast_i1c, bcast_1jc, cast_i1c, cast_1jc]

theorem lrelu_apply {S : Shape} (z0 : Ideal .f32) (P : FVec Ideal S .f32) (idx : S.Idx) :
    lrelu z0 P idx = Scalar.select (Ideal.cmp .oge (P idx) z0) (P idx) (Ideal.ofBits .f32 0x3C23D70A#32 * P idx) := rfl

theorem pre1_apply (x0 : Vec Ideal S64x18x64 .f32) (x2 : Vec Ideal S64x128 .f32) (x3 x4 : Vec Ideal S1x128 .f32) (r : Fin 20736) (o : Fin 128) :
    pre1 x0 x2 x3 x4 (ix2 r o) = (∑ c : Fin 64, dvec x0 (ix2 r c) * x2 (ix2 c o)) * x3 (ix2 (0 : Fin 1) o) + x4 (ix2 (0 : Fin 1) o) := by
  unfold pre1
  show matmul (F := Ideal) dot_S20736x64_S64x128_S20736x128_1_0_0_1_n_n none (truncf .bf16 (dvec x0) bitsLt_bf16_f32)
        (truncf .bf16 (shapeCast S64x128 x2 shapeCasts_S64x128_S64x128) bitsLt_bf16_f32) (constant S20736x128 .f32 0x00000000#32) (ix2 r o)
      * broadcastTo S20736x128 (shapeCast S1x128 x3 shapeCasts_S1x128_S1x128) broadcasts_S1x128_S20736x128 (ix2 r o)
      + broadcastTo S20736x128 (shapeCast S1x128 x4 shapeCasts_S1x128_S1x128) broadcasts_S1x128_S20736x128 (ix2 r o) = _
  rw [mm1, broadcastTo_1b_ab_apply, broadcastTo_1b_ab_apply, shapeCast_self, shapeCast_self, shapeCast_self]
  rfl

theorem pre2_apply (x0 : Vec Ideal S64x18x64 .f32) (x2 : Vec Ideal S64x128 .f32) (x3 x4 : Vec Ideal S1x128 .f32) (x5 : Vec Ideal S128x64 .f32)
    (x6 x7 : Vec Ideal S1x64 .f32) (r : Fin 20736) (k : Fin 64) :
    pre2 x0 x2 x3 x4 x5 x6 x7 (ix2 r k)
      = (∑ o : Fin 128, lrelu (Scalar.ofBits .f32 0x00000000#32) (pre1 x0 x2 x3 x4) (ix2 r o) * x5 (ix2 o k)) * x6 (ix2 (0 : Fin 1) k)
          + x7 (ix2 (0 : Fin 1) k) := by
  unfold pre2
  show matmul (F := Ideal) dot_S20736x128_S128x64_S20736x64_1_0_0_1_n_n none
        (truncf .bf16 (lrelu (Scalar.ofBits .f32 0x00000000#32) (pre1 x0 x2 x3 x4)) bitsLt_bf16_f32)
        (truncf .bf16 (shapeCast S128x64 x5 shapeCasts_S128x64_S128x64) bitsLt_bf16_f32) (constant S20736x64 .f32 0x00000000#32) (ix2 r k)
      * broadcastTo S20736x64 (shapeCast S1x64 x6 shapeCasts_S1x64_S1x64) broadcasts_S1x64_S20736x64 (ix2 r k)
      + broadcastTo S20736x64 (shapeCast S1x64 x7 shapeCasts_S1x64_S1x64) broadcasts_S1x64_S20736x64 (ix2 r k) = _
  rw [mm2, broadcastTo_1b_ab_apply, broadcastTo_1b_ab_apply, shapeCast_self, shapeCast_self, shapeCast_self]
  rfl

theorem logitv_apply (v38 : FVec Ideal S20736x64 .f32) (z0 : Ideal .f32) (x8 : Vec Ideal S64x1 .f32) (x9 : Vec Ideal S1x1 .f32)
    (g : Fin 64) (i j : Fin 18) :
    logitv v38 z0 x8 x9 (ix3 g i j)
      = (∑ k : Fin 64, lrelu z0 v38 (ix2 (row g i j) k) * x8 (ix2 k (0 : Fin 1))) + x9 (ix2 (0 : Fin 1) (0 : Fin 1)) := by
  unfold logitv
  refine (cast_unflat _ _ g i j).trans ?_
  show matmul (F := Ideal) dot_S20736x64_S64x1_S20736x1_1_0_0_1_n_n none (lrelu z0 v38)
        (shapeCast S64x1 x8 shapeCasts_S64x1_S64x1 : FVec Ideal S64x1 .f32)
        (constant S20736x1 .f32 0x00000000#32) (ix2 (row g i j) (0 : Fin 1)) + extractAt ![0, 0] x9 inpos_S1x1_p0_0 = _
  rw [mm3, shapeCast_self]
  have e : extractAt ![0, 0] x9 inpos_S1x1_p0_0 = x9 (ix2 (0 : Fin 1) (0 : Fin 1)) :=
    congrArg x9 (funext fun a => Fin.ext (by match a with | ⟨0, _⟩ => rfl | ⟨1, _⟩ => rfl))
  rw [e]

theorem zv_apply (L : FVec Ideal S64x18x18 .f32) (x10 x11 : Vec Ideal S18x18 .f32) (g : Fin 64) (i j : Fin 18) :
    zv L x10 x11 (ix3 g i j) = L (ix3 g i j) * x10 (ix2 i j) + x11 (ix2 i j) := by
  unfold zv
  show L (ix3 g i j) * broadcastTo S64x18x18 (shapeCast S1x18x18 x10 shapeCasts_S18x18_S1x18x18) broadcasts_S1x18x18_S64x18x18 (ix3 g i j)
      + broadcastTo S64x18x18 (shapeCast S1x18x18 x11 shapeCasts_S18x18_S1x18x18) broadcasts_S1x18x18_S64x18x18 (ix3 g i j) = _
  rw [bcast_table, bcast_table, shapeCast_ab_1ab_apply, shapeCast_ab_1ab_apply]

theorem mxv_apply (Z : FVec Ideal S64x18x18 .f32) (g : Fin 64) (i : Fin 18) :
    mxv Z (ix2 g i) = Cert.Spec.rowmax (fun k => Z (ix3 g i k)) := by
  unfold mxv Cert.Spec.rowmax Cert.Spec.ninf
  show max (Ideal.ofBits .f32 0xFF800000#32)
      (multiReduction .maximumf [2] S64x18 Z 0xFF800000#32 reduces_S64x18x18_S64x18 (.inl rfl) rfl (ix2 g i)) = _
  refine congrArg (max (Ideal.ofBits .f32 0xFF800000#32)) ?_
  refine (Ideal.multiReduction_maximumf_single Z 0xFF800000#32 reduces_S64x18x18_S64x18 (.inl rfl) rfl (ix2 g i)).trans ?_
  have hf : (Z ∘ Shape.Reduces.lift reduces_S64x18x18_S64x18 (ix2 g i)) = fun k : Fin 18 => Z (ix3 g i k) :=
    funext fun k => congrArg Z (lift_row reduces_S64x18x18_S64x18 g i k)
  rw [hf]
  rfl

theorem exv_apply (Z : FVec Ideal S64x18x18 .f32) (g : Fin 64) (i j : Fin 18) :
    exv Z (ix3 g i j) = Cert.Spec.expo (fun k => Z (ix3 g i k)) j := by
  unfold exv Cert.Spec.expo
  show Ideal.exp (Z (ix3 g i j)
      - broadcastTo S64x18x18 (shapeCast S64x18x1 (mxv Z) shapeCasts_S64x18_S64x18x1) broadcasts_S64x18x1_S64x18x18 (ix3 g i j)) = _
  rw [bcast_col, cast_col, mxv_apply]

theorem smv_apply (Z : FVec Ideal S64x18x18 .f32) (g : Fin 64) (i j : Fin 18) :
    smv Z (ix3 g i j) = Cert.Spec.soft (fun k => Z (ix3 g i k)) j := by
  unfold smv Cert.Spec.soft
  show Ideal.div (exv Z (ix3 g i j))
      (broadcastTo S64x18x18
        (shapeCast S64x18x1 (multiReduction .add [2] S64x18 (exv Z) 0x00000000#32 reduces_S64x18x18_S64x18 (.inl rfl) rfl) shapeCasts_S64x18_S64x18x1)
        broadcasts_S64x18x1_S64x18x18 (ix3 g i j)) = _
  rw [bcast_col, cast_col, exv_apply]
  refine congrArg (Ideal.div _) ?_
  refine (Ideal.multiReduction_add_single (exv Z) 0x00000000#32 reduces_S64x18x18_S64x18 (.inl rfl) rfl (ix2 g i)).trans ?_
  show (∑ k : Fin 18, exv Z (Shape.Reduces.lift reduces_S64x18x18_S64x18 (ix2 g i) k))
      = ∑ k : Fin 18, Cert.Spec.expo (fun k => Z (ix3 g i k)) k
  refine Finset.sum_congr rfl fun k _ => ?_
  rw [lift_row, exv_apply]

theorem pay1_ch0 (v38 : FVec Ideal S20736x64 .f32) (z0 : Ideal .f32) (x8 : Vec Ideal S64x1 .f32) (x9 : Vec Ideal S1x1 .f32)
    (x10 x11 : Vec Ideal S18x18 .f32) (x1 : Vec Ideal S64x18x18 .f32) (g : Fin 64) (i j : Fin 18) :
    k0_pay1 (F := Ideal) v38 z0 x8 x9 x10 x11 x1 (ix4 g i j (0 : Fin 2)) = x1 (ix3 g i j) := by
  rw [pay1_eq]
  refine (concat_fst _ _ _ g i j).trans ?_
  exact cast_last _ _ g i j 0

theorem pay1_ch1 (v38 : FVec Ideal S20736x64 .f32) (z0 : Ideal .f32) (x8 : Vec Ideal S64x1 .f32) (x9 : Vec Ideal S1x1 .f32)
    (x10 x11 : Vec Ideal S18x18 .f32) (x1 : Vec Ideal S64x18x18 .f32) (g : Fin 64) (i j : Fin 18) :
    k0_pay1 (F := Ideal) v38 z0 x8 x9 x10 x11 x1 (ix4 g i j (1 : Fin 2))
      = Cert.Spec.soft (fun k => zv (logitv v38 z0 x8 x9) x10 x11 (ix3 g i k)) j := by
  rw [pay1_eq]
  refine (concat_snd _ _ _ g i j).trans ?_
  refine (cast_last _ _ g i j 0).trans ?_
  exact smv_apply _ g i j

end Cert.KernelIdeal.Pay

end
-- ==== Proof.KerBlock.lean ====
/-
  One tile's result is the corresponding block of the whole-array function.

  Hypotheses say what each loaded block holds in terms of the argument arrays: the node and edge blocks are the
  rows B g of their arrays, the weight blocks are the transposed weights, the scale and shift rows are
  s = g/√(v+ε) and b − m·s, the last weight a column, the bias a single entry, the two tables given. Under them the
  body's stored value at (g, i, j, ·) is the function G in the arrangement x·s + (b − m·s) at (B g, i, j, ·).
-/
import proofs.«134835_j64166811403051_1_alg».proof.Proof.KerPay

noncomputable section

open scoped BigOperators

namespace Cert.KernelIdeal.Pay

open Cert.KernelIdeal Cert.KernelIdeal.Gen Idealize.ShloMosaic Idealize.ShloMosaic.ValueIdx Cert.KerLayout Cert.Spec

/-- With the comparison's zero the f32 zero, the array rectifier is the rectifier entry by entry. -/
theorem lrelu_act {S : Shape} (P : FVec Ideal S .f32) (idx : S.Idx) :
    lrelu (Scalar.ofBits .f32 0x00000000#32) P idx = act (P idx) := rfl

section
variable (mk ey : FVec Ideal SM .f32) (a0 : FVec Ideal SN .f32) (a1 : FVec Ideal SE .f32) (a2 : FVec Ideal SW1 .f32)
  (a3 a4 a5 a6 : FVec Ideal SV1 .f32) (a7 : FVec Ideal SW2 .f32) (a8 a9 a10 a11 : FVec Ideal SV2 .f32)
  (a12 : FVec Ideal SW3 .f32) (a13 : FVec Ideal SB3 .f32) (B : Fin 64 → Fin 4096)
  (x0 : Vec Ideal S64x18x64 .f32) (x1 : Vec Ideal S64x18x18 .f32) (x2 : Vec Ideal S64x128 .f32) (x3 x4 : Vec Ideal S1x128 .f32)
  (x5 : Vec Ideal S128x64 .f32) (x6 x7 : Vec Ideal S1x64 .f32) (x8 : Vec Ideal S64x1 .f32) (x9 : Vec Ideal S1x1 .f32)
  (x10 x11 : Vec Ideal S18x18 .f32)

/-- First layer before the rectifier, at the row of pair (i, j) of graph g. -/
theorem pre1_spec
    (h0 : ∀ (g : Fin 64) (i : Fin 18) (c : Fin 64), x0 (ix3 g i c) = a0 (ix3 (B g) i c))
    (h2 : ∀ (c : Fin 64) (o : Fin 128), x2 (ix2 c o) = a2 (ix2 o c))
    (h3 : ∀ o : Fin 128, x3 (ix2 (0 : Fin 1) o) = scale (a3 (ix1 o)) (a6 (ix1 o)))
    (h4 : ∀ o : Fin 128, x4 (ix2 (0 : Fin 1) o) = a4 (ix1 o) - a5 (ix1 o) * scale (a3 (ix1 o)) (a6 (ix1 o)))
    (g : Fin 64) (i j : Fin 18) (o : Fin 128) :
    pre1 x0 x2 x3 x4 (ix2 (row g i j) o)
      = bnK (Cert.Spec.x1 a0 a2 (B g) i j o) (a5 (ix1 o)) (scale (a3 (ix1 o)) (a6 (ix1 o))) (a4 (ix1 o)) := by
  rw [pre1_apply, h3, h4]
  unfold bnK Cert.Spec.x1 sim
  refine congrArg (fun s => s * scale (a3 (ix1 o)) (a6 (ix1 o)) + (a4 (ix1 o) - a5 (ix1 o) * scale (a3 (ix1 o)) (a6 (ix1 o)))) ?_
  refine Finset.sum_congr rfl fun c _ => ?_
  rw [dvec_apply, h0, h0, h2]

/-- First hidden layer. -/
theorem h1_spec
    (h0 : ∀ (g : Fin 64) (i : Fin 18) (c : Fin 64), x0 (ix3 g i c) = a0 (ix3 (B g) i c))
    (h2 : ∀ (c : Fin 64) (o : Fin 128), x2 (ix2 c o) = a2 (ix2 o c))
    (h3 : ∀ o : Fin 128, x3 (ix2 (0 : Fin 1) o) = scale (a3 (ix1 o)) (a6 (ix1 o)))
    (h4 : ∀ o : Fin 128, x4 (ix2 (0 : Fin 1) o) = a4 (ix1 o) - a5 (ix1 o) * scale (a3 (ix1 o)) (a6 (ix1 o)))
    (g : Fin 64) (i j : Fin 18) (o : Fin 128) :
    lrelu (Scalar.ofBits .f32 0x00000000#32) (pre1 x0 x2 x3 x4) (ix2 (row g i j) o) = h1 bnK a0 a2 a3 a4 a5 a6 (B g) i j o := by
  rw [lrelu_act, pre1_spec a0 a2 a3 a4 a5 a6 B x0 x2 x3 x4 h0 h2 h3 h4 g i j o]
  rfl

/-- Second layer before the rectifier. -/
theorem pre2_spec
    (h0 : ∀ (g : Fin 64) (i : Fin 18) (c : Fin 64), x0 (ix3 g i c) = a0 (ix3 (B g) i c))
    (h2 : ∀ (c : Fin 64) (o : Fin 128), x2 (ix2 c o) = a2 (ix2 o c))
    (h3 : ∀ o : Fin 128, x3 (ix2 (0 : Fin 1) o) = scale (a3 (ix1 o)) (a6 (ix1 o)))
    (h4 : ∀ o : Fin 128, x4 (ix2 (0 : Fin 1) o) = a4 (ix1 o) - a5 (ix1 o) * scale (a3 (ix1 o)) (a6 (ix1 o)))
    (h5 : ∀ (o : Fin 128) (k : Fin 64), x5 (ix2 o k) = a7 (ix2 k o))
    (h6 : ∀ k : Fin 64, x6 (ix2 (0 : Fin 1) k) = scale (a8 (ix1 k)) (a11 (ix1 k)))
    (h7 : ∀ k : Fin 64, x7 (ix2 (0 : Fin 1) k) = a9 (ix1 k) - a10 (ix1 k) * scale (a8 (ix1 k)) (a11 (ix1 k)))
    (g : Fin 64) (i j : Fin 18) (k : Fin 64) :
    pre2 x0 x2 x3 x4 x5 x6 x7 (ix2 (row g i j) k)
      = bnK (Cert.Spec.x2 bnK a0 a2 a3 a4 a5 a6 a7 (B g) i j k) (a10 (ix1 k)) (scale (a8 (ix1 k)) (a11 (ix1 k))) (a9 (ix1 k)) := by
  rw [pre2_apply, h6, h7]
  unfold bnK Cert.Spec.x2
  refine congrArg (fun s => s * scale (a8 (ix1 k)) (a11 (ix1 k)) + (a9 (ix1 k) - a10 (ix1 k) * scale (a8 (ix1 k)) (a11 (ix1 k)))) ?_
  refine Finset.sum_congr rfl fun o _ => ?_
  rw [h1_spec a0 a2 a3 a4 a5 a6 B x0 x2 x3 x4 h0 h2 h3 h4 g i j o, h5]
  rfl

/-- The masked logit of pair (i, j) of graph g. -/
theorem z_spec
    (h0 : ∀ (g : Fin 64) (i : Fin 18) (c : Fin 64), x0 (ix3 g i c) = a0 (ix3 (B g) i c))
    (h2 : ∀ (c : Fin 64) (o : Fin 128), x2 (ix2 c o) = a2 (ix2 o c))
    (h3 : ∀ o : Fin 128, x3 (ix2 (0 : Fin 1) o) = scale (a3 (ix1 o)) (a6 (ix1 o)))
    (h4 : ∀ o : Fin 128, x4 (ix2 (0 : Fin 1) o) = a4 (ix1 o) - a5 (ix1 o) * scale (a3 (ix1 o)) (a6 (ix1 o)))
    (h5 : ∀ (o : Fin 128) (k : Fin 64), x5 (ix2 o k) = a7 (ix2 k o))
    (h6 : ∀ k : Fin 64, x6 (ix2 (0 : Fin 1) k) = scale (a8 (ix1 k)) (a11 (ix1 k)))
    (h7 : ∀ k : Fin 64, x7 (ix2 (0 : Fin 1) k) = a9 (ix1 k) - a10 (ix1 k) * scale (a8 (ix1 k)) (a11 (ix1 k)))
    (h8 : ∀ k : Fin 64, x8 (ix2 k (0 : Fin 1)) = a12 (ix2 (0 : Fin 1) k))
    (h9 : x9 (ix2 (0 : Fin 1) (0 : Fin 1)) = a13 (ix1 (0 : Fin 1)))
    (h10 : x10 = mk) (h11 : x11 = ey)
    (g : Fin 64) (i j : Fin 18) :
    zv (logitv (pre2 x0 x2 x3 x4 x5 x6 x7) (Scalar.ofBits .f32 0x00000000#32) x8 x9) x10 x11 (ix3 g i j)
      = z bnK mk ey a0 a2 a3 a4 a5 a6 a7 a8 a9 a10 a11 a12 a13 (B g) i j := by
  rw [zv_apply, logitv_apply, h9, h10, h11]
  unfold z logit
  refine congrArg (fun s => (s + a13 (ix1 (0 : Fin 1))) * mk (ix2 i j) + ey (ix2 i j)) ?_
  refine Finset.sum_congr rfl fun k _ => ?_
  rw [lrelu_act, pre2_spec a0 a2 a3 a4 a5 a6 a7 a8 a9 a10 a11 B x0 x2 x3 x4 x5 x6 x7 h0 h2 h3 h4 h5 h6 h7 g i j k, h8]
  rfl

/-- The stored value of the tile at (g, i, j, ch) is G at (B g, i, j, ch). -/
theorem block_eq
    (h0 : ∀ (g : Fin 64) (i : Fin 18) (c : Fin 64), x0 (ix3 g i c) = a0 (ix3 (B g) i c))
    (h1 : ∀ (g : Fin 64) (i j : Fin 18), x1 (ix3 g i j) = a1 (ix3 (B g) i j))
    (h2 : ∀ (c : Fin 64) (o : Fin 128), x2 (ix2 c o) = a2 (ix2 o c))
    (h3 : ∀ o : Fin 128, x3 (ix2 (0 : Fin 1) o) = scale (a3 (ix1 o)) (a6 (ix1 o)))
    (h4 : ∀ o : Fin 128, x4 (ix2 (0 : Fin 1) o) = a4 (ix1 o) - a5 (ix1 o) * scale (a3 (ix1 o)) (a6 (ix1 o)))
    (h5 : ∀ (o : Fin 128) (k : Fin 64), x5 (ix2 o k) = a7 (ix2 k o))
    (h6 : ∀ k : Fin 64, x6 (ix2 (0 : Fin 1) k) = scale (a8 (ix1 k)) (a11 (ix1 k)))
    (h7 : ∀ k : Fin 64, x7 (ix2 (0 : Fin 1) k) = a9 (ix1 k) - a10 (ix1 k) * scale (a8 (ix1 k)) (a11 (ix1 k)))
    (h8 : ∀ k : Fin 64, x8 (ix2 k (0 : Fin 1)) = a12 (ix2 (0 : Fin 1) k))
    (h9 : x9 (ix2 (0 : Fin 1) (0 : Fin 1)) = a13 (ix1 (0 : Fin 1)))
    (h10 : x10 = mk) (h11 : x11 = ey)
    (g : Fin 64) (i j : Fin 18) (ch : Fin 2) :
    k0_pay1 (F := Ideal) (k0_pay2 (F := Ideal) x0 x2 x3 x4 x5 x6 x7) (Scalar.ofBits .f32 0x00000000#32) x8 x9 x10 x11 x1 (ix4 g i j ch)
      = G bnK mk ey a0 a1 a2 a3 a4 a5 a6 a7 a8 a9 a10 a11 a12 a13 (ix4 (B g) i j ch) := by
  rw [pay2_eq]
  match ch with
  | ⟨0, _⟩ =>
    refine (pay1_ch0 (pre2 x0 x2 x3 x4 x5 x6 x7) (Scalar.ofBits .f32 0x00000000#32) x8 x9 x10 x11 x1 g i j).trans ?_
    rw [h1]
    rfl
  | ⟨1, _⟩ =>
    refine (pay1_ch1 (pre2 x0 x2 x3 x4 x5 x6 x7) (Scalar.ofBits .f32 0x00000000#32) x8 x9 x10 x11 x1 g i j).trans ?_
    refine (congrArg (fun r : Fin 18 → EReal => soft r j) (funext fun k =>
      z_spec mk ey a0 a2 a3 a4 a5 a6 a7 a8 a9 a10 a11 a12 a13 B x0 x2 x3 x4 x5 x6 x7 x8 x9 x10 x11 h0 h2 h3 h4 h5 h6 h7 h8 h9 h10 h11 g i k)).trans ?_
    rfl

end

end Cert.KernelIdeal.Pay

end
-- ==== Proof.KerEntry.lean ====
/-
  What the arrays staged by the kernel's windows hold when its region is entered, over the extended reals.

  Before the region the program transposes the three weight matrices, forms for each normalisation layer the
  scale g / √(v + ε) and the shift b - m · scale as row vectors [1, n], reshapes the last bias to [1, 1], and
  writes the two constant 18 × 18 tables. Each such array is the corresponding operations' term over the argument
  arrays as launched; read at an index, a transpose swaps the two coordinates, a reshape [n] → [1, n] keeps the
  element, and the pointwise operations act entry by entry.
-/
import proofs.«134835_j64166811403051_1_alg».proof.Proof.Gen.KernelIdeal.Frame
import proofs.«134835_j64166811403051_1_alg».proof.Proof.Spec
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Entry

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ) (c : Dev nD)

/-- Argument array 2 as launched on core c. -/
abbrev A2 : S128x64.Idx → EReal := m ((c : Thread nD τ).loc main_arg2)
/-- Argument array 3 as launched on core c. -/
abbrev A3 : S128.Idx → EReal := m ((c : Thread nD τ).loc main_arg3)
/-- Argument array 4 as launched on core c. -/
abbrev A4 : S128.Idx → EReal := m ((c : Thread nD τ).loc main_arg4)
/-- Argument array 5 as launched on core c. -/
abbrev A5 : S128.Idx → EReal := m ((c : Thread nD τ).loc main_arg5)
/-- Argument array 6 as launched on core c. -/
abbrev A6 : S128.Idx → EReal := m ((c : Thread nD τ).loc main_arg6)
/-- Argument array 7 as launched on core c. -/
abbrev A7 : S64x128.Idx → EReal := m ((c : Thread nD τ).loc main_arg7)
/-- Argument array 8 as launched on core c. -/
abbrev A8 : S64.Idx → EReal := m ((c : Thread nD τ).loc main_arg8)
/-- Argument array 9 as launched on core c. -/
abbrev A9 : S64.Idx → EReal := m ((c : Thread nD τ).loc main_arg9)
/-- Argument array 10 as launched on core c. -/
abbrev A10 : S64.Idx → EReal := m ((c : Thread nD τ).loc main_arg10)
/-- Argument array 11 as launched on core c. -/
abbrev A11 : S64.Idx → EReal := m ((c : Thread nD τ).loc main_arg11)
/-- Argument array 12 as launched on core c. -/
abbrev A12 : S1x64.Idx → EReal := m ((c : Thread nD τ).loc main_arg12)
/-- Argument array 13 as launched on core c. -/
abbrev A13 : S1.Idx → EReal := m ((c : Thread nD τ).loc main_arg13)

/-- The first weight matrix, transposed: entry (k, o) is W1(o, k). -/
theorem wt1 (k : Fin 64) (o : Fin 128) :
    (V m c main_v16 : S64x128.Idx → EReal) (ix2 k o) = A2 m c (ix2 o k) := by
  have e : (V m c main_v16 : S64x128.Idx → EReal)
      = transpose S64x128 [1, 0] (A2 m c) transposes_S128x64_S64x128_1_0 := by
    dsimp only [Gen.V, Gen.hostOps0]; after_results <;> rfl
  rw [e]
  exact transpose_ix2_apply _ _ k o

/-- The first layer's scale row: g / √(v + ε) at each of the 128 features. -/
theorem scale1 (o : Fin 128) :
    (V m c main_v4 : S1x128.Idx → EReal) (ix2 (0 : Fin 1) o)
      = Cert.Spec.scale (A3 m c (ix1 o)) (A6 m c (ix1 o)) := by
  have e : (V m c main_v4 : S1x128.Idx → EReal)
      = shapeCast S1x128 (Host.divf (F := Ideal) (A3 m c)
          (Host.sqrt (F := Ideal) (addf (F := Ideal) (A6 m c)
            (broadcastInDim S128 ![] bcast_S_S128 (constant (F := Ideal) S_ .f32 0x3727C5AC#32))))) shapeCasts_S128_S1x128 := by
    dsimp only [Gen.V, Gen.hostOps0]; after_results <;> rfl
  rw [e, shapeCast_a_1a_apply]
  rfl

/-- The first layer's shift row: b - m · scale. -/
theorem shift1 (o : Fin 128) :
    (V m c main_v7 : S1x128.Idx → EReal) (ix2 (0 : Fin 1) o)
      = A4 m c (ix1 o) - A5 m c (ix1 o) * Cert.Spec.scale (A3 m c (ix1 o)) (A6 m c (ix1 o)) := by
  have e : (V m c main_v7 : S1x128.Idx → EReal)
      = shapeCast S1x128 (subf (F := Ideal) (A4 m c) (mulf (F := Ideal) (A5 m c)
          (Host.divf (F := Ideal) (A3 m c)
          (Host.sqrt (F := Ideal) (addf (F := Ideal) (A6 m c)
            (broadcastInDim S128 ![] bcast_S_S128 (constant (F := Ideal) S_ .f32 0x3727C5AC#32))))))) shapeCasts_S128_S1x128 := by
    dsimp only [Gen.V, Gen.hostOps0]; after_results <;> rfl
  rw [e, shapeCast_a_1a_apply]
  rfl

/-- The second weight matrix, transposed: entry (o, k) is W2(k, o). -/
theorem wt2 (o : Fin 128) (k : Fin 64) :
    (V m c main_v17 : S128x64.Idx → EReal) (ix2 o k) = A7 m c (ix2 k o) := by
  have e : (V m c main_v17 : S128x64.Idx → EReal)
      = transpose S128x64 [1, 0] (A7 m c) transposes_S64x128_S128x64_1_0 := by
    dsimp only [Gen.V, Gen.hostOps0]; after_results <;> rfl
  rw [e]
  exact transpose_ix2_apply _ _ o k

/-- The second layer's scale row. -/
theorem scale2 (k : Fin 64) :
    (V m c main_v12 : S1x64.Idx → EReal) (ix2 (0 : Fin 1) k)
      = Cert.Spec.scale (A8 m c (ix1 k)) (A11 m c (ix1 k)) := by
  have e : (V m c main_v12 : S1x64.Idx → EReal)
      = shapeCast S1x64 (Host.divf (F := Ideal) (A8 m c)
          (Host.sqrt (F := Ideal) (addf (F := Ideal) (A11 m c)
            (broadcastInDim S64 ![] bcast_S_S64 (constant (F := Ideal) S_ .f32 0x3727C5AC#32))))) shapeCasts_S64_S1x64 := by
    dsimp only [Gen.V, Gen.hostOps0]; after_results <;> rfl
  rw [e, shapeCast_a_1a_apply]
  rfl

set_option maxHeartbeats 1600000 in
/-- The second layer's shift row. -/
theorem shift2 (k : Fin 64) :
    (V m c main_v15 : S1x64.Idx → EReal) (ix2 (0 : Fin 1) k)
      = A9 m c (ix1 k) - A10 m c (ix1 k) * Cert.Spec.scale (A8 m c (ix1 k)) (A11 m c (ix1 k)) := by
  have e : (V m c main_v15 : S1x64.Idx → EReal)
      = shapeCast S1x64 (subf (F := Ideal) (A9 m c) (mulf (F := Ideal) (A10 m c)
          (Host.divf (F := Ideal) (A8 m c)
          (Host.sqrt (F := Ideal) (addf (F := Ideal) (A11 m c)
            (broadcastInDim S64 ![] bcast_S_S64 (constant (F := Ideal) S_ .f32 0x3727C5AC#32))))))) shapeCasts_S64_S1x64 := by
    dsimp only [Gen.V, Gen.hostOps0]; after_results <;> rfl
  rw [e, shapeCast_a_1a_apply]
  rfl

/-- The last weight row as a column: entry (k, 0) is W3(0, k). -/
theorem wt3 (k : Fin 64) :
    (V m c main_v18 : S64x1.Idx → EReal) (ix2 k (0 : Fin 1)) = A12 m c (ix2 (0 : Fin 1) k) := by
  have e : (V m c main_v18 : S64x1.Idx → EReal)
      = transpose S64x1 [1, 0] (A12 m c) transposes_S1x64_S64x1_1_0 := by
    dsimp only [Gen.V, Gen.hostOps0]; after_results <;> rfl
  rw [e]
  exact transpose_ix2_apply _ _ k (0 : Fin 1)

/-- The last bias as a 1 × 1 array. -/
theorem bias3 :
    (V m c main_v19 : S1x1.Idx → EReal) (ix2 (0 : Fin 1) (0 : Fin 1)) = A13 m c (ix1 (0 : Fin 1)) := by
  have e : (V m c main_v19 : S1x1.Idx → EReal)
      = shapeCast S1x1 (A13 m c) shapeCasts_S1_S1x1 := by
    dsimp only [Gen.V, Gen.hostOps0]; after_results <;> rfl
  rw [e, shapeCast_a_1a_apply]

/-- The pair mask: the first constant table. -/
theorem mask : (V m c main_cst : S18x18.Idx → EReal) = Cert.Spec.table Cert.KernelIdeal.lit0 := by
  dsimp only [Gen.V, Gen.hostOps0]; after_results <;> rfl

/-- The added diagonal: the second constant table. -/
theorem eye : (V m c main_cst_0 : S18x18.Idx → EReal) = Cert.Spec.table Cert.KernelIdeal.lit1 := by
  dsimp only [Gen.V, Gen.hostOps0]; after_results <;> rfl

end Cert.KernelIdeal.Entry

end
-- ==== Proof.KerValue.lean ====
/-
  From tiles to the whole array.

  The grid has 64 points; point t stages rows 64t … 64t+63 of the node array and of the edge array, the whole of every
  weight, scale, shift and table array, and writes back rows 64t … 64t+63 of the result. What it writes is the
  corresponding block of the function G (arrangement x·s + (b − m·s)) of the argument arrays, the 64 blocks cover
  the result array, so the array ends equal to G of the arguments.
-/
import proofs.«134835_j64166811403051_1_alg».proof.Proof.Gen.KernelIdeal.Value
import proofs.«134835_j64166811403051_1_alg».proof.Proof.KerBlock
import proofs.«134835_j64166811403051_1_alg».proof.Proof.KerEntry

noncomputable section

open scoped BigOperators

namespace Cert.KernelIdeal.Hand

open Cert.KernelIdeal Cert.KernelIdeal.Gen Idealize.ShloMosaic Idealize.ShloMosaic.TcCoe Idealize.SL.Sem
open Idealize.ShloMosaic.ValueIdx Cert.Spec
open Idealize.ShloMosaic.Pipeline (Dat)

variable (m : (ℓ : Loc nD τ sig) → Buf (Elt Ideal) ℓ) (ρ : Dev nD → PrngReg)

/-- The node array and the edge array as launched. -/
abbrev A0 (c : Dev nD) : S4096x18x64.Idx → EReal := m ((c : Thread nD τ).loc main_arg0)
abbrev A1 (c : Dev nD) : S4096x18x18.Idx → EReal := m ((c : Thread nD τ).loc main_arg1)

/-- The result array as a function of the argument arrays. -/
abbrev result (c : Dev nD) : Buf (Elt Ideal) ((c : Thread nD τ).loc main_v20) :=
  G bnK (table lit0) (table lit1) (A0 m c) (A1 m c) (Entry.A2 m c) (Entry.A3 m c) (Entry.A4 m c) (Entry.A5 m c) (Entry.A6 m c) (Entry.A7 m c) (Entry.A8 m c) (Entry.A9 m c) (Entry.A10 m c) (Entry.A11 m c) (Entry.A12 m c) (Entry.A13 m c)

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The printed index maps over the grid: the node, edge and result windows move along the batch axis with the
    point, every other window stays at block 0. -/
theorem idx_facts : ∀ t : Fin cfg0.N,
    win0_0.index t (0 : Fin 3) = t.val
    ∧ win0_0.index t (1 : Fin 3) = 0
    ∧ win0_0.index t (2 : Fin 3) = 0
    ∧ win0_1.index t (0 : Fin 3) = t.val
    ∧ win0_1.index t (1 : Fin 3) = 0
    ∧ win0_1.index t (2 : Fin 3) = 0
    ∧ win0_12.index t (0 : Fin 4) = t.val
    ∧ win0_12.index t (1 : Fin 4) = 0
    ∧ win0_12.index t (2 : Fin 4) = 0
    ∧ win0_12.index t (3 : Fin 4) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 2) = 0
    ∧ win0_9.index t (1 : Fin 2) = 0
    ∧ win0_10.index t (0 : Fin 2) = 0
    ∧ win0_10.index t (1 : Fin 2) = 0
    ∧ win0_11.index t (0 : Fin 2) = 0
    ∧ win0_11.index t (1 : Fin 2) = 0 :=
  (by decide +kernel : ∀ t : Fin grid0.N, _)

/-- The graph of the batch that graph g of tile t is. -/
def tileRow (t : Fin cfg0.N) (g : Fin 64) : Fin 4096 :=
  ⟨t.val * 64 + g.val, by have := t.isLt; have hN : cfg0.N = 64 := N_0; have := g.isLt; omega⟩

/-- The node block at point t is rows 64t … of the node array. -/
theorem iblk0_apply (c : Dev nD) (t : Fin cfg0.N) (g : Fin 64) (i : Fin 18) (k : Fin 64) :
    (iblk m c 0 t : Vec Ideal S64x18x64 .f32) (ix3 g i k) = (A0 m c) (ix3 (tileRow t g) i k) := by
  obtain ⟨f0, f1, f2, f3, f4, f5, f6, f7, f8, f9, f10, f11, f12, f13, f14, f15, f16, f17, f18, f19, f20, f21, f22, f23, f24, f25, f26, f27, f28, f29⟩ := idx_facts t
  unfold iblk
  rw [View.read_apply]
  show V m c main_arg0 (((cfg0.win 0).blk t).view.emb (ix3 g i k)) = _
  rw [V_main_arg0]
  refine congrArg _ (funext fun a => Fin.ext ?_)
  match a with
  | ⟨0, _⟩ => show win0_0.index t (0 : Fin 3) * 64 + 1 * g.val = t.val * 64 + g.val; rw [f0]; omega
  | ⟨1, _⟩ => show win0_0.index t (1 : Fin 3) * 18 + 1 * i.val = i.val; rw [f1]; omega
  | ⟨2, _⟩ => show win0_0.index t (2 : Fin 3) * 64 + 1 * k.val = k.val; rw [f2]; omega

/-- The edge block at point t is rows 64t … of the edge array. -/
theorem iblk1_apply (c : Dev nD) (t : Fin cfg0.N) (g : Fin 64) (i j : Fin 18) :
    (iblk m c 1 t : Vec Ideal S64x18x18 .f32) (ix3 g i j) = (A1 m c) (ix3 (tileRow t g) i j) := by
  obtain ⟨f0, f1, f2, f3, f4, f5, f6, f7, f8, f9, f10, f11, f12, f13, f14, f15, f16, f17, f18, f19, f20, f21, f22, f23, f24, f25, f26, f27, f28, f29⟩ := idx_facts t
  unfold iblk
  rw [View.read_apply]
  show V m c main_arg1 (((cfg0.win 1).blk t).view.emb (ix3 g i j)) = _
  rw [V_main_arg1]
  refine congrArg _ (funext fun a => Fin.ext ?_)
  match a with
  | ⟨0, _⟩ => show win0_1.index t (0 : Fin 3) * 64 + 1 * g.val = t.val * 64 + g.val; rw [f3]; omega
  | ⟨1, _⟩ => show win0_1.index t (1 : Fin 3) * 18 + 1 * i.val = i.val; rw [f4]; omega
  | ⟨2, _⟩ => show win0_1.index t (2 : Fin 3) * 18 + 1 * j.val = j.val; rw [f5]; omega

/-- Window 2's block is the whole of its array, whatever the point. -/
theorem iblk2_apply (c : Dev nD) (t : Fin cfg0.N) (k : Fin 64) (o : Fin 128) :
    (iblk m c 2 t : Vec Ideal S64x128 .f32) (ix2 k o) = (Entry.A2 m c) (ix2 o k) := by
  obtain ⟨f0, f1, f2, f3, f4, f5, f6, f7, f8, f9, f10, f11, f12, f13, f14, f15, f16, f17, f18, f19, f20, f21, f22, f23, f24, f25, f26, f27, f28, f29⟩ := idx_facts t
  unfold iblk
  rw [View.read_apply]
  show (V m c main_v16 : S64x128.Idx → EReal) (((cfg0.win 2).blk t).view.emb (ix2 k o)) = _
  have he : ((cfg0.win 2).blk t).view.emb (ix2 k o) = ix2 k o := funext fun a => Fin.ext (by
    match a with
    | ⟨0, _⟩ => show win0_2.index t (0 : Fin 2) * 64 + 1 * (k : Fin 64).val = (k : Fin 64).val; rw [f10]; omega
    | ⟨1, _⟩ => show win0_2.index t (1 : Fin 2) * 128 + 1 * (o : Fin 128).val = (o : Fin 128).val; rw [f11]; omega)
  rw [he]
  exact Entry.wt1 m c k o

/-- Window 3's block is the whole of its array, whatever the point. -/
theorem iblk3_apply (c : Dev nD) (t : Fin cfg0.N) (o : Fin 128) :
    (iblk m c 3 t : Vec Ideal S1x128 .f32) (ix2 (0 : Fin 1) o) = scale ((Entry.A3 m c) (ix1 o)) ((Entry.A6 m c) (ix1 o)) := by
  obtain ⟨f0, f1, f2, f3, f4, f5, f6, f7, f8, f9, f10, f11, f12, f13, f14, f15, f16, f17, f18, f19, f20, f21, f22, f23, f24, f25, f26, f27, f28, f29⟩ := idx_facts t
  unfold iblk
  rw [View.read_apply]
  show (V m c main_v4 : S1x128.Idx → EReal) (((cfg0.win 3).blk t).view.emb (ix2 (0 : Fin 1) o)) = _
  have he : ((cfg0.win 3).blk t).view.emb (ix2 (0 : Fin 1) o) = ix2 (0 : Fin 1) o := funext fun a => Fin.ext (by
    match a with
    | ⟨0, _⟩ => show win0_3.index t (0 : Fin 2) * 1 + 1 * ((0 : Fin 1) : Fin 1).val = ((0 : Fin 1) : Fin 1).val; rw [f12]; omega
    | ⟨1, _⟩ => show win0_3.index t (1 : Fin 2) * 128 + 1 * (o : Fin 128).val = (o : Fin 128).val; rw [f13]; omega)
  rw [he]
  exact Entry.scale1 m c o

/-- Window 4's block is the whole of its array, whatever the point. -/
theorem iblk4_apply (c : Dev nD) (t : Fin cfg0.N) (o : Fin 128) :
    (iblk m c 4 t : Vec Ideal S1x128 .f32) (ix2 (0 : Fin 1) o) = (Entry.A4 m c) (ix1 o) - (Entry.A5 m c) (ix1 o) * scale ((Entry.A3 m c) (ix1 o)) ((Entry.A6 m c) (ix1 o)) := by
  obtain ⟨f0, f1, f2, f3, f4, f5, f6, f7, f8, f9, f10, f11, f12, f13, f14, f15, f16, f17, f18, f19, f20, f21, f22, f23, f24, f25, f26, f27, f28, f29⟩ := idx_facts t
  unfold iblk
  rw [View.read_apply]
  show (V m c main_v7 : S1x128.Idx → EReal) (((cfg0.win 4).blk t).view.emb (ix2 (0 : Fin 1) o)) = _
  have he : ((cfg0.win 4).blk t).view.emb (ix2 (0 : Fin 1) o) = ix2 (0 : Fin 1) o := funext fun a => Fin.ext (by
    match a with
    | ⟨0, _⟩ => show win0_4.index t (0 : Fin 2) * 1 + 1 * ((0 : Fin 1) : Fin 1).val = ((0 : Fin 1) : Fin 1).val; rw [f14]; omega
    | ⟨1, _⟩ => show win0_4.index t (1 : Fin 2) * 128 + 1 * (o : Fin 128).val = (o : Fin 128).val; rw [f15]; omega)
  rw [he]
  exact Entry.shift1 m c o

/-- Window 5's block is the whole of its array, whatever the point. -/
theorem iblk5_apply (c : Dev nD) (t : Fin cfg0.N) (o : Fin 128) (k : Fin 64) :
    (iblk m c 5 t : Vec Ideal S128x64 .f32) (ix2 o k) = (Entry.A7 m c) (ix2 k o) := by
  obtain ⟨f0, f1, f2, f3, f4, f5, f6, f7, f8, f9, f10, f11, f12, f13, f14, f15, f16, f17, f18, f19, f20, f21, f22, f23, f24, f25, f26, f27, f28, f29⟩ := idx_facts t
  unfold iblk
  rw [View.read_apply]
  show (V m c main_v17 : S128x64.Idx → EReal) (((cfg0.win 5).blk t).view.emb (ix2 o k)) = _
  have he : ((cfg0.win 5).blk t).view.emb (ix2 o k) = ix2 o k := funext fun a => Fin.ext (by
    match a with
    | ⟨0, _⟩ => show win0_5.index t (0 : Fin 2) * 128 + 1 * (o : Fin 128).val = (o : Fin 128).val; rw [f16]; omega
    | ⟨1, _⟩ => show win0_5.index t (1 : Fin 2) * 64 + 1 * (k : Fin 64).val = (k : Fin 64).val; rw [f17]; omega)
  rw [he]
  exact Entry.wt2 m c o k

/-- Window 6's block is the whole of its array, whatever the point. -/
theorem iblk6_apply (c : Dev nD) (t : Fin cfg0.N) (k : Fin 64) :
    (iblk m c 6 t : Vec Ideal S1x64 .f32) (ix2 (0 : Fin 1) k) = scale ((Entry.A8 m c) (ix1 k)) ((Entry.A11 m c) (ix1 k)) := by
  obtain ⟨f0, f1, f2, f3, f4, f5, f6, f7, f8, f9, f10, f11, f12, f13, f14, f15, f16, f17, f18, f19, f20, f21, f22, f23, f24, f25, f26, f27, f28, f29⟩ := idx_facts t
  unfold iblk
  rw [View.read_apply]
  show (V m c main_v12 : S1x64.Idx → EReal) (((cfg0.win 6).blk t).view.emb (ix2 (0 : Fin 1) k)) = _
  have he : ((cfg0.win 6).blk t).view.emb (ix2 (0 : Fin 1) k) = ix2 (0 : Fin 1) k := funext fun a => Fin.ext (by
    match a with
    | ⟨0, _⟩ => show win0_6.index t (0 : Fin 2) * 1 + 1 * ((0 : Fin 1) : Fin 1).val = ((0 : Fin 1) : Fin 1).val; rw [f18]; omega
    | ⟨1, _⟩ => show win0_6.index t (1 : Fin 2) * 64 + 1 * (k : Fin 64).val = (k : Fin 64).val; rw [f19]; omega)
  rw [he]
  exact Entry.scale2 m c k

/-- Window 7's block is the whole of its array, whatever the point. -/
theorem iblk7_apply (c : Dev nD) (t : Fin cfg0.N) (k : Fin 64) :
    (iblk m c 7 t : Vec Ideal S1x64 .f32) (ix2 (0 : Fin 1) k) = (Entry.A9 m c) (ix1 k) - (Entry.A10 m c) (ix1 k) * scale ((Entry.A8 m c) (ix1 k)) ((Entry.A11 m c) (ix1 k)) := by
  obtain ⟨f0, f1, f2, f3, f4, f5, f6, f7, f8, f9, f10, f11, f12, f13, f14, f15, f16, f17, f18, f19, f20, f21, f22, f23, f24, f25, f26, f27, f28, f29⟩ := idx_facts t
  unfold iblk
  rw [View.read_apply]
  show (V m c main_v15 : S1x64.Idx → EReal) (((cfg0.win 7).blk t).view.emb (ix2 (0 : Fin 1) k)) = _
  have he : ((cfg0.win 7).blk t).view.emb (ix2 (0 : Fin 1) k) = ix2 (0 : Fin 1) k := funext fun a => Fin.ext (by
    match a with
    | ⟨0, _⟩ => show win0_7.index t (0 : Fin 2) * 1 + 1 * ((0 : Fin 1) : Fin 1).val = ((0 : Fin 1) : Fin 1).val; rw [f20]; omega
    | ⟨1, _⟩ => show win0_7.index t (1 : Fin 2) * 64 + 1 * (k : Fin 64).val = (k : Fin 64).val; rw [f21]; omega)
  rw [he]
  exact Entry.shift2 m c k

/-- Window 8's block is the whole of its array, whatever the point. -/
theorem iblk8_apply (c : Dev nD) (t : Fin cfg0.N) (k : Fin 64) :
    (iblk m c 8 t : Vec Ideal S64x1 .f32) (ix2 k (0 : Fin 1)) = (Entry.A12 m c) (ix2 (0 : Fin 1) k) := by
  obtain ⟨f0, f1, f2, f3, f4, f5, f6, f7, f8, f9, f10, f11, f12, f13, f14, f15, f16, f17, f18, f19, f20, f21, f22, f23, f24, f25, f26, f27, f28, f29⟩ := idx_facts t
  unfold iblk
  rw [View.read_apply]
  show (V m c main_v18 : S64x1.Idx → EReal) (((cfg0.win 8).blk t).view.emb (ix2 k (0 : Fin 1))) = _
  have he : ((cfg0.win 8).blk t).view.emb (ix2 k (0 : Fin 1)) = ix2 k (0 : Fin 1) := funext fun a => Fin.ext (by
    match a with
    | ⟨0, _⟩ => show win0_8.index t (0 : Fin 2) * 64 + 1 * (k : Fin 64).val = (k : Fin 64).val; rw [f22]; omega
    | ⟨1, _⟩ => show win0_8.index t (1 : Fin 2) * 1 + 1 * ((0 : Fin 1) : Fin 1).val = ((0 : Fin 1) : Fin 1).val; rw [f23]; omega)
  rw [he]
  exact Entry.wt3 m c k

/-- Window 9's block is the whole of its array, whatever the point. -/
theorem iblk9_apply (c : Dev nD) (t : Fin cfg0.N)  :
    (iblk m c 9 t : Vec Ideal S1x1 .f32) (ix2 (0 : Fin 1) (0 : Fin 1)) = (Entry.A13 m c) (ix1 (0 : Fin 1)) := by
  obtain ⟨f0, f1, f2, f3, f4, f5, f6, f7, f8, f9, f10, f11, f12, f13, f14, f15, f16, f17, f18, f19, f20, f21, f22, f23, f24, f25, f26, f27, f28, f29⟩ := idx_facts t
  unfold iblk
  rw [View.read_apply]
  show (V m c main_v19 : S1x1.Idx → EReal) (((cfg0.win 9).blk t).view.emb (ix2 (0 : Fin 1) (0 : Fin 1))) = _
  have he : ((cfg0.win 9).blk t).view.emb (ix2 (0 : Fin 1) (0 : Fin 1)) = ix2 (0 : Fin 1) (0 : Fin 1) := funext fun a => Fin.ext (by
    match a with
    | ⟨0, _⟩ => show win0_9.index t (0 : Fin 2) * 1 + 1 * ((0 : Fin 1) : Fin 1).val = ((0 : Fin 1) : Fin 1).val; rw [f24]; omega
    | ⟨1, _⟩ => show win0_9.index t (1 : Fin 2) * 1 + 1 * ((0 : Fin 1) : Fin 1).val = ((0 : Fin 1) : Fin 1).val; rw [f25]; omega)
  rw [he]
  exact Entry.bias3 m c

/-- Window 10's block is the whole table. -/
theorem iblk10_eq (c : Dev nD) (t : Fin cfg0.N) : (iblk m c 10 t : Vec Ideal S18x18 .f32) = table lit0 := by
  obtain ⟨f0, f1, f2, f3, f4, f5, f6, f7, f8, f9, f10, f11, f12, f13, f14, f15, f16, f17, f18, f19, f20, f21, f22, f23, f24, f25, f26, f27, f28, f29⟩ := idx_facts t
  funext y
  unfold iblk
  rw [View.read_apply]
  show (V m c main_cst : S18x18.Idx → EReal) (((cfg0.win 10).blk t).view.emb y) = _
  have he : ((cfg0.win 10).blk t).view.emb y = y := funext fun a => Fin.ext (by
    match a with
    | ⟨0, _⟩ => show win0_10.index t (0 : Fin 2) * 18 + 1 * (y 0).val = (y 0).val; rw [f26]; omega
    | ⟨1, _⟩ => show win0_10.index t (1 : Fin 2) * 18 + 1 * (y 1).val = (y 1).val; rw [f27]; omega)
  rw [he, Entry.mask m c]

/-- Window 11's block is the whole table. -/
theorem iblk11_eq (c : Dev nD) (t : Fin cfg0.N) : (iblk m c 11 t : Vec Ideal S18x18 .f32) = table lit1 := by
  obtain ⟨f0, f1, f2, f3, f4, f5, f6, f7, f8, f9, f10, f11, f12, f13, f14, f15, f16, f17, f18, f19, f20, f21, f22, f23, f24, f25, f26, f27, f28, f29⟩ := idx_facts t
  funext y
  unfold iblk
  rw [View.read_apply]
  show (V m c main_cst_0 : S18x18.Idx → EReal) (((cfg0.win 11).blk t).view.emb y) = _
  have he : ((cfg0.win 11).blk t).view.emb y = y := funext fun a => Fin.ext (by
    match a with
    | ⟨0, _⟩ => show win0_11.index t (0 : Fin 2) * 18 + 1 * (y 0).val = (y 0).val; rw [f28]; omega
    | ⟨1, _⟩ => show win0_11.index t (1 : Fin 2) * 18 + 1 * (y 1).val = (y 1).val; rw [f29]; omega)
  rw [he, Entry.eye m c]

/-- What point t leaves in the result's staging buffer, at an entry, is G at the entry's place in the array. -/
theorem stored_at (c : Dev nD) (t : Fin cfg0.N) (y : S64x18x18x2.Idx) :
    k0_pay1 (F := Ideal) (k0_pay2 (F := Ideal) (iblk m c 0 t) (iblk m c 2 t) (iblk m c 3 t) (iblk m c 4 t) (iblk m c 5 t) (iblk m c 6 t) (iblk m c 7 t))
        (Scalar.ofBits .f32 0x00000000#32) (iblk m c 8 t) (iblk m c 9 t) (iblk m c 10 t) (iblk m c 11 t) (iblk m c 1 t) y
      = result m c (((cfg0.win 12).blk t).view.emb y) := by
  obtain ⟨f0, f1, f2, f3, f4, f5, f6, f7, f8, f9, f10, f11, f12, f13, f14, f15, f16, f17, f18, f19, f20, f21, f22, f23, f24, f25, f26, f27, f28, f29⟩ := idx_facts t
  obtain ⟨g, i, j, ch, rfl⟩ : ∃ (g : Fin 64) (i j : Fin 18) (ch : Fin 2), y = ix4 g i j ch := ⟨y 0, y 1, y 2, y 3, eq_ix4 y⟩
  refine (Pay.block_eq (table lit0) (table lit1) (A0 m c) (A1 m c) (Entry.A2 m c) (Entry.A3 m c) (Entry.A4 m c) (Entry.A5 m c) (Entry.A6 m c) (Entry.A7 m c) (Entry.A8 m c) (Entry.A9 m c) (Entry.A10 m c) (Entry.A11 m c) (Entry.A12 m c) (Entry.A13 m c) (tileRow t)
    (iblk m c 0 t) (iblk m c 1 t) (iblk m c 2 t) (iblk m c 3 t) (iblk m c 4 t) (iblk m c 5 t) (iblk m c 6 t) (iblk m c 7 t)
    (iblk m c 8 t) (iblk m c 9 t) (iblk m c 10 t) (iblk m c 11 t)
    (iblk0_apply m c t) (iblk1_apply m c t) (iblk2_apply m c t) (iblk3_apply m c t) (iblk4_apply m c t) (iblk5_apply m c t)
    (iblk6_apply m c t) (iblk7_apply m c t) (iblk8_apply m c t) (iblk9_apply m c t) (iblk10_eq m c t) (iblk11_eq m c t) g i j ch).trans ?_
  refine congrArg (result m c) (funext fun a => Fin.ext ?_)
  match a with
  | ⟨0, _⟩ => show t.val * 64 + g.val = win0_12.index t (0 : Fin 4) * 64 + 1 * g.val; rw [f6]; omega
  | ⟨1, _⟩ => show i.val = win0_12.index t (1 : Fin 4) * 18 + 1 * i.val; rw [f7]; omega
  | ⟨2, _⟩ => show j.val = win0_12.index t (2 : Fin 4) * 18 + 1 * j.val; rw [f8]; omega
  | ⟨3, _⟩ => show ch.val = win0_12.index t (3 : Fin 4) * 2 + 1 * ch.val; rw [f9]; omega

/-- What point t writes back is block t of the result function. -/
theorem flushed_eq (c : Dev nD) (t : Fin cfg0.N) :
    (dats m 0 c).flushed 12 t = ((cfg0.win 12).blk t).view.read (Elt Ideal) (result m c) := by
  rw [Cert.KernelIdeal.Value.flushed12]
  unfold out0_12
  rw [View.canon_unit_zero hz4]
  simp only [View.ld_unit_zero (S := S64x18x64) hz3, View.ld_unit_zero (S := S64x18x18) hz3, View.ld_unit_zero (S := S64x128) hz2,
    View.ld_unit_zero (S := S1x128) hz2, View.ld_unit_zero (S := S128x64) hz2, View.ld_unit_zero (S := S1x64) hz2,
    View.ld_unit_zero (S := S64x1) hz2, View.ld_unit_zero (S := S1x1) hz2, View.ld_unit_zero (S := S18x18) hz2]
  funext y
  exact stored_at m c t y

/-- An index of the result array is in point t's block iff each coordinate is in the block's range. -/
theorem mem_blk (t : Fin cfg0.N) (i : S4096x18x18x2.Idx) :
    i ∈ ((cfg0.win 12).blk t).view.set ↔ ∀ a : Fin 4, win0_12.index t a * S64x18x18x2.size a ≤ (i a).val
      ∧ (i a).val < win0_12.index t a * S64x18x18x2.size a + S64x18x18x2.size a := by
  show i ∈ ((View.whole main_v20).slice (win0_12.rect t)).set ↔ _
  rw [View.set_slice_whole, Rect.mem_set_unit]
  exact Iff.rfl

/-- Every index of the result array is in the block of the point its batch row belongs to. -/
theorem cover (i : S4096x18x18x2.Idx) : ∃ t : Fin cfg0.N, (cfg0.win 12).flush t = true ∧ i ∈ ((cfg0.win 12).blk t).view.set := by
  have hN : cfg0.N = 64 := N_0
  have h0 : (i 0).val < 4096 := (i 0).isLt
  have h1 : (i 1).val < 18 := (i 1).isLt
  have h2 : (i 2).val < 18 := (i 2).isLt
  have h3 : (i 3).val < 2 := (i 3).isLt
  have ht : (i 0).val / 64 < cfg0.N := by rw [hN]; omega
  refine ⟨⟨(i 0).val / 64, ht⟩, flush0_12 _, ?_⟩
  rw [mem_blk]
  obtain ⟨f0, f1, f2, f3, f4, f5, f6, f7, f8, f9, f10, f11, f12, f13, f14, f15, f16, f17, f18, f19, f20, f21, f22, f23, f24, f25, f26, f27, f28, f29⟩ := idx_facts ⟨(i 0).val / 64, ht⟩
  intro a
  match a with
  | ⟨0, _⟩ =>
    show win0_12.index ⟨(i 0).val / 64, ht⟩ (0 : Fin 4) * 64 ≤ (i 0).val ∧ (i 0).val < win0_12.index ⟨(i 0).val / 64, ht⟩ (0 : Fin 4) * 64 + 64
    rw [f6]; show (i 0).val / 64 * 64 ≤ (i 0).val ∧ (i 0).val < (i 0).val / 64 * 64 + 64; omega
  | ⟨1, _⟩ =>
    show win0_12.index ⟨(i 0).val / 64, ht⟩ (1 : Fin 4) * 18 ≤ (i 1).val ∧ (i 1).val < win0_12.index ⟨(i 0).val / 64, ht⟩ (1 : Fin 4) * 18 + 18
    rw [f7]; omega
  | ⟨2, _⟩ =>
    show win0_12.index ⟨(i 0).val / 64, ht⟩ (2 : Fin 4) * 18 ≤ (i 2).val ∧ (i 2).val < win0_12.index ⟨(i 0).val / 64, ht⟩ (2 : Fin 4) * 18 + 18
    rw [f8]; omega
  | ⟨3, _⟩ =>
    show win0_12.index ⟨(i 0).val / 64, ht⟩ (3 : Fin 4) * 2 ≤ (i 3).val ∧ (i 3).val < win0_12.index ⟨(i 0).val / 64, ht⟩ (3 : Fin 4) * 2 + 2
    rw [f9]; omega

/-- The result array after the run is G of the argument arrays. -/
theorem final (c : Dev nD) : (dats m 0 c).arrAt 12 cfg0.N = result m c :=
  (dats m 0 c).arrAt_eq_of_cover 12 (result m c) (fun t _ => flushed_eq m c t) cover

/-- The run, read: the result array at G of the arguments, the arguments unchanged. -/
theorem run : θ_run defs (onTc (τ := τ) (main (F := Ideal))) ⟨m, fun _ => 0, ρ⟩ fun r => ∀ c : Dev nD,
      r.2.mem ((c : Thread nD τ).loc main_v20) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13) :=
  (θ_run defs _ _).mono (fun r h c => ⟨(h c).1.trans (final m c), (h c).2⟩) (Cert.KernelIdeal.Value.run_blocks m ρ)

end Cert.KernelIdeal.Hand

end
-- ==== Proof.RefRun.lean ====
import proofs.«134835_j64166811403051_1_alg».proof.Proof.Gen.ReferenceIdeal
import Idealize.ShloMosaic.Lib.StableHlo.Run

/-!
The reference program's host function as a list of its operations, and its run read back: every weakly fair
execution terminates with each buffer at the fold of the operations over the launch contents.
The two calls of the outlined selects are listed inline at their call sites, each the select over the
call's own result buffer.
-/

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The host function's eighty operations, in order: its seventy-eight own and, inline at their call sites, the two
    outlined selects (each over its call's result buffer). -/
abbrev ops : List (HloOp τ sig (Elt F)) :=
  [ nullary main_cst (fun i => FloatOps.ofBits .f32 (lit0 (S18x18.rowMajor i))),
    nullary main_cst_0 (fun i => FloatOps.ofBits .f32 (lit1 (S18x18.rowMajor i))),
    unary main_arg0 main_v0 (broadcastInDim S4096x18x1x64 ![0, 1, 3] bcast_S4096x18x64_S4096x18x1x64_0_1_3 : (⟨S4096x18x64, .f32⟩ : BufTy).Contents (Elt F) → (⟨S4096x18x1x64, .f32⟩ : BufTy).Contents (Elt F)),
    unary main_arg0 main_v1 (broadcastInDim S4096x1x18x64 ![0, 2, 3] bcast_S4096x18x64_S4096x1x18x64_0_2_3 : (⟨S4096x18x64, .f32⟩ : BufTy).Contents (Elt F) → (⟨S4096x1x18x64, .f32⟩ : BufTy).Contents (Elt F)),
    unary main_v0 main_v2 (broadcastInDim S4096x18x18x64 ![0, 1, 2, 3] bcast_S4096x18x1x64_S4096x18x18x64_0_1_2_3 : (⟨S4096x18x1x64, .f32⟩ : BufTy).Contents (Elt F) → (⟨S4096x18x18x64, .f32⟩ : BufTy).Contents (Elt F)),
    unary main_v1 main_v3 (broadcastInDim S4096x18x18x64 ![0, 1, 2, 3] bcast_S4096x1x18x64_S4096x18x18x64_0_1_2_3 : (⟨S4096x1x18x64, .f32⟩ : BufTy).Contents (Elt F) → (⟨S4096x18x18x64, .f32⟩ : BufTy).Contents (Elt F)),
    binary main_v2 main_v3 main_v4 (subf : (⟨S4096x18x18x64, .f32⟩ : BufTy).Contents (Elt F) → (⟨S4096x18x18x64, .f32⟩ : BufTy).Contents (Elt F) → (⟨S4096x18x18x64, .f32⟩ : BufTy).Contents (Elt F)),
    binary main_v4 main_v4 main_v5 (mulf : (⟨S4096x18x18x64, .f32⟩ : BufTy).Contents (Elt F) → (⟨S4096x18x18x64, .f32⟩ : BufTy).Contents (Elt F) → (⟨S4096x18x18x64, .f32⟩ : BufTy).Contents (Elt F)),
    binary main_v5 main_arg2 main_v6 ((fun l r => Host.dotGeneral dot_S4096x18x18x64_S128x64_S4096x18x18x128_3_1_012_0_n_n none l r) : (⟨S4096x18x18x64, .f32⟩ : BufTy).Contents (Elt F) → (⟨S128x64, .f32⟩ : BufTy).Contents (Elt F) → (⟨S4096x18x18x128, .f32⟩ : BufTy).Contents (Elt F)),
    unary main_arg5 main_v7 (broadcastInDim S1x1x1x128 ![3] bcast_S128_S1x1x1x128_3 : (⟨S128, .f32⟩ : BufTy).Contents (Elt F) → (⟨S1x1x1x128, .f32⟩ : BufTy).Contents (Elt F)),
    unary main_v7 main_v8 (broadcastInDim S4096x18x18x128 ![0, 1, 2, 3] bcast_S1x1x1x128_S4096x18x18x128_0_1_2_3 : (⟨S1x1x1x128, .f32⟩ : BufTy).Contents (Elt F) → (⟨S4096x18x18x128, .f32⟩ : BufTy).Contents (Elt F)),
    binary main_v6 main_v8 main_v9 (subf : (⟨S4096x18x18x128, .f32⟩ : BufTy).Contents (Elt F) → (⟨S4096x18x18x128, .f32⟩ : BufTy).Contents (Elt F) → (⟨S4096x18x18x128, .f32⟩ : BufTy).Contents (Elt F)),
    nullary main_cst_1 (constant S_ .f32 0x3727C5AC#32),
    unary main_cst_1 main_v10 (broadcastInDim S128 ![] bcast_S_S128 : (⟨S_, .f32⟩ : BufTy).Contents (Elt F) → (⟨S128, .f32⟩ : BufTy).Contents (Elt F)),
    binary main_arg6 main_v10 main_v11 (addf : (⟨S128, .f32⟩ : BufTy).Contents (Elt F) → (⟨S128, .f32⟩ : BufTy).Contents (Elt F) → (⟨S128, .f32⟩ : BufTy).Contents (Elt F)),
    unary main_v11 main_v12 (Host.sqrt : (⟨S128, .f32⟩ : BufTy).Contents (Elt F) → (⟨S128, .f32⟩ : BufTy).Contents (Elt F)),
    binary main_arg3 main_v12 main_v13 (Host.divf : (⟨S128, .f32⟩ : BufTy).Contents (Elt F) → (⟨S128, .f32⟩ : BufTy).Contents (Elt F) → (⟨S128, .f32⟩ : BufTy).Contents (Elt F)),
    unary main_v13 main_v14 (broadcastInDim S1x1x1x128 ![3] bcast_S128_S1x1x1x128_3 : (⟨S128, .f32⟩ : BufTy).Contents (Elt F) → (⟨S1x1x1x128, .f32⟩ : BufTy).Contents (Elt F)),
    unary main_v14 main_v15 (broadcastInDim S4096x18x18x128 ![0, 1, 2, 3] bcast_S1x1x1x128_S4096x18x18x128_0_1_2_3 : (⟨S1x1x1x128, .f32⟩ : BufTy).Contents (Elt F) → (⟨S4096x18x18x128, .f32⟩ : BufTy).Contents (Elt F)),
    binary main_v9 main_v15 main_v16 (mulf : (⟨S4096x18x18x128, .f32⟩ : BufTy).Contents (Elt F) → (⟨S4096x18x18x128, .f32⟩ : BufTy).Contents (Elt F) → (⟨S4096x18x18x128, .f32⟩ : BufTy).Contents (Elt F)),
    unary main_arg4 main_v17 (broadcastInDim S1x1x1x128 ![3] bcast_S128_S1x1x1x128_3 : (⟨S128, .f32⟩ : BufTy).Contents (Elt F) → (⟨S1x1x1x128, .f32⟩ : BufTy).Contents (Elt F)),
    unary main_v17 main_v18 (broadcastInDim S4096x18x18x128 ![0, 1, 2, 3] bcast_S1x1x1x128_S4096x18x18x128_0_1_2_3 : (⟨S1x1x1x128, .f32⟩ : BufTy).Contents (Elt F) → (⟨S4096x18x18x128, .f32⟩ : BufTy).Contents (Elt F)),
    binary main_v16 main_v18 main_v19 (addf : (⟨S4096x18x18x128, .f32⟩ : BufTy).Contents (Elt F) → (⟨S4096x18x18x128, .f32⟩ : BufTy).Contents (Elt F) → (⟨S4096x18x18x128, .f32⟩ : BufTy).Contents (Elt F)),
    nullary main_cst_2 (constant S_ .f32 0x00000000#32),
    unary main_cst_2 main_v20 (broadcastInDim S4096x18x18x128 ![] bcast_S_S4096x18x18x128 : (⟨S_, .f32⟩ : BufTy).Contents (Elt F) → (⟨S4096x18x18x128, .f32⟩ : BufTy).Contents (Elt F)),
    binary main_v19 main_v20 main_v21 (cmpf .oge : (⟨S4096x18x18x128, .f32⟩ : BufTy).Contents (Elt F) → (⟨S4096x18x18x128, .f32⟩ : BufTy).Contents (Elt F) → (⟨S4096x18x18x128, .i1⟩ : BufTy).Contents (Elt F)),
    nullary main_cst_3 (constant S_ .f32 0x3C23D70A#32),
    unary main_cst_3 main_v22 (broadcastInDim S4096x18x18x128 ![] bcast_S_S4096x18x18x128 : (⟨S_, .f32⟩ : BufTy).Contents (Elt F) → (⟨S4096x18x18x128, .f32⟩ : BufTy).Contents (Elt F)),
    binary main_v22 main_v19 main_v23 (mulf : (⟨S4096x18x18x128, .f32⟩ : BufTy).Contents (Elt F) → (⟨S4096x18x18x128, .f32⟩ : BufTy).Contents (Elt F) → (⟨S4096x18x18x128, .f32⟩ : BufTy).Contents (Elt F)),
    TRef.ternary (.of main_v21) (.of main_v19) (.of main_v23) main_call0.v0 select,
    binary main_v24 main_arg7 main_v25 ((fun l r => Host.dotGeneral dot_S4096x18x18x128_S64x128_S4096x18x18x64_3_1_012_0_n_n none l r) : (⟨S4096x18x18x128, .f32⟩ : BufTy).Contents (Elt F) → (⟨S64x128, .f32⟩ : BufTy).Contents (Elt F) → (⟨S4096x18x18x64, .f32⟩ : BufTy).Contents (Elt F)),
    unary main_arg10 main_v26 (broadcastInDim S1x1x1x64 ![3] bcast_S64_S1x1x1x64_3 : (⟨S64, .f32⟩ : BufTy).Contents (Elt F) → (⟨S1x1x1x64, .f32⟩ : BufTy).Contents (Elt F)),
    unary main_v26 main_v27 (broadcastInDim S4096x18x18x64 ![0, 1, 2, 3] bcast_S1x1x1x64_S4096x18x18x64_0_1_2_3 : (⟨S1x1x1x64, .f32⟩ : BufTy).Contents (Elt F) → (⟨S4096x18x18x64, .f32⟩ : BufTy).Contents (Elt F)),
    binary main_v25 main_v27 main_v28 (subf : (⟨S4096x18x18x64, .f32⟩ : BufTy).Contents (Elt F) → (⟨S4096x18x18x64, .f32⟩ : BufTy).Contents (Elt F) → (⟨S4096x18x18x64, .f32⟩ : BufTy).Contents (Elt F)),
    nullary main_cst_4 (constant S_ .f32 0x3727C5AC#32),
    unary main_cst_4 main_v29 (broadcastInDim S64 ![] bcast_S_S64 : (⟨S_, .f32⟩ : BufTy).Contents (Elt F) → (⟨S64, .f32⟩ : BufTy).Contents (Elt F)),
    binary main_arg11 main_v29 main_v30 (addf : (⟨S64, .f32⟩ : BufTy).Contents (Elt F) → (⟨S64, .f32⟩ : BufTy).Contents (Elt F) → (⟨S64, .f32⟩ : BufTy).Contents (Elt F)),
    unary main_v30 main_v31 (Host.sqrt : (⟨S64, .f32⟩ : BufTy).Contents (Elt F) → (⟨S64, .f32⟩ : BufTy).Contents (Elt F)),
    binary main_arg8 main_v31 main_v32 (Host.divf : (⟨S64, .f32⟩ : BufTy).Contents (Elt F) → (⟨S64, .f32⟩ : BufTy).Contents (Elt F) → (⟨S64, .f32⟩ : BufTy).Contents (Elt F)),
    unary main_v32 main_v33 (broadcastInDim S1x1x1x64 ![3] bcast_S64_S1x1x1x64_3 : (⟨S64, .f32⟩ : BufTy).Contents (Elt F) → (⟨S1x1x1x64, .f32⟩ : BufTy).Contents (Elt F)),
    unary main_v33 main_v34 (broadcastInDim S4096x18x18x64 ![0, 1, 2, 3] bcast_S1x1x1x64_S4096x18x18x64_0_1_2_3 : (⟨S1x1x1x64, .f32⟩ : BufTy).Contents (Elt F) → (⟨S4096x18x18x64, .f32⟩ : BufTy).Contents (Elt F)),
    binary main_v28 main_v34 main_v35 (mulf : (⟨S4096x18x18x64, .f32⟩ : BufTy).Contents (Elt F) → (⟨S4096x18x18x64, .f32⟩ : BufTy).Contents (Elt F) → (⟨S4096x18x18x64, .f32⟩ : BufTy).Contents (Elt F)),
    unary main_arg9 main_v36 (broadcastInDim S1x1x1x64 ![3] bcast_S64_S1x1x1x64_3 : (⟨S64, .f32⟩ : BufTy).Contents (Elt F) → (⟨S1x1x1x64, .f32⟩ : BufTy).Contents (Elt F)),
    unary main_v36 main_v37 (broadcastInDim S4096x18x18x64 ![0, 1, 2, 3] bcast_S1x1x1x64_S4096x18x18x64_0_1_2_3 : (⟨S1x1x1x64, .f32⟩ : BufTy).Contents (Elt F) → (⟨S4096x18x18x64, .f32⟩ : BufTy).Contents (Elt F)),
    binary main_v35 main_v37 main_v38 (addf : (⟨S4096x18x18x64, .f32⟩ : BufTy).Contents (Elt F) → (⟨S4096x18x18x64, .f32⟩ : BufTy).Contents (Elt F) → (⟨S4096x18x18x64, .f32⟩ : BufTy).Contents (Elt F)),
    nullary main_cst_5 (constant S_ .f32 0x00000000#32),
    unary main_cst_5 main_v39 (broadcastInDim S4096x18x18x64 ![] bcast_S_S4096x18x18x64 : (⟨S_, .f32⟩ : BufTy).Contents (Elt F) → (⟨S4096x18x18x64, .f32⟩ : BufTy).Contents (Elt F)),
    binary main_v38 main_v39 main_v40 (cmpf .oge : (⟨S4096x18x18x64, .f32⟩ : BufTy).Contents (Elt F) → (⟨S4096x18x18x64, .f32⟩ : BufTy).Contents (Elt F) → (⟨S4096x18x18x64, .i1⟩ : BufTy).Contents (Elt F)),
    nullary main_cst_6 (constant S_ .f32 0x3C23D70A#32),
    unary main_cst_6 main_v41 (broadcastInDim S4096x18x18x64 ![] bcast_S_S4096x18x18x64 : (⟨S_, .f32⟩ : BufTy).Contents (Elt F) → (⟨S4096x18x18x64, .f32⟩ : BufTy).Contents (Elt F)),
    binary main_v41 main_v38 main_v42 (mulf : (⟨S4096x18x18x64, .f32⟩ : BufTy).Contents (Elt F) → (⟨S4096x18x18x64, .f32⟩ : BufTy).Contents (Elt F) → (⟨S4096x18x18x64, .f32⟩ : BufTy).Contents (Elt F)),
    TRef.ternary (.of main_v40) (.of main_v38) (.of main_v42) main_call1.v0 select,
    binary main_v43 main_arg12 main_v44 ((fun l r => Host.dotGeneral dot_S4096x18x18x64_S1x64_S4096x18x18x1_3_1_012_0_n_n none l r) : (⟨S4096x18x18x64, .f32⟩ : BufTy).Contents (Elt F) → (⟨S1x64, .f32⟩ : BufTy).Contents (Elt F) → (⟨S4096x18x18x1, .f32⟩ : BufTy).Contents (Elt F)),
    reshape main_v44 main_v45 rfl shapeCasts_S4096x18x18x1_S4096x18x18,
    reshape main_arg13 main_v46 rfl shapeCasts_S1_S_,
    unary main_v46 main_v47 (broadcastInDim S4096x18x18 ![] bcast_S_S4096x18x18 : (⟨S_, .f32⟩ : BufTy).Contents (Elt F) → (⟨S4096x18x18, .f32⟩ : BufTy).Contents (Elt F)),
    binary main_v45 main_v47 main_v48 (addf : (⟨S4096x18x18, .f32⟩ : BufTy).Contents (Elt F) → (⟨S4096x18x18, .f32⟩ : BufTy).Contents (Elt F) → (⟨S4096x18x18, .f32⟩ : BufTy).Contents (Elt F)),
    unary main_cst main_v49 (broadcastInDim S1x18x18 ![1, 2] bcast_S18x18_S1x18x18_1_2 : (⟨S18x18, .f32⟩ : BufTy).Contents (Elt F) → (⟨S1x18x18, .f32⟩ : BufTy).Contents (Elt F)),
    unary main_v49 main_v50 (broadcastInDim S4096x18x18 ![0, 1, 2] bcast_S1x18x18_S4096x18x18_0_1_2 : (⟨S1x18x18, .f32⟩ : BufTy).Contents (Elt F) → (⟨S4096x18x18, .f32⟩ : BufTy).Contents (Elt F)),
    binary main_v48 main_v50 main_v51 (mulf : (⟨S4096x18x18, .f32⟩ : BufTy).Contents (Elt F) → (⟨S4096x18x18, .f32⟩ : BufTy).Contents (Elt F) → (⟨S4096x18x18, .f32⟩ : BufTy).Contents (Elt F)),
    unary main_cst_0 main_v52 (broadcastInDim S1x18x18 ![1, 2] bcast_S18x18_S1x18x18_1_2 : (⟨S18x18, .f32⟩ : BufTy).Contents (Elt F) → (⟨S1x18x18, .f32⟩ : BufTy).Contents (Elt F)),
    unary main_v52 main_v53 (broadcastInDim S4096x18x18 ![0, 1, 2] bcast_S1x18x18_S4096x18x18_0_1_2 : (⟨S1x18x18, .f32⟩ : BufTy).Contents (Elt F) → (⟨S4096x18x18, .f32⟩ : BufTy).Contents (Elt F)),
    binary main_v51 main_v53 main_v54 (addf : (⟨S4096x18x18, .f32⟩ : BufTy).Contents (Elt F) → (⟨S4096x18x18, .f32⟩ : BufTy).Contents (Elt F) → (⟨S4096x18x18, .f32⟩ : BufTy).Contents (Elt F)),
    nullary main_cst_7 (constant S_ .f32 0xFF800000#32),
    binary main_v54 main_cst_7 main_v55 ((fun x v => Host.reduce FloatOps.maximumf x v reducesTo_S4096x18x18_S4096x18_d2 h_S_) : (⟨S4096x18x18, .f32⟩ : BufTy).Contents (Elt F) → (⟨S_, .f32⟩ : BufTy).Contents (Elt F) → (⟨S4096x18, .f32⟩ : BufTy).Contents (Elt F)),
    nullary main_cst_8 (constant S_ .f32 0xFF800000#32),
    unary main_cst_8 main_v56 (broadcastInDim S4096x18 ![] bcast_S_S4096x18 : (⟨S_, .f32⟩ : BufTy).Contents (Elt F) → (⟨S4096x18, .f32⟩ : BufTy).Contents (Elt F)),
    binary main_v56 main_v55 main_v57 (maximumf : (⟨S4096x18, .f32⟩ : BufTy).Contents (Elt F) → (⟨S4096x18, .f32⟩ : BufTy).Contents (Elt F) → (⟨S4096x18, .f32⟩ : BufTy).Contents (Elt F)),
    unary main_v57 main_v58 (broadcastInDim S4096x18x1 ![0, 1] bcast_S4096x18_S4096x18x1_0_1 : (⟨S4096x18, .f32⟩ : BufTy).Contents (Elt F) → (⟨S4096x18x1, .f32⟩ : BufTy).Contents (Elt F)),
    unary main_v58 main_v59 (broadcastInDim S4096x18x18 ![0, 1, 2] bcast_S4096x18x1_S4096x18x18_0_1_2 : (⟨S4096x18x1, .f32⟩ : BufTy).Contents (Elt F) → (⟨S4096x18x18, .f32⟩ : BufTy).Contents (Elt F)),
    binary main_v54 main_v59 main_v60 (subf : (⟨S4096x18x18, .f32⟩ : BufTy).Contents (Elt F) → (⟨S4096x18x18, .f32⟩ : BufTy).Contents (Elt F) → (⟨S4096x18x18, .f32⟩ : BufTy).Contents (Elt F)),
    unary main_v60 main_v61 (Host.exp : (⟨S4096x18x18, .f32⟩ : BufTy).Contents (Elt F) → (⟨S4096x18x18, .f32⟩ : BufTy).Contents (Elt F)),
    nullary main_cst_9 (constant S_ .f32 0x00000000#32),
    binary main_v61 main_cst_9 main_v62 ((fun x v => Host.reduceAdd x v reducesTo_S4096x18x18_S4096x18_d2 h_S_) : (⟨S4096x18x18, .f32⟩ : BufTy).Contents (Elt F) → (⟨S_, .f32⟩ : BufTy).Contents (Elt F) → (⟨S4096x18, .f32⟩ : BufTy).Contents (Elt F)),
    unary main_v62 main_v63 (broadcastInDim S4096x18x1 ![0, 1] bcast_S4096x18_S4096x18x1_0_1 : (⟨S4096x18, .f32⟩ : BufTy).Contents (Elt F) → (⟨S4096x18x1, .f32⟩ : BufTy).Contents (Elt F)),
    unary main_v63 main_v64 (broadcastInDim S4096x18x18 ![0, 1, 2] bcast_S4096x18x1_S4096x18x18_0_1_2 : (⟨S4096x18x1, .f32⟩ : BufTy).Contents (Elt F) → (⟨S4096x18x18, .f32⟩ : BufTy).Contents (Elt F)),
    binary main_v61 main_v64 main_v65 (Host.divf : (⟨S4096x18x18, .f32⟩ : BufTy).Contents (Elt F) → (⟨S4096x18x18, .f32⟩ : BufTy).Contents (Elt F) → (⟨S4096x18x18, .f32⟩ : BufTy).Contents (Elt F)),
    unary main_arg1 main_v66 (broadcastInDim S4096x18x18x1 ![0, 1, 2] bcast_S4096x18x18_S4096x18x18x1_0_1_2 : (⟨S4096x18x18, .f32⟩ : BufTy).Contents (Elt F) → (⟨S4096x18x18x1, .f32⟩ : BufTy).Contents (Elt F)),
    unary main_v65 main_v67 (broadcastInDim S4096x18x18x1 ![0, 1, 2] bcast_S4096x18x18_S4096x18x18x1_0_1_2 : (⟨S4096x18x18, .f32⟩ : BufTy).Contents (Elt F) → (⟨S4096x18x18x1, .f32⟩ : BufTy).Contents (Elt F)),
    binary main_v66 main_v67 main_v68 ((fun a b => concatenate S4096x18x18x2 3 [⟨S4096x18x18x1, a⟩, ⟨S4096x18x18x1, b⟩] concatenates_S4096x18x18x1_S4096x18x18x1_S4096x18x18x2_d3) : (⟨S4096x18x18x1, .f32⟩ : BufTy).Contents (Elt F) → (⟨S4096x18x18x1, .f32⟩ : BufTy).Contents (Elt F) → (⟨S4096x18x18x2, .f32⟩ : BufTy).Contents (Elt F)) ]

-- eighty binds re-associated: the rewrite under the chain recurses once per statement
set_option maxRecDepth 4096 in
set_option maxHeartbeats 4000000 in
/-- The host function is that straight line: its two windows and the outlined functions' bodies unfolded, both
    sides are one chain of steps once sequencing is reassociated. -/
theorem main_eq (c : Dev nD) : main (F := F) c = seq ops := by
  simp only [main, main_part0, main_part1, fn_where.body, fn_where_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., unary_bufs_sub .., unary_bufs_sub .., unary_bufs_sub .., unary_bufs_sub ..,
    binary_bufs_sub .., binary_bufs_sub .., binary_bufs_sub .., unary_bufs_sub .., unary_bufs_sub .., binary_bufs_sub ..,
    nullary_bufs_sub .., unary_bufs_sub .., binary_bufs_sub .., unary_bufs_sub .., binary_bufs_sub .., unary_bufs_sub ..,
    unary_bufs_sub .., binary_bufs_sub .., unary_bufs_sub .., unary_bufs_sub .., binary_bufs_sub .., nullary_bufs_sub ..,
    unary_bufs_sub .., binary_bufs_sub .., nullary_bufs_sub .., unary_bufs_sub .., binary_bufs_sub .., ternary_bufs_sub ..,
    binary_bufs_sub .., unary_bufs_sub .., unary_bufs_sub .., binary_bufs_sub .., nullary_bufs_sub .., unary_bufs_sub ..,
    binary_bufs_sub .., unary_bufs_sub .., binary_bufs_sub .., unary_bufs_sub .., unary_bufs_sub .., binary_bufs_sub ..,
    unary_bufs_sub .., unary_bufs_sub .., binary_bufs_sub .., nullary_bufs_sub .., unary_bufs_sub .., binary_bufs_sub ..,
    nullary_bufs_sub .., unary_bufs_sub .., binary_bufs_sub .., ternary_bufs_sub .., binary_bufs_sub .., reshape_bufs_sub ..,
    reshape_bufs_sub .., unary_bufs_sub .., binary_bufs_sub .., unary_bufs_sub .., unary_bufs_sub .., binary_bufs_sub ..,
    unary_bufs_sub .., unary_bufs_sub .., binary_bufs_sub .., nullary_bufs_sub .., binary_bufs_sub .., nullary_bufs_sub ..,
    unary_bufs_sub .., binary_bufs_sub .., unary_bufs_sub .., unary_bufs_sub .., binary_bufs_sub .., unary_bufs_sub ..,
    nullary_bufs_sub .., binary_bufs_sub .., unary_bufs_sub .., unary_bufs_sub .., binary_bufs_sub .., unary_bufs_sub ..,
    unary_bufs_sub .., binary_bufs_sub ..⟩

/-- At the compiled mesh, for any float values, from any memory with zero counters: every weakly fair execution of
    the host function terminates, and every final state has each buffer at the operations' fold over the launch
    contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.HandRun

end
-- ==== Proof.RefStages.lean ====
import proofs.«134835_j64166811403051_1_alg».proof.Proof.RefRun
import Idealize.ShloMosaic.PureOps.Ideal

/-!
The reference program's result as a named pure function of its fourteen argument arrays, at the ideal instance:
one definition per value of the host function that is not a constant or the broadcast of one, each a short
composition of the earlier ones, and the run restated over them.

The program: pairwise squared differences of the rows of `a0` (per batch, 18 × 18 pairs of 64-vectors); a linear
map to 128 channels, an affine normalisation per channel and a leaky rectifier; a linear map to 64 channels, the same
normalisation and rectifier; a linear map to one channel plus a bias; the 18 × 18 table masked (multiplied by a
0/1 table, the identity table added); a softmax along the last axis; the result stacked after `a1` along a new
last axis of length two.
-/

noncomputable section

namespace Cert.ReferenceIdeal.Stages

open Cert.ReferenceIdeal Cert.ReferenceIdeal.Gen Idealize.ShloMosaic Idealize.ShloMosaic.TcCoe Idealize.SL.Sem Idealize.ShloMosaic.StableHlo

example : ((⟨S128, .f32⟩ : BufTy).Contents (Elt Ideal)) = FVec Ideal S128 .f32 := rfl

/-- The constant 0/1 table the scores are multiplied by (the first literal table, row-major). -/
def mask : FVec Ideal S18x18 .f32 := fun i => FloatOps.ofBits .f32 (lit0 (S18x18.rowMajor i))

/-- The constant table added to the masked scores (the second literal table, row-major): the identity matrix. -/
def eye : FVec Ideal S18x18 .f32 := fun i => FloatOps.ofBits .f32 (lit1 (S18x18.rowMajor i))

/-- %4: the pairwise difference `a0[b, i, c] - a0[b, j, c]`. -/
def v4 (a0 : FVec Ideal S4096x18x64 .f32) : FVec Ideal S4096x18x18x64 .f32 :=
  subf
    (broadcastInDim S4096x18x18x64 ![0, 1, 2, 3] bcast_S4096x18x1x64_S4096x18x18x64_0_1_2_3
      (broadcastInDim S4096x18x1x64 ![0, 1, 3] bcast_S4096x18x64_S4096x18x1x64_0_1_3 a0))
    (broadcastInDim S4096x18x18x64 ![0, 1, 2, 3] bcast_S4096x1x18x64_S4096x18x18x64_0_1_2_3
      (broadcastInDim S4096x1x18x64 ![0, 2, 3] bcast_S4096x18x64_S4096x1x18x64_0_2_3 a0))

/-- %5: the squared pairwise difference. -/
def v5 (a0 : FVec Ideal S4096x18x64 .f32) : FVec Ideal S4096x18x18x64 .f32 :=
  mulf (v4 a0) (v4 a0)

/-- %6: the first linear map, contracting the 64 channels against `a2`'s second axis. -/
def v6 (a0 : FVec Ideal S4096x18x64 .f32) (a2 : FVec Ideal S128x64 .f32) : FVec Ideal S4096x18x18x128 .f32 :=
  Host.dotGeneral dot_S4096x18x18x64_S128x64_S4096x18x18x128_3_1_012_0_n_n none (v5 a0) a2

/-- %13: the first normalisation's scale, `a3 / sqrt (a6 + ε)`. -/
def v13 (a3 : FVec Ideal S128 .f32) (a6 : FVec Ideal S128 .f32) : FVec Ideal S128 .f32 :=
  Host.divf a3 (Host.sqrt (addf a6 (broadcastInDim S128 ![] bcast_S_S128 (constant S_ .f32 0x3727C5AC#32))))

/-- %19: the first normalisation, `(%6 - a5) * %13 + a4` per channel. -/
def v19 (a0 : FVec Ideal S4096x18x64 .f32) (a2 : FVec Ideal S128x64 .f32) (a3 : FVec Ideal S128 .f32) (a4 : FVec Ideal S128 .f32) (a5 : FVec Ideal S128 .f32) (a6 : FVec Ideal S128 .f32) : FVec Ideal S4096x18x18x128 .f32 :=
  addf
    (mulf
      (subf (v6 a0 a2)
        (broadcastInDim S4096x18x18x128 ![0, 1, 2, 3] bcast_S1x1x1x128_S4096x18x18x128_0_1_2_3
          (broadcastInDim S1x1x1x128 ![3] bcast_S128_S1x1x1x128_3 a5)))
      (broadcastInDim S4096x18x18x128 ![0, 1, 2, 3] bcast_S1x1x1x128_S4096x18x18x128_0_1_2_3
        (broadcastInDim S1x1x1x128 ![3] bcast_S128_S1x1x1x128_3 (v13 a3 a6))))
    (broadcastInDim S4096x18x18x128 ![0, 1, 2, 3] bcast_S1x1x1x128_S4096x18x18x128_0_1_2_3
      (broadcastInDim S1x1x1x128 ![3] bcast_S128_S1x1x1x128_3 a4))

/-- %24: the first leaky rectifier, `%19` where `%19 ≥ 0`, else `0.01 * %19`. -/
def v24 (a0 : FVec Ideal S4096x18x64 .f32) (a2 : FVec Ideal S128x64 .f32) (a3 : FVec Ideal S128 .f32) (a4 : FVec Ideal S128 .f32) (a5 : FVec Ideal S128 .f32) (a6 : FVec Ideal S128 .f32) : FVec Ideal S4096x18x18x128 .f32 :=
  select
    (cmpf .oge (v19 a0 a2 a3 a4 a5 a6)
      (broadcastInDim S4096x18x18x128 ![] bcast_S_S4096x18x18x128 (constant S_ .f32 0x00000000#32)))
    (v19 a0 a2 a3 a4 a5 a6)
    (mulf (broadcastInDim S4096x18x18x128 ![] bcast_S_S4096x18x18x128 (constant S_ .f32 0x3C23D70A#32))
      (v19 a0 a2 a3 a4 a5 a6))

/-- %25: the second linear map, contracting the 128 channels against `a7`'s second axis. -/
def v25 (a0 : FVec Ideal S4096x18x64 .f32) (a2 : FVec Ideal S128x64 .f32) (a3 : FVec Ideal S128 .f32) (a4 : FVec Ideal S128 .f32) (a5 : FVec Ideal S128 .f32) (a6 : FVec Ideal S128 .f32) (a7 : FVec Ideal S64x128 .f32) : FVec Ideal S4096x18x18x64 .f32 :=
  Host.dotGeneral dot_S4096x18x18x128_S64x128_S4096x18x18x64_3_1_012_0_n_n none (v24 a0 a2 a3 a4 a5 a6) a7

/-- %32: the second normalisation's scale, `a8 / sqrt (a11 + ε)`. -/
def v32 (a8 : FVec Ideal S64 .f32) (a11 : FVec Ideal S64 .f32) : FVec Ideal S64 .f32 :=
  Host.divf a8 (Host.sqrt (addf a11 (broadcastInDim S64 ![] bcast_S_S64 (constant S_ .f32 0x3727C5AC#32))))

/-- %38: the second normalisation, `(%25 - a10) * %32 + a9` per channel. -/
def v38 (a0 : FVec Ideal S4096x18x64 .f32) (a2 : FVec Ideal S128x64 .f32) (a3 : FVec Ideal S128 .f32) (a4 : FVec Ideal S128 .f32) (a5 : FVec Ideal S128 .f32) (a6 : FVec Ideal S128 .f32) (a7 : FVec Ideal S64x128 .f32) (a8 : FVec Ideal S64 .f32) (a9 : FVec Ideal S64 .f32) (a10 : FVec Ideal S64 .f32) (a11 : FVec Ideal S64 .f32) : FVec Ideal S4096x18x18x64 .f32 :=
  addf
    (mulf
      (subf (v25 a0 a2 a3 a4 a5 a6 a7)
        (broadcastInDim S4096x18x18x64 ![0, 1, 2, 3] bcast_S1x1x1x64_S4096x18x18x64_0_1_2_3
          (broadcastInDim S1x1x1x64 ![3] bcast_S64_S1x1x1x64_3 a10)))
      (broadcastInDim S4096x18x18x64 ![0, 1, 2, 3] bcast_S1x1x1x64_S4096x18x18x64_0_1_2_3
        (broadcastInDim S1x1x1x64 ![3] bcast_S64_S1x1x1x64_3 (v32 a8 a11))))
    (broadcastInDim S4096x18x18x64 ![0, 1, 2, 3] bcast_S1x1x1x64_S4096x18x18x64_0_1_2_3
      (broadcastInDim S1x1x1x64 ![3] bcast_S64_S1x1x1x64_3 a9))

/-- %43: the second leaky rectifier. -/
def v43 (a0 : FVec Ideal S4096x18x64 .f32) (a2 : FVec Ideal S128x64 .f32) (a3 : FVec Ideal S128 .f32) (a4 : FVec Ideal S128 .f32) (a5 : FVec Ideal S128 .f32) (a6 : FVec Ideal S128 .f32) (a7 : FVec Ideal S64x128 .f32) (a8 : FVec Ideal S64 .f32) (a9 : FVec Ideal S64 .f32) (a10 : FVec Ideal S64 .f32) (a11 : FVec Ideal S64 .f32) : FVec Ideal S4096x18x18x64 .f32 :=
  select
    (cmpf .oge (v38 a0 a2 a3 a4 a5 a6 a7 a8 a9 a10 a11)
      (broadcastInDim S4096x18x18x64 ![] bcast_S_S4096x18x18x64 (constant S_ .f32 0x00000000#32)))
    (v38 a0 a2 a3 a4 a5 a6 a7 a8 a9 a10 a11)
    (mulf (broadcastInDim S4096x18x18x64 ![] bcast_S_S4096x18x18x64 (constant S_ .f32 0x3C23D70A#32))
      (v38 a0 a2 a3 a4 a5 a6 a7 a8 a9 a10 a11))

/-- %44: the third linear map, contracting the 64 channels against `a12`'s second axis, to one channel. -/
def v44 (a0 : FVec Ideal S4096x18x64 .f32) (a2 : FVec Ideal S128x64 .f32) (a3 : FVec Ideal S128 .f32) (a4 : FVec Ideal S128 .f32) (a5 : FVec Ideal S128 .f32) (a6 : FVec Ideal S128 .f32) (a7 : FVec Ideal S64x128 .f32) (a8 : FVec Ideal S64 .f32) (a9 : FVec Ideal S64 .f32) (a10 : FVec Ideal S64 .f32) (a11 : FVec Ideal S64 .f32) (a12 : FVec Ideal S1x64 .f32) : FVec Ideal S4096x18x18x1 .f32 :=
  Host.dotGeneral dot_S4096x18x18x64_S1x64_S4096x18x18x1_3_1_012_0_n_n none (v43 a0 a2 a3 a4 a5 a6 a7 a8 a9 a10 a11) a12

/-- %48: the score, the one channel dropped and the bias `a13` added. -/
def v48 (a0 : FVec Ideal S4096x18x64 .f32) (a2 : FVec Ideal S128x64 .f32) (a3 : FVec Ideal S128 .f32) (a4 : FVec Ideal S128 .f32) (a5 : FVec Ideal S128 .f32) (a6 : FVec Ideal S128 .f32) (a7 : FVec Ideal S64x128 .f32) (a8 : FVec Ideal S64 .f32) (a9 : FVec Ideal S64 .f32) (a10 : FVec Ideal S64 .f32) (a11 : FVec Ideal S64 .f32) (a12 : FVec Ideal S1x64 .f32) (a13 : FVec Ideal S1 .f32) : FVec Ideal S4096x18x18 .f32 :=
  addf (shapeCast S4096x18x18 (v44 a0 a2 a3 a4 a5 a6 a7 a8 a9 a10 a11 a12) shapeCasts_S4096x18x18x1_S4096x18x18)
    (broadcastInDim S4096x18x18 ![] bcast_S_S4096x18x18 (shapeCast S_ a13 shapeCasts_S1_S_))

/-- %54: the masked score, `%48 * mask + eye` (the tables broadcast over the batch). -/
def v54 (a0 : FVec Ideal S4096x18x64 .f32) (a2 : FVec Ideal S128x64 .f32) (a3 : FVec Ideal S128 .f32) (a4 : FVec Ideal S128 .f32) (a5 : FVec Ideal S128 .f32) (a6 : FVec Ideal S128 .f32) (a7 : FVec Ideal S64x128 .f32) (a8 : FVec Ideal S64 .f32) (a9 : FVec Ideal S64 .f32) (a10 : FVec Ideal S64 .f32) (a11 : FVec Ideal S64 .f32) (a12 : FVec Ideal S1x64 .f32) (a13 : FVec Ideal S1 .f32) : FVec Ideal S4096x18x18 .f32 :=
  addf
    (mulf (v48 a0 a2 a3 a4 a5 a6 a7 a8 a9 a10 a11 a12 a13)
      (broadcastInDim S4096x18x18 ![0, 1, 2] bcast_S1x18x18_S4096x18x18_0_1_2
        (broadcastInDim S1x18x18 ![1, 2] bcast_S18x18_S1x18x18_1_2 mask)))
    (broadcastInDim S4096x18x18 ![0, 1, 2] bcast_S1x18x18_S4096x18x18_0_1_2
      (broadcastInDim S1x18x18 ![1, 2] bcast_S18x18_S1x18x18_1_2 eye))

/-- %57: the row maximum of the masked score (the maximum along the last axis, from -∞, and -∞ once more). -/
def v57 (a0 : FVec Ideal S4096x18x64 .f32) (a2 : FVec Ideal S128x64 .f32) (a3 : FVec Ideal S128 .f32) (a4 : FVec Ideal S128 .f32) (a5 : FVec Ideal S128 .f32) (a6 : FVec Ideal S128 .f32) (a7 : FVec Ideal S64x128 .f32) (a8 : FVec Ideal S64 .f32) (a9 : FVec Ideal S64 .f32) (a10 : FVec Ideal S64 .f32) (a11 : FVec Ideal S64 .f32) (a12 : FVec Ideal S1x64 .f32) (a13 : FVec Ideal S1 .f32) : FVec Ideal S4096x18 .f32 :=
  maximumf (broadcastInDim S4096x18 ![] bcast_S_S4096x18 (constant S_ .f32 0xFF800000#32))
    (Host.reduce FloatOps.maximumf (v54 a0 a2 a3 a4 a5 a6 a7 a8 a9 a10 a11 a12 a13) (constant S_ .f32 0xFF800000#32)
      reducesTo_S4096x18x18_S4096x18_d2 h_S_)

/-- %61: the exponential of the masked score less its row maximum. -/
def v61 (a0 : FVec Ideal S4096x18x64 .f32) (a2 : FVec Ideal S128x64 .f32) (a3 : FVec Ideal S128 .f32) (a4 : FVec Ideal S128 .f32) (a5 : FVec Ideal S128 .f32) (a6 : FVec Ideal S128 .f32) (a7 : FVec Ideal S64x128 .f32) (a8 : FVec Ideal S64 .f32) (a9 : FVec Ideal S64 .f32) (a10 : FVec Ideal S64 .f32) (a11 : FVec Ideal S64 .f32) (a12 : FVec Ideal S1x64 .f32) (a13 : FVec Ideal S1 .f32) : FVec Ideal S4096x18x18 .f32 :=
  Host.exp
    (subf (v54 a0 a2 a3 a4 a5 a6 a7 a8 a9 a10 a11 a12 a13)
      (broadcastInDim S4096x18x18 ![0, 1, 2] bcast_S4096x18x1_S4096x18x18_0_1_2
        (broadcastInDim S4096x18x1 ![0, 1] bcast_S4096x18_S4096x18x1_0_1 (v57 a0 a2 a3 a4 a5 a6 a7 a8 a9 a10 a11 a12 a13))))

/-- %62: the row sum of the exponentials. -/
def v62 (a0 : FVec Ideal S4096x18x64 .f32) (a2 : FVec Ideal S128x64 .f32) (a3 : FVec Ideal S128 .f32) (a4 : FVec Ideal S128 .f32) (a5 : FVec Ideal S128 .f32) (a6 : FVec Ideal S128 .f32) (a7 : FVec Ideal S64x128 .f32) (a8 : FVec Ideal S64 .f32) (a9 : FVec Ideal S64 .f32) (a10 : FVec Ideal S64 .f32) (a11 : FVec Ideal S64 .f32) (a12 : FVec Ideal S1x64 .f32) (a13 : FVec Ideal S1 .f32) : FVec Ideal S4096x18 .f32 :=
  Host.reduceAdd (v61 a0 a2 a3 a4 a5 a6 a7 a8 a9 a10 a11 a12 a13) (constant S_ .f32 0x00000000#32) reducesTo_S4096x18x18_S4096x18_d2 h_S_

/-- %65: the softmax, each exponential over its row's sum. -/
def v65 (a0 : FVec Ideal S4096x18x64 .f32) (a2 : FVec Ideal S128x64 .f32) (a3 : FVec Ideal S128 .f32) (a4 : FVec Ideal S128 .f32) (a5 : FVec Ideal S128 .f32) (a6 : FVec Ideal S128 .f32) (a7 : FVec Ideal S64x128 .f32) (a8 : FVec Ideal S64 .f32) (a9 : FVec Ideal S64 .f32) (a10 : FVec Ideal S64 .f32) (a11 : FVec Ideal S64 .f32) (a12 : FVec Ideal S1x64 .f32) (a13 : FVec Ideal S1 .f32) : FVec Ideal S4096x18x18 .f32 :=
  Host.divf (v61 a0 a2 a3 a4 a5 a6 a7 a8 a9 a10 a11 a12 a13)
    (broadcastInDim S4096x18x18 ![0, 1, 2] bcast_S4096x18x1_S4096x18x18_0_1_2
      (broadcastInDim S4096x18x1 ![0, 1] bcast_S4096x18_S4096x18x1_0_1 (v62 a0 a2 a3 a4 a5 a6 a7 a8 a9 a10 a11 a12 a13)))

/-- %68: `a1` and the softmax, stacked along a new last axis. -/
def out (a0 : FVec Ideal S4096x18x64 .f32) (a1 : FVec Ideal S4096x18x18 .f32) (a2 : FVec Ideal S128x64 .f32) (a3 : FVec Ideal S128 .f32) (a4 : FVec Ideal S128 .f32) (a5 : FVec Ideal S128 .f32) (a6 : FVec Ideal S128 .f32) (a7 : FVec Ideal S64x128 .f32) (a8 : FVec Ideal S64 .f32) (a9 : FVec Ideal S64 .f32) (a10 : FVec Ideal S64 .f32) (a11 : FVec Ideal S64 .f32) (a12 : FVec Ideal S1x64 .f32) (a13 : FVec Ideal S1 .f32) : FVec Ideal S4096x18x18x2 .f32 :=
  concatenate S4096x18x18x2 3
    [⟨S4096x18x18x1, broadcastInDim S4096x18x18x1 ![0, 1, 2] bcast_S4096x18x18_S4096x18x18x1_0_1_2 a1⟩,
     ⟨S4096x18x18x1, broadcastInDim S4096x18x18x1 ![0, 1, 2] bcast_S4096x18x18_S4096x18x18x1_0_1_2 (v65 a0 a2 a3 a4 a5 a6 a7 a8 a9 a10 a11 a12 a13)⟩]
    concatenates_S4096x18x18x1_S4096x18x18x1_S4096x18x18x2_d3

/-- The last operation's concatenation of two one-channel pieces, as a function of the two pieces. -/
def concat2 (x y : FVec Ideal S4096x18x18x1 .f32) : FVec Ideal S4096x18x18x2 .f32 :=
  concatenate S4096x18x18x2 3 [⟨S4096x18x18x1, x⟩, ⟨S4096x18x18x1, y⟩]
    concatenates_S4096x18x18x1_S4096x18x18x1_S4096x18x18x2_d3

theorem concat2_eq (x y : FVec Ideal S4096x18x18x1 .f32) (h) :
    concatenate S4096x18x18x2 3 [⟨S4096x18x18x1, x⟩, ⟨S4096x18x18x1, y⟩] h = concat2 x y := rfl

attribute [local irreducible] Host.reduce Host.reduceAdd concatenate in
set_option maxRecDepth 8192 in
set_option maxHeartbeats 4000000 in
/-- The fold of the eighty operations at the result buffer is `out` of the arguments' contents: each operation's
    result at its own buffer is its function of its operands' contents, and at any other buffer what was there;
    the composed term is `out` unfolded. The last operation's list of pieces is first restated as `concat2` of the two
    pieces, so that the rewriting reaches them; the reductions and the concatenation stay folded. -/
theorem out_eq (V : Valuation τ sig (Elt Ideal)) :
    after (HandRun.ops (F := Ideal)) V (main_v68 : DevRef τ sig)
      = out (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) := by
  after_results_simp
  rw [concat2_eq]
  after_results_simp
  rfl

theorem arg0_eq (V : Valuation τ sig (Elt Ideal)) :
    after (HandRun.ops (F := Ideal)) V (main_arg0 : DevRef τ sig) = V (main_arg0 : DevRef τ sig) := by
  after_results_simp

theorem arg1_eq (V : Valuation τ sig (Elt Ideal)) :
    after (HandRun.ops (F := Ideal)) V (main_arg1 : DevRef τ sig) = V (main_arg1 : DevRef τ sig) := by
  after_results_simp

theorem arg2_eq (V : Valuation τ sig (Elt Ideal)) :
    after (HandRun.ops (F := Ideal)) V (main_arg2 : DevRef τ sig) = V (main_arg2 : DevRef τ sig) := by
  after_results_simp

theorem arg3_eq (V : Valuation τ sig (Elt Ideal)) :
    after (HandRun.ops (F := Ideal)) V (main_arg3 : DevRef τ sig) = V (main_arg3 : DevRef τ sig) := by
  after_results_simp

theorem arg4_eq (V : Valuation τ sig (Elt Ideal)) :
    after (HandRun.ops (F := Ideal)) V (main_arg4 : DevRef τ sig) = V (main_arg4 : DevRef τ sig) := by
  after_results_simp

theorem arg5_eq (V : Valuation τ sig (Elt Ideal)) :
    after (HandRun.ops (F := Ideal)) V (main_arg5 : DevRef τ sig) = V (main_arg5 : DevRef τ sig) := by
  after_results_simp

theorem arg6_eq (V : Valuation τ sig (Elt Ideal)) :
    after (HandRun.ops (F := Ideal)) V (main_arg6 : DevRef τ sig) = V (main_arg6 : DevRef τ sig) := by
  after_results_simp

theorem arg7_eq (V : Valuation τ sig (Elt Ideal)) :
    after (HandRun.ops (F := Ideal)) V (main_arg7 : DevRef τ sig) = V (main_arg7 : DevRef τ sig) := by
  after_results_simp

theorem arg8_eq (V : Valuation τ sig (Elt Ideal)) :
    after (HandRun.ops (F := Ideal)) V (main_arg8 : DevRef τ sig) = V (main_arg8 : DevRef τ sig) := by
  after_results_simp

theorem arg9_eq (V : Valuation τ sig (Elt Ideal)) :
    after (HandRun.ops (F := Ideal)) V (main_arg9 : DevRef τ sig) = V (main_arg9 : DevRef τ sig) := by
  after_results_simp

theorem arg10_eq (V : Valuation τ sig (Elt Ideal)) :
    after (HandRun.ops (F := Ideal)) V (main_arg10 : DevRef τ sig) = V (main_arg10 : DevRef τ sig) := by
  after_results_simp

theorem arg11_eq (V : Valuation τ sig (Elt Ideal)) :
    after (HandRun.ops (F := Ideal)) V (main_arg11 : DevRef τ sig) = V (main_arg11 : DevRef τ sig) := by
  after_results_simp

theorem arg12_eq (V : Valuation τ sig (Elt Ideal)) :
    after (HandRun.ops (F := Ideal)) V (main_arg12 : DevRef τ sig) = V (main_arg12 : DevRef τ sig) := by
  after_results_simp

theorem arg13_eq (V : Valuation τ sig (Elt Ideal)) :
    after (HandRun.ops (F := Ideal)) V (main_arg13 : DevRef τ sig) = V (main_arg13 : DevRef τ sig) := by
  after_results_simp

/-- At the compiled mesh, at the ideal instance, from any memory with zero counters: every weakly fair execution of
    the host function terminates with the result buffer at `out` of the arguments' launch contents and the
    arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v68)
          = out (m ((c.tc : Thread nD τ).loc main_arg0))
              (m ((c.tc : Thread nD τ).loc main_arg1))
              (m ((c.tc : Thread nD τ).loc main_arg2))
              (m ((c.tc : Thread nD τ).loc main_arg3))
              (m ((c.tc : Thread nD τ).loc main_arg4))
              (m ((c.tc : Thread nD τ).loc main_arg5))
              (m ((c.tc : Thread nD τ).loc main_arg6))
              (m ((c.tc : Thread nD τ).loc main_arg7))
              (m ((c.tc : Thread nD τ).loc main_arg8))
              (m ((c.tc : Thread nD τ).loc main_arg9))
              (m ((c.tc : Thread nD τ).loc main_arg10))
              (m ((c.tc : Thread nD τ).loc main_arg11))
              (m ((c.tc : Thread nD τ).loc main_arg12))
              (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => ⟨(h c main_v68).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _),
      (h c main_arg10).trans (arg10_eq _),
      (h c main_arg11).trans (arg11_eq _),
      (h c main_arg12).trans (arg12_eq _),
      (h c main_arg13).trans (arg13_eq _)⟩)
    (HandRun.run_main m ρ)

end Cert.ReferenceIdeal.Stages

end
-- ==== Proof.RefTail.lean ====
/-
  The reference's last stages read at an index: the row maximum, the shifted exponentials, the row softmax of the
  masked scores, and the two channels of the result.

  For a batch element b and a row i the masked scores Z(b, i, ·) form a row of 18 extended reals. The host's
  reduction by maximum from minus infinity over the last axis is the fold of max over the row; its reduction by
  addition from zero is the row's sum; a per-row value broadcast back along the row is read at (b, i); and the
  result's two one-entry pieces laid side by side along the last axis are read at entries 0 and 1.
-/
import proofs.«134835_j64166811403051_1_alg».proof.Proof.RefStages
import proofs.«134835_j64166811403051_1_alg».proof.Proof.Spec
import Idealize.ShloMosaic.Lib.Pipeline.Value
import Idealize.ShloMosaic.Lib.ValueIdx
import Idealize.ShloMosaic.PureOps.Ideal.Laws

noncomputable section

open scoped BigOperators

namespace Cert.ReferenceIdeal.RefTail

open Cert.ReferenceIdeal Cert.ReferenceIdeal.Gen Cert.ReferenceIdeal.Stages Idealize.ShloMosaic Idealize.ShloMosaic.ValueIdx Cert.Spec

variable {α : Type}

/-! ## Re-laid arrays read at an index -/

/-- Reducing the last axis of [4096,18,18]: the index at row (b, i) with k inserted is (b, i, k). -/
theorem lift_row (h : S4096x18x18.Reduces [2] S4096x18) (b : Fin 4096) (i k : Fin 18) :
    h.lift (ix2 b i) k = ix3 b i k :=
  funext fun a => Fin.ext (by
    match a with
    | ⟨0, _⟩ => rfl
    | ⟨1, _⟩ => rfl
    | ⟨2, _⟩ => rfl)

/-- A per-row value given a one-entry last axis. -/
theorem bcast_unit (x : S4096x18.Idx → α) (h : S4096x18.BroadcastsInDim S4096x18x1 ![0, 1])
    (b : Fin 4096) (i : Fin 18) (u : Fin 1) :
    broadcastInDim S4096x18x1 ![0, 1] h x (ix3 b i u) = x (ix2 b i) := by
  refine broadcastInDim_apply _ h x (ix3 b i u) (ix2 b i) fun a => ?_
  match a with
  | ⟨0, _⟩ => rfl
  | ⟨1, _⟩ => rfl

/-- A per-row value repeated along the row. -/
theorem bcast_col (x : S4096x18x1.Idx → α) (h : S4096x18x1.BroadcastsInDim S4096x18x18 ![0, 1, 2])
    (b : Fin 4096) (i j : Fin 18) :
    broadcastInDim S4096x18x18 ![0, 1, 2] h x (ix3 b i j) = x (ix3 b i (0 : Fin 1)) := by
  refine broadcastInDim_apply _ h x (ix3 b i j) (ix3 b i (0 : Fin 1)) fun a => ?_
  match a with
  | ⟨0, _⟩ => rfl
  | ⟨1, _⟩ => rfl
  | ⟨2, _⟩ => rfl

/-- The two broadcasts together: a per-row value read anywhere in its row. -/
theorem bcast_row (x : S4096x18.Idx → α) (h1 : S4096x18.BroadcastsInDim S4096x18x1 ![0, 1])
    (h2 : S4096x18x1.BroadcastsInDim S4096x18x18 ![0, 1, 2]) (b : Fin 4096) (i j : Fin 18) :
    broadcastInDim S4096x18x18 ![0, 1, 2] h2 (broadcastInDim S4096x18x1 ![0, 1] h1 x) (ix3 b i j) = x (ix2 b i) :=
  (bcast_col _ h2 b i j).trans (bcast_unit x h1 b i 0)

/-- [4096,18,18] given a one-entry last axis. -/
theorem bcast_last (x : S4096x18x18.Idx → α) (h : S4096x18x18.BroadcastsInDim S4096x18x18x1 ![0, 1, 2])
    (b : Fin 4096) (i j : Fin 18) (u : Fin 1) :
    broadcastInDim S4096x18x18x1 ![0, 1, 2] h x (ix4 b i j u) = x (ix3 b i j) := by
  refine broadcastInDim_apply _ h x (ix4 b i j u) (ix3 b i j) fun a => ?_
  match a with
  | ⟨0, _⟩ => rfl
  | ⟨1, _⟩ => rfl
  | ⟨2, _⟩ => rfl

/-- Two one-entry last axes laid side by side: entry 0 is the first. -/
theorem concat_fst (x y : S4096x18x18x1.Idx → α)
    (h : Shape.Concatenates [S4096x18x18x1, S4096x18x18x1] S4096x18x18x2 3) (b : Fin 4096) (i j : Fin 18) :
    concatenate S4096x18x18x2 3 [⟨S4096x18x18x1, x⟩, ⟨S4096x18x18x1, y⟩] h (ix4 b i j (0 : Fin 2))
      = x (ix4 b i j (0 : Fin 1)) :=
  concatenate_pair_apply_left 3 x y h _ rfl _ fun c => by
    match c with
    | ⟨0, _⟩ => rfl
    | ⟨1, _⟩ => rfl
    | ⟨2, _⟩ => rfl
    | ⟨3, _⟩ => rfl

/-- … and entry 1 is the second. -/
theorem concat_snd (x y : S4096x18x18x1.Idx → α)
    (h : Shape.Concatenates [S4096x18x18x1, S4096x18x18x1] S4096x18x18x2 3) (b : Fin 4096) (i j : Fin 18) :
    concatenate S4096x18x18x2 3 [⟨S4096x18x18x1, x⟩, ⟨S4096x18x18x1, y⟩] h (ix4 b i j (1 : Fin 2))
      = y (ix4 b i j (0 : Fin 1)) :=
  concatenate_pair_apply_right 3 x y h _ rfl rfl _ (fun c hc => by
    match c, hc with
    | ⟨0, _⟩, _ => rfl
    | ⟨1, _⟩, _ => rfl
    | ⟨2, _⟩, _ => rfl
    | ⟨3, _⟩, hc => exact absurd (Fin.ext rfl) hc) rfl

/-! ## The reductions of a row -/

/-- The host's reduction by maximum over the last axis, from minus infinity: the fold of max over the row. -/
theorem hostMax_row (Z : FVec Ideal S4096x18x18 .f32) (b : Fin 4096) (i : Fin 18) :
    Host.reduce FloatOps.maximumf Z (constant (F := Ideal) S_ .f32 0xFF800000#32) reducesTo_S4096x18x18_S4096x18_d2 h_S_ (ix2 b i)
      = (Finset.univ : Finset (Fin 18)).fold max ninf (fun k => Z (ix3 b i k)) := by
  have h : S4096x18x18.Reduces [2] S4096x18 := by decide
  refine (Host.reduce_eq_fold_single FloatOps.maximumf Z _ reducesTo_S4096x18x18_S4096x18_d2 h h_S_ (ix2 b i)).trans ?_
  have hf : (Z ∘ h.lift (ix2 b i)) = fun k : Fin 18 => Z (ix3 b i k) :=
    funext fun k => congrArg Z (lift_row h b i k)
  rw [hf]
  rfl

/-- The host's reduction by addition over the last axis, from zero: the row's sum. -/
theorem hostSum_row (E : FVec Ideal S4096x18x18 .f32) (b : Fin 4096) (i : Fin 18) :
    Host.reduceAdd E (constant (F := Ideal) S_ .f32 0x00000000#32) reducesTo_S4096x18x18_S4096x18_d2 h_S_ (ix2 b i)
      = ∑ k : Fin 18, E (ix3 b i k) := by
  have h : S4096x18x18.Reduces [2] S4096x18 := by decide
  show Ideal.hostReduceAdd reducesTo_S4096x18x18_S4096x18_d2 E (Ideal.ofBits .f32 0x00000000#32) (ix2 b i) = _
  rw [Ideal.hostReduceAdd_single reducesTo_S4096x18x18_S4096x18_d2 h, Ideal.ofBits_zero_f32, zero_add]
  show (∑ k : Fin 18, E (h.lift (ix2 b i) k)) = ∑ k : Fin 18, E (ix3 b i k)
  refine Finset.sum_congr rfl fun k _ => ?_
  rw [lift_row]

/-! ## The stages -/

/-- The pointwise maximum of two arrays, at an index. -/
theorem maximumf_at {S : Shape} (x y : FVec Ideal S .f32) (i : S.Idx) : maximumf x y i = max (x i) (y i) := rfl

/-- The splat of the pattern of minus infinity, at an index. -/
theorem ninf_at (h : S_.BroadcastsInDim S4096x18 ![]) (j : S4096x18.Idx) :
    broadcastInDim S4096x18 ![] h (constant (F := Ideal) S_ .f32 0xFF800000#32) j = ninf := rfl

attribute [local irreducible] Host.reduce Host.reduceAdd concatenate

/-- %57: the row maximum of the masked scores. -/
theorem v57_apply (a0 : FVec Ideal S4096x18x64 .f32) (a2 : FVec Ideal S128x64 .f32) (a3 a4 a5 a6 : FVec Ideal S128 .f32)
    (a7 : FVec Ideal S64x128 .f32) (a8 a9 a10 a11 : FVec Ideal S64 .f32) (a12 : FVec Ideal S1x64 .f32) (a13 : FVec Ideal S1 .f32)
    (b : Fin 4096) (i : Fin 18) :
    v57 a0 a2 a3 a4 a5 a6 a7 a8 a9 a10 a11 a12 a13 (ix2 b i) = rowmax (fun k => v54 a0 a2 a3 a4 a5 a6 a7 a8 a9 a10 a11 a12 a13 (ix3 b i k)) := by
  unfold v57 rowmax
  rw [maximumf_at, ninf_at, hostMax_row]

/-- %61: the exponential of a masked score less its row's maximum. -/
theorem v61_apply (a0 : FVec Ideal S4096x18x64 .f32) (a2 : FVec Ideal S128x64 .f32) (a3 a4 a5 a6 : FVec Ideal S128 .f32)
    (a7 : FVec Ideal S64x128 .f32) (a8 a9 a10 a11 : FVec Ideal S64 .f32) (a12 : FVec Ideal S1x64 .f32) (a13 : FVec Ideal S1 .f32)
    (b : Fin 4096) (i j : Fin 18) :
    v61 a0 a2 a3 a4 a5 a6 a7 a8 a9 a10 a11 a12 a13 (ix3 b i j) = expo (fun k => v54 a0 a2 a3 a4 a5 a6 a7 a8 a9 a10 a11 a12 a13 (ix3 b i k)) j := by
  unfold v61 expo
  show Ideal.exp (v54 a0 a2 a3 a4 a5 a6 a7 a8 a9 a10 a11 a12 a13 (ix3 b i j)
      - broadcastInDim S4096x18x18 ![0, 1, 2] bcast_S4096x18x1_S4096x18x18_0_1_2
          (broadcastInDim S4096x18x1 ![0, 1] bcast_S4096x18_S4096x18x1_0_1 (v57 a0 a2 a3 a4 a5 a6 a7 a8 a9 a10 a11 a12 a13)) (ix3 b i j)) = _
  rw [bcast_row, v57_apply]

/-- %62: the row sum of the exponentials. -/
theorem v62_apply (a0 : FVec Ideal S4096x18x64 .f32) (a2 : FVec Ideal S128x64 .f32) (a3 a4 a5 a6 : FVec Ideal S128 .f32)
    (a7 : FVec Ideal S64x128 .f32) (a8 a9 a10 a11 : FVec Ideal S64 .f32) (a12 : FVec Ideal S1x64 .f32) (a13 : FVec Ideal S1 .f32)
    (b : Fin 4096) (i : Fin 18) :
    v62 a0 a2 a3 a4 a5 a6 a7 a8 a9 a10 a11 a12 a13 (ix2 b i) = ∑ k : Fin 18, expo (fun k => v54 a0 a2 a3 a4 a5 a6 a7 a8 a9 a10 a11 a12 a13 (ix3 b i k)) k := by
  unfold v62
  rw [hostSum_row]
  refine Finset.sum_congr rfl fun k _ => ?_
  rw [v61_apply]

/-- %65: the row softmax of the masked scores. -/
theorem v65_apply (a0 : FVec Ideal S4096x18x64 .f32) (a2 : FVec Ideal S128x64 .f32) (a3 a4 a5 a6 : FVec Ideal S128 .f32)
    (a7 : FVec Ideal S64x128 .f32) (a8 a9 a10 a11 : FVec Ideal S64 .f32) (a12 : FVec Ideal S1x64 .f32) (a13 : FVec Ideal S1 .f32)
    (b : Fin 4096) (i j : Fin 18) :
    v65 a0 a2 a3 a4 a5 a6 a7 a8 a9 a10 a11 a12 a13 (ix3 b i j) = soft (fun k => v54 a0 a2 a3 a4 a5 a6 a7 a8 a9 a10 a11 a12 a13 (ix3 b i k)) j := by
  unfold v65 soft
  show Ideal.div (v61 a0 a2 a3 a4 a5 a6 a7 a8 a9 a10 a11 a12 a13 (ix3 b i j))
      (broadcastInDim S4096x18x18 ![0, 1, 2] bcast_S4096x18x1_S4096x18x18_0_1_2
          (broadcastInDim S4096x18x1 ![0, 1] bcast_S4096x18_S4096x18x1_0_1 (v62 a0 a2 a3 a4 a5 a6 a7 a8 a9 a10 a11 a12 a13)) (ix3 b i j)) = _
  rw [bcast_row, v61_apply, v62_apply]

/-- Channel 0 of the result: the given edge array. -/
theorem out_ch0 (a0 : FVec Ideal S4096x18x64 .f32) (a1 : FVec Ideal S4096x18x18 .f32) (a2 : FVec Ideal S128x64 .f32) (a3 a4 a5 a6 : FVec Ideal S128 .f32)
    (a7 : FVec Ideal S64x128 .f32) (a8 a9 a10 a11 : FVec Ideal S64 .f32) (a12 : FVec Ideal S1x64 .f32) (a13 : FVec Ideal S1 .f32)
    (b : Fin 4096) (i j : Fin 18) :
    out a0 a1 a2 a3 a4 a5 a6 a7 a8 a9 a10 a11 a12 a13 (ix4 b i j (0 : Fin 2)) = a1 (ix3 b i j) := by
  unfold out
  refine (concat_fst _ _ _ b i j).trans ?_
  exact bcast_last _ _ b i j 0

/-- Channel 1 of the result: the row softmax of the masked scores. -/
theorem out_ch1 (a0 : FVec Ideal S4096x18x64 .f32) (a1 : FVec Ideal S4096x18x18 .f32) (a2 : FVec Ideal S128x64 .f32) (a3 a4 a5 a6 : FVec Ideal S128 .f32)
    (a7 : FVec Ideal S64x128 .f32) (a8 a9 a10 a11 : FVec Ideal S64 .f32) (a12 : FVec Ideal S1x64 .f32) (a13 : FVec Ideal S1 .f32)
    (b : Fin 4096) (i j : Fin 18) :
    out a0 a1 a2 a3 a4 a5 a6 a7 a8 a9 a10 a11 a12 a13 (ix4 b i j (1 : Fin 2)) = soft (fun k => v54 a0 a2 a3 a4 a5 a6 a7 a8 a9 a10 a11 a12 a13 (ix3 b i k)) j := by
  unfold out
  refine (concat_snd _ _ _ b i j).trans ?_
  refine (bcast_last _ _ b i j 0).trans ?_
  exact v65_apply a0 a2 a3 a4 a5 a6 a7 a8 a9 a10 a11 a12 a13 b i j

end Cert.ReferenceIdeal.RefTail

end
-- ==== Proof.RefValue.lean ====
import proofs.«134835_j64166811403051_1_alg».proof.Proof.RefStages
import proofs.«134835_j64166811403051_1_alg».proof.Proof.Spec
import proofs.«134835_j64166811403051_1_alg».proof.Proof.RefTail
import Idealize.ShloMosaic.PureOps.Ideal.Laws
import Idealize.ShloMosaic.Lib.ValueIdx
import Idealize.ShloMosaic.Lib.IdealHost
import Idealize.ShloMosaic.Lib.Pipeline.Value

/-!
The reference's stages read index by index: each stage at an index is the specification's function of the
earlier stages at indices — a broadcast reads its operand at the coordinates it keeps, a contraction is the sum
over its one contracted axis, the elementwise operations are the extended reals' — so that the whole result is
the specification's.
-/

noncomputable section

open scoped BigOperators

namespace Cert.ReferenceIdeal.RefValue

open Cert.ReferenceIdeal Cert.ReferenceIdeal.Gen Cert.ReferenceIdeal.Stages Idealize.ShloMosaic Idealize.ShloMosaic.ValueIdx

variable {α : Type}

/-! ## Broadcasts and reshapes at an index -/

/-- A per-node array with a unit axis inserted after the node axis reads the node's entry. -/
theorem bc_i1c (x : S4096x18x64.Idx → α) (h : S4096x18x64.BroadcastsInDim S4096x18x1x64 (![0, 1, 3] : Fin 3 → Fin S4096x18x1x64.rank))
    (b : Fin 4096) (i : Fin 18) (u : Fin 1) (c : Fin 64) :
    broadcastInDim S4096x18x1x64 ![0, 1, 3] h x (ix4 b i u c) = x (ix3 b i c) := by
  refine broadcastInDim_apply _ h x (ix4 b i u c) (ix3 b i c) fun ax => ?_
  match ax with
  | ⟨0, _⟩ => rfl
  | ⟨1, _⟩ => rfl
  | ⟨2, _⟩ => rfl

/-- A per-node array with a unit axis inserted before the node axis reads the node's entry. -/
theorem bc_1jc (x : S4096x18x64.Idx → α) (h : S4096x18x64.BroadcastsInDim S4096x1x18x64 (![0, 2, 3] : Fin 3 → Fin S4096x1x18x64.rank))
    (b : Fin 4096) (u : Fin 1) (j : Fin 18) (c : Fin 64) :
    broadcastInDim S4096x1x18x64 ![0, 2, 3] h x (ix4 b u j c) = x (ix3 b j c) := by
  refine broadcastInDim_apply _ h x (ix4 b u j c) (ix3 b j c) fun ax => ?_
  match ax with
  | ⟨0, _⟩ => rfl
  | ⟨1, _⟩ => rfl
  | ⟨2, _⟩ => rfl

/-- The unit third axis repeated eighteen times. -/
theorem bc_rep_j (x : S4096x18x1x64.Idx → α) (h : S4096x18x1x64.BroadcastsInDim S4096x18x18x64 (![0, 1, 2, 3] : Fin 4 → Fin S4096x18x18x64.rank))
    (b : Fin 4096) (i j : Fin 18) (c : Fin 64) :
    broadcastInDim S4096x18x18x64 ![0, 1, 2, 3] h x (ix4 b i j c) = x (ix4 b i (0 : Fin 1) c) := by
  refine broadcastInDim_apply _ h x (ix4 b i j c) (ix4 b i (0 : Fin 1) c) fun ax => ?_
  match ax with
  | ⟨0, _⟩ => rfl
  | ⟨1, _⟩ => rfl
  | ⟨2, _⟩ => rfl
  | ⟨3, _⟩ => rfl

/-- The unit second axis repeated eighteen times. -/
theorem bc_rep_i (x : S4096x1x18x64.Idx → α) (h : S4096x1x18x64.BroadcastsInDim S4096x18x18x64 (![0, 1, 2, 3] : Fin 4 → Fin S4096x18x18x64.rank))
    (b : Fin 4096) (i j : Fin 18) (c : Fin 64) :
    broadcastInDim S4096x18x18x64 ![0, 1, 2, 3] h x (ix4 b i j c) = x (ix4 b (0 : Fin 1) j c) := by
  refine broadcastInDim_apply _ h x (ix4 b i j c) (ix4 b (0 : Fin 1) j c) fun ax => ?_
  match ax with
  | ⟨0, _⟩ => rfl
  | ⟨1, _⟩ => rfl
  | ⟨2, _⟩ => rfl
  | ⟨3, _⟩ => rfl

/-- A 128-vector as a [1,1,1,128] array. -/
theorem bc_v128 (x : S128.Idx → α) (h : S128.BroadcastsInDim S1x1x1x128 (![3] : Fin 1 → Fin S1x1x1x128.rank))
    (u0 u1 u2 : Fin 1) (o : Fin 128) :
    broadcastInDim S1x1x1x128 ![3] h x (ix4 u0 u1 u2 o) = x (ix1 o) := by
  refine broadcastInDim_apply _ h x (ix4 u0 u1 u2 o) (ix1 o) fun ax => ?_
  match ax with
  | ⟨0, _⟩ => rfl

/-- A [1,1,1,128] array repeated over every pair of every graph. -/
theorem bc_r128 (x : S1x1x1x128.Idx → α) (h : S1x1x1x128.BroadcastsInDim S4096x18x18x128 (![0, 1, 2, 3] : Fin 4 → Fin S4096x18x18x128.rank))
    (b : Fin 4096) (i j : Fin 18) (o : Fin 128) :
    broadcastInDim S4096x18x18x128 ![0, 1, 2, 3] h x (ix4 b i j o) = x (ix4 (0 : Fin 1) (0 : Fin 1) (0 : Fin 1) o) := by
  refine broadcastInDim_apply _ h x (ix4 b i j o) (ix4 (0 : Fin 1) (0 : Fin 1) (0 : Fin 1) o) fun ax => ?_
  match ax with
  | ⟨0, _⟩ => rfl
  | ⟨1, _⟩ => rfl
  | ⟨2, _⟩ => rfl
  | ⟨3, _⟩ => rfl

/-- A 64-vector as a [1,1,1,64] array. -/
theorem bc_v64 (x : S64.Idx → α) (h : S64.BroadcastsInDim S1x1x1x64 (![3] : Fin 1 → Fin S1x1x1x64.rank))
    (u0 u1 u2 : Fin 1) (c : Fin 64) :
    broadcastInDim S1x1x1x64 ![3] h x (ix4 u0 u1 u2 c) = x (ix1 c) := by
  refine broadcastInDim_apply _ h x (ix4 u0 u1 u2 c) (ix1 c) fun ax => ?_
  match ax with
  | ⟨0, _⟩ => rfl

/-- A [1,1,1,64] array repeated over every pair of every graph. -/
theorem bc_r64 (x : S1x1x1x64.Idx → α) (h : S1x1x1x64.BroadcastsInDim S4096x18x18x64 (![0, 1, 2, 3] : Fin 4 → Fin S4096x18x18x64.rank))
    (b : Fin 4096) (i j : Fin 18) (c : Fin 64) :
    broadcastInDim S4096x18x18x64 ![0, 1, 2, 3] h x (ix4 b i j c) = x (ix4 (0 : Fin 1) (0 : Fin 1) (0 : Fin 1) c) := by
  refine broadcastInDim_apply _ h x (ix4 b i j c) (ix4 (0 : Fin 1) (0 : Fin 1) (0 : Fin 1) c) fun ax => ?_
  match ax with
  | ⟨0, _⟩ => rfl
  | ⟨1, _⟩ => rfl
  | ⟨2, _⟩ => rfl
  | ⟨3, _⟩ => rfl

/-- An [18,18] table as a [1,18,18] array. -/
theorem bc_t1 (x : S18x18.Idx → α) (h : S18x18.BroadcastsInDim S1x18x18 (![1, 2] : Fin 2 → Fin S1x18x18.rank))
    (u : Fin 1) (i j : Fin 18) :
    broadcastInDim S1x18x18 ![1, 2] h x (ix3 u i j) = x (ix2 i j) := by
  refine broadcastInDim_apply _ h x (ix3 u i j) (ix2 i j) fun ax => ?_
  match ax with
  | ⟨0, _⟩ => rfl
  | ⟨1, _⟩ => rfl

/-- A [1,18,18] array repeated for every graph. -/
theorem bc_tr (x : S1x18x18.Idx → α) (h : S1x18x18.BroadcastsInDim S4096x18x18 (![0, 1, 2] : Fin 3 → Fin S4096x18x18.rank))
    (b : Fin 4096) (i j : Fin 18) :
    broadcastInDim S4096x18x18 ![0, 1, 2] h x (ix3 b i j) = x (ix3 (0 : Fin 1) i j) := by
  refine broadcastInDim_apply _ h x (ix3 b i j) (ix3 (0 : Fin 1) i j) fun ax => ?_
  match ax with
  | ⟨0, _⟩ => rfl
  | ⟨1, _⟩ => rfl
  | ⟨2, _⟩ => rfl

/-- The one-channel last axis dropped. -/
theorem cast_last (x : S4096x18x18x1.Idx → α) (h : S4096x18x18x1.ShapeCasts S4096x18x18) (b : Fin 4096) (i j : Fin 18) :
    shapeCast S4096x18x18 x h (ix3 b i j) = x (ix4 b i j (0 : Fin 1)) :=
  shapeCast_apply x h _ _ (by
    rw [Shape.rowMajor_val_four, Shape.rowMajor_val_three]
    show ((b.val * 18 + i.val) * 18 + j.val) * 1 + 0 = (b.val * 18 + i.val) * 18 + j.val
    omega)

/-- A one-entry vector as a scalar. -/
theorem cast_scalar (x : S1.Idx → α) (h : S1.ShapeCasts S_) (j : S_.Idx) :
    shapeCast S_ x h j = x (ix1 (0 : Fin 1)) :=
  shapeCast_apply x h _ _ (by
    have h1 : (S_.rowMajor j).val < 1 := (S_.rowMajor j).isLt
    rw [Shape.rowMajor_val_one]
    show 0 = (S_.rowMajor j).val
    omega)

/-! ## The three contractions at an entry: a sum over the contracted axis -/

theorem dot1 (l : FVec Ideal S4096x18x18x64 .f32) (r : FVec Ideal S128x64 .f32) (b : Fin 4096) (i j : Fin 18) (o : Fin 128) :
    Host.dotGeneral dot_S4096x18x18x64_S128x64_S4096x18x18x128_3_1_012_0_n_n none l r (ix4 b i j o)
      = ∑ k : Fin 64, l (ix4 b i j k) * r (ix2 o k) := by
  refine (Ideal.dotGeneral_apply dot_S4096x18x18x64_S128x64_S4096x18x18x128_3_1_012_0_n_n none .single l r (ix4 b i j o)).trans ?_
  refine ((contrEquiv1 dot_S4096x18x18x64_S128x64_S4096x18x18x128_3_1_012_0_n_n 64 rfl rfl).symm.sum_comp _).symm.trans ?_
  refine Finset.sum_congr rfl fun k _ => ?_
  have hL : (dot_S4096x18x18x64_S128x64_S4096x18x18x128_3_1_012_0_n_n).lhsIdx (ix4 b i j o)
      ((contrEquiv1 dot_S4096x18x18x64_S128x64_S4096x18x18x128_3_1_012_0_n_n 64 rfl rfl).symm k) = ix4 b i j k :=
    funext fun a => Fin.ext (by
      match a with
      | ⟨0, _⟩ => rfl
      | ⟨1, _⟩ => rfl
      | ⟨2, _⟩ => rfl
      | ⟨3, _⟩ => exact (DotDims.lhsIdx_val_of_single _ rfl _ _).trans (contrEquiv1_symm_val _ 64 rfl rfl k))
  have hR : (dot_S4096x18x18x64_S128x64_S4096x18x18x128_3_1_012_0_n_n).rhsIdx (ix4 b i j o)
      ((contrEquiv1 dot_S4096x18x18x64_S128x64_S4096x18x18x128_3_1_012_0_n_n 64 rfl rfl).symm k) = ix2 o k :=
    funext fun a => Fin.ext (by
      match a with
      | ⟨0, _⟩ => rfl
      | ⟨1, _⟩ => exact (DotDims.rhsIdx_val_of_single _ rfl _ _).trans (contrEquiv1_symm_val _ 64 rfl rfl k))
  rw [hL, hR]

theorem dot2 (l : FVec Ideal S4096x18x18x128 .f32) (r : FVec Ideal S64x128 .f32) (b : Fin 4096) (i j : Fin 18) (c : Fin 64) :
    Host.dotGeneral dot_S4096x18x18x128_S64x128_S4096x18x18x64_3_1_012_0_n_n none l r (ix4 b i j c)
      = ∑ k : Fin 128, l (ix4 b i j k) * r (ix2 c k) := by
  refine (Ideal.dotGeneral_apply dot_S4096x18x18x128_S64x128_S4096x18x18x64_3_1_012_0_n_n none .single l r (ix4 b i j c)).trans ?_
  refine ((contrEquiv1 dot_S4096x18x18x128_S64x128_S4096x18x18x64_3_1_012_0_n_n 128 rfl rfl).symm.sum_comp _).symm.trans ?_
  refine Finset.sum_congr rfl fun k _ => ?_
  have hL : (dot_S4096x18x18x128_S64x128_S4096x18x18x64_3_1_012_0_n_n).lhsIdx (ix4 b i j c)
      ((contrEquiv1 dot_S4096x18x18x128_S64x128_S4096x18x18x64_3_1_012_0_n_n 128 rfl rfl).symm k) = ix4 b i j k :=
    funext fun a => Fin.ext (by
      match a with
      | ⟨0, _⟩ => rfl
      | ⟨1, _⟩ => rfl
      | ⟨2, _⟩ => rfl
      | ⟨3, _⟩ => exact (DotDims.lhsIdx_val_of_single _ rfl _ _).trans (contrEquiv1_symm_val _ 128 rfl rfl k))
  have hR : (dot_S4096x18x18x128_S64x128_S4096x18x18x64_3_1_012_0_n_n).rhsIdx (ix4 b i j c)
      ((contrEquiv1 dot_S4096x18x18x128_S64x128_S4096x18x18x64_3_1_012_0_n_n 128 rfl rfl).symm k) = ix2 c k :=
    funext fun a => Fin.ext (by
      match a with
      | ⟨0, _⟩ => rfl
      | ⟨1, _⟩ => exact (DotDims.rhsIdx_val_of_single _ rfl _ _).trans (contrEquiv1_symm_val _ 128 rfl rfl k))
  rw [hL, hR]

theorem dot3 (l : FVec Ideal S4096x18x18x64 .f32) (r : FVec Ideal S1x64 .f32) (b : Fin 4096) (i j : Fin 18) (u : Fin 1) :
    Host.dotGeneral dot_S4096x18x18x64_S1x64_S4096x18x18x1_3_1_012_0_n_n none l r (ix4 b i j u)
      = ∑ k : Fin 64, l (ix4 b i j k) * r (ix2 u k) := by
  refine (Ideal.dotGeneral_apply dot_S4096x18x18x64_S1x64_S4096x18x18x1_3_1_012_0_n_n none .single l r (ix4 b i j u)).trans ?_
  refine ((contrEquiv1 dot_S4096x18x18x64_S1x64_S4096x18x18x1_3_1_012_0_n_n 64 rfl rfl).symm.sum_comp _).symm.trans ?_
  refine Finset.sum_congr rfl fun k _ => ?_
  have hL : (dot_S4096x18x18x64_S1x64_S4096x18x18x1_3_1_012_0_n_n).lhsIdx (ix4 b i j u)
      ((contrEquiv1 dot_S4096x18x18x64_S1x64_S4096x18x18x1_3_1_012_0_n_n 64 rfl rfl).symm k) = ix4 b i j k :=
    funext fun a => Fin.ext (by
      match a with
      | ⟨0, _⟩ => rfl
      | ⟨1, _⟩ => rfl
      | ⟨2, _⟩ => rfl
      | ⟨3, _⟩ => exact (DotDims.lhsIdx_val_of_single _ rfl _ _).trans (contrEquiv1_symm_val _ 64 rfl rfl k))
  have hR : (dot_S4096x18x18x64_S1x64_S4096x18x18x1_3_1_012_0_n_n).rhsIdx (ix4 b i j u)
      ((contrEquiv1 dot_S4096x18x18x64_S1x64_S4096x18x18x1_3_1_012_0_n_n 64 rfl rfl).symm k) = ix2 u k :=
    funext fun a => Fin.ext (by
      match a with
      | ⟨0, _⟩ => rfl
      | ⟨1, _⟩ => exact (DotDims.rhsIdx_val_of_single _ rfl _ _).trans (contrEquiv1_symm_val _ 64 rfl rfl k))
  rw [hL, hR]

/-! ## The stages at an index -/

theorem v4_apply (a0 : FVec Ideal S4096x18x64 .f32) (b : Fin 4096) (i j : Fin 18) (c : Fin 64) :
    v4 a0 (ix4 b i j c) = a0 (ix3 b i c) - a0 (ix3 b j c) := by
  unfold v4
  rw [subf_apply, bc_rep_j, bc_rep_i, bc_i1c, bc_1jc]

theorem v5_spec (a0 : FVec Ideal S4096x18x64 .f32) (b : Fin 4096) (i j : Fin 18) (c : Fin 64) :
    v5 a0 (ix4 b i j c) = Cert.Spec.sim a0 b i j c := by
  unfold v5 Cert.Spec.sim
  rw [mulf_apply, v4_apply]

theorem v6_spec (a0 : FVec Ideal S4096x18x64 .f32) (a2 : FVec Ideal S128x64 .f32) (b : Fin 4096) (i j : Fin 18) (o : Fin 128) :
    v6 a0 a2 (ix4 b i j o) = Cert.Spec.x1 a0 a2 b i j o := by
  unfold v6 Cert.Spec.x1
  refine (dot1 _ _ b i j o).trans (Finset.sum_congr rfl fun c _ => ?_)
  rw [v5_spec]

theorem v13_spec (a3 : FVec Ideal S128 .f32) (a6 : FVec Ideal S128 .f32) (o : Fin 128) :
    v13 a3 a6 (ix1 o) = Cert.Spec.scale (a3 (ix1 o)) (a6 (ix1 o)) := by
  unfold v13 Cert.Spec.scale Cert.Spec.eps
  rw [hostDivf_apply]
  show Ideal.div (a3 (ix1 o)) (Ideal.sqrt (addf a6 (broadcastInDim S128 ![] bcast_S_S128 (constant S_ .f32 0x3727C5AC#32)) (ix1 o))) = _
  rw [addf_apply, broadcastInDim_scalar_apply]
  rfl

theorem v19_spec (a0 : FVec Ideal S4096x18x64 .f32) (a2 : FVec Ideal S128x64 .f32) (a3 : FVec Ideal S128 .f32) (a4 : FVec Ideal S128 .f32) (a5 : FVec Ideal S128 .f32) (a6 : FVec Ideal S128 .f32) (b : Fin 4096) (i j : Fin 18) (o : Fin 128) :
    v19 a0 a2 a3 a4 a5 a6 (ix4 b i j o)
      = Cert.Spec.bnR (Cert.Spec.x1 a0 a2 b i j o) (a5 (ix1 o)) (Cert.Spec.scale (a3 (ix1 o)) (a6 (ix1 o))) (a4 (ix1 o)) := by
  unfold v19 Cert.Spec.bnR
  rw [addf_apply, mulf_apply, subf_apply, bc_r128, bc_r128, bc_r128, bc_v128, bc_v128, bc_v128, v6_spec, v13_spec]

theorem v24_spec (a0 : FVec Ideal S4096x18x64 .f32) (a2 : FVec Ideal S128x64 .f32) (a3 : FVec Ideal S128 .f32) (a4 : FVec Ideal S128 .f32) (a5 : FVec Ideal S128 .f32) (a6 : FVec Ideal S128 .f32) (b : Fin 4096) (i j : Fin 18) (o : Fin 128) :
    v24 a0 a2 a3 a4 a5 a6 (ix4 b i j o) = Cert.Spec.h1 Cert.Spec.bnR a0 a2 a3 a4 a5 a6 b i j o := by
  unfold v24 Cert.Spec.h1 Cert.Spec.act Cert.Spec.zero Cert.Spec.slope
  rw [select_apply, cmpf_apply, mulf_apply, broadcastInDim_scalar_apply, broadcastInDim_scalar_apply, v19_spec]
  rfl

theorem v25_spec (a0 : FVec Ideal S4096x18x64 .f32) (a2 : FVec Ideal S128x64 .f32) (a3 : FVec Ideal S128 .f32) (a4 : FVec Ideal S128 .f32) (a5 : FVec Ideal S128 .f32) (a6 : FVec Ideal S128 .f32) (a7 : FVec Ideal S64x128 .f32) (b : Fin 4096) (i j : Fin 18) (c : Fin 64) :
    v25 a0 a2 a3 a4 a5 a6 a7 (ix4 b i j c) = Cert.Spec.x2 Cert.Spec.bnR a0 a2 a3 a4 a5 a6 a7 b i j c := by
  unfold v25 Cert.Spec.x2
  refine (dot2 _ _ b i j c).trans (Finset.sum_congr rfl fun o _ => ?_)
  rw [v24_spec]

theorem v32_spec (a8 : FVec Ideal S64 .f32) (a11 : FVec Ideal S64 .f32) (c : Fin 64) :
    v32 a8 a11 (ix1 c) = Cert.Spec.scale (a8 (ix1 c)) (a11 (ix1 c)) := by
  unfold v32 Cert.Spec.scale Cert.Spec.eps
  rw [hostDivf_apply]
  show Ideal.div (a8 (ix1 c)) (Ideal.sqrt (addf a11 (broadcastInDim S64 ![] bcast_S_S64 (constant S_ .f32 0x3727C5AC#32)) (ix1 c))) = _
  rw [addf_apply, broadcastInDim_scalar_apply]
  rfl

theorem v38_spec (a0 : FVec Ideal S4096x18x64 .f32) (a2 : FVec Ideal S128x64 .f32) (a3 : FVec Ideal S128 .f32) (a4 : FVec Ideal S128 .f32) (a5 : FVec Ideal S128 .f32) (a6 : FVec Ideal S128 .f32) (a7 : FVec Ideal S64x128 .f32) (a8 : FVec Ideal S64 .f32) (a9 : FVec Ideal S64 .f32) (a10 : FVec Ideal S64 .f32) (a11 : FVec Ideal S64 .f32) (b : Fin 4096) (i j : Fin 18) (c : Fin 64) :
    v38 a0 a2 a3 a4 a5 a6 a7 a8 a9 a10 a11 (ix4 b i j c)
      = Cert.Spec.bnR (Cert.Spec.x2 Cert.Spec.bnR a0 a2 a3 a4 a5 a6 a7 b i j c) (a10 (ix1 c))
          (Cert.Spec.scale (a8 (ix1 c)) (a11 (ix1 c))) (a9 (ix1 c)) := by
  unfold v38
  rw [addf_apply, mulf_apply, subf_apply, bc_r64, bc_r64, bc_r64, bc_v64, bc_v64, bc_v64, v25_spec, v32_spec]
  rfl

theorem v43_spec (a0 : FVec Ideal S4096x18x64 .f32) (a2 : FVec Ideal S128x64 .f32) (a3 : FVec Ideal S128 .f32) (a4 : FVec Ideal S128 .f32) (a5 : FVec Ideal S128 .f32) (a6 : FVec Ideal S128 .f32) (a7 : FVec Ideal S64x128 .f32) (a8 : FVec Ideal S64 .f32) (a9 : FVec Ideal S64 .f32) (a10 : FVec Ideal S64 .f32) (a11 : FVec Ideal S64 .f32) (b : Fin 4096) (i j : Fin 18) (c : Fin 64) :
    v43 a0 a2 a3 a4 a5 a6 a7 a8 a9 a10 a11 (ix4 b i j c) = Cert.Spec.h2 Cert.Spec.bnR a0 a2 a3 a4 a5 a6 a7 a8 a9 a10 a11 b i j c := by
  unfold v43 Cert.Spec.h2 Cert.Spec.act Cert.Spec.zero Cert.Spec.slope
  rw [select_apply, cmpf_apply, mulf_apply, broadcastInDim_scalar_apply, broadcastInDim_scalar_apply, v38_spec]
  rfl

theorem v48_spec (a0 : FVec Ideal S4096x18x64 .f32) (a2 : FVec Ideal S128x64 .f32) (a3 : FVec Ideal S128 .f32) (a4 : FVec Ideal S128 .f32) (a5 : FVec Ideal S128 .f32) (a6 : FVec Ideal S128 .f32) (a7 : FVec Ideal S64x128 .f32) (a8 : FVec Ideal S64 .f32) (a9 : FVec Ideal S64 .f32) (a10 : FVec Ideal S64 .f32) (a11 : FVec Ideal S64 .f32) (a12 : FVec Ideal S1x64 .f32) (a13 : FVec Ideal S1 .f32) (b : Fin 4096) (i j : Fin 18) :
    v48 a0 a2 a3 a4 a5 a6 a7 a8 a9 a10 a11 a12 a13 (ix3 b i j) = Cert.Spec.logit Cert.Spec.bnR a0 a2 a3 a4 a5 a6 a7 a8 a9 a10 a11 a12 a13 b i j := by
  unfold v48 Cert.Spec.logit v44
  rw [addf_apply, cast_last, broadcastInDim_scalar_apply, cast_scalar, dot3]
  refine congrArg (· + a13 (ix1 (0 : Fin 1))) (Finset.sum_congr rfl fun c _ => ?_)
  rw [v43_spec]

theorem mask_eq : mask = Cert.Spec.table lit0 := rfl
theorem eye_eq : eye = Cert.Spec.table lit1 := rfl

theorem v54_spec (a0 : FVec Ideal S4096x18x64 .f32) (a2 : FVec Ideal S128x64 .f32) (a3 : FVec Ideal S128 .f32) (a4 : FVec Ideal S128 .f32) (a5 : FVec Ideal S128 .f32) (a6 : FVec Ideal S128 .f32) (a7 : FVec Ideal S64x128 .f32) (a8 : FVec Ideal S64 .f32) (a9 : FVec Ideal S64 .f32) (a10 : FVec Ideal S64 .f32) (a11 : FVec Ideal S64 .f32) (a12 : FVec Ideal S1x64 .f32) (a13 : FVec Ideal S1 .f32) (b : Fin 4096) (i j : Fin 18) :
    v54 a0 a2 a3 a4 a5 a6 a7 a8 a9 a10 a11 a12 a13 (ix3 b i j)
      = Cert.Spec.z Cert.Spec.bnR (Cert.Spec.table lit0) (Cert.Spec.table lit1) a0 a2 a3 a4 a5 a6 a7 a8 a9 a10 a11 a12 a13 b i j := by
  unfold v54 Cert.Spec.z
  rw [addf_apply, mulf_apply, bc_tr, bc_tr, bc_t1, bc_t1, v48_spec, mask_eq, eye_eq]

/-! ## The whole result -/

/-- The reference's result is the specification's function of the fourteen arrays, with the normalisation arranged as
    `(x - m)·s + b` and the two constant tables read row-major: channel 0 is `a1`, channel 1 the row softmax of the
    masked logits. -/
theorem out_eq_spec (a0 : FVec Ideal S4096x18x64 .f32) (a1 : FVec Ideal S4096x18x18 .f32) (a2 : FVec Ideal S128x64 .f32) (a3 a4 a5 a6 : FVec Ideal S128 .f32) (a7 : FVec Ideal S64x128 .f32) (a8 a9 a10 a11 : FVec Ideal S64 .f32) (a12 : FVec Ideal S1x64 .f32) (a13 : FVec Ideal S1 .f32) :
    Cert.ReferenceIdeal.Stages.out a0 a1 a2 a3 a4 a5 a6 a7 a8 a9 a10 a11 a12 a13
      = Cert.Spec.G Cert.Spec.bnR (Cert.Spec.table Cert.ReferenceIdeal.lit0) (Cert.Spec.table Cert.ReferenceIdeal.lit1) a0 a1 a2 a3 a4 a5 a6 a7 a8 a9 a10 a11 a12 a13 := by
  funext idx
  obtain ⟨b, i, j, ch, rfl⟩ : ∃ (b : Fin 4096) (i j : Fin 18) (ch : Fin 2), idx = ix4 b i j ch :=
    ⟨idx 0, idx 1, idx 2, idx 3, eq_ix4 idx⟩
  match ch with
  | ⟨0, _⟩ =>
    exact (Cert.ReferenceIdeal.RefTail.out_ch0 a0 a1 a2 a3 a4 a5 a6 a7 a8 a9 a10 a11 a12 a13 b i j).trans
      (Cert.Spec.G_ch0 Cert.Spec.bnR (Cert.Spec.table lit0) (Cert.Spec.table lit1) a0 a1 a2 a3 a4 a5 a6 a7 a8 a9 a10 a11 a12 a13 b i j).symm
  | ⟨1, _⟩ =>
    refine (Cert.ReferenceIdeal.RefTail.out_ch1 a0 a1 a2 a3 a4 a5 a6 a7 a8 a9 a10 a11 a12 a13 b i j).trans ?_
    refine Eq.trans ?_ (Cert.Spec.G_ch1 Cert.Spec.bnR (Cert.Spec.table lit0) (Cert.Spec.table lit1) a0 a1 a2 a3 a4 a5 a6 a7 a8 a9 a10 a11 a12 a13 b i j).symm
    exact congrArg (fun r => Cert.Spec.soft r j) (funext fun k => v54_spec a0 a2 a3 a4 a5 a6 a7 a8 a9 a10 a11 a12 a13 b i k)

end Cert.ReferenceIdeal.RefValue

end
-- ==== Proof.lean ====
/-
  The kernel and its reference compute one function of the fourteen argument arrays.

  Both take a batch of 4096 graphs of 18 nodes with 64 features, form the squared feature difference of every node
  pair, pass it through a three-layer perceptron with affine normalisations and leaky rectifiers, mask the logits,
  take a softmax along each row of pairs, and return it beside the given edge array. The kernel works tile by tile on
  64 graphs, flattens the pairs into rows, and applies each normalisation as x·s + (b − m·s) with the scale
  s = g/√(v+ε) and the shift computed beforehand; the reference works on the whole arrays and applies it as
  (x − m)·s + b. On the extended reals the two arrangements agree when x, m, s, b are real: distributivity fails
  only at infinities. The precondition gives real inputs and v + ε > 0 for both variance vectors, so every scale is
  real, every sum of products of reals is real, and the two results are equal entry by entry.
-/
import proofs.«134835_j64166811403051_1_alg».proof.Defs
import proofs.«134835_j64166811403051_1_alg».proof.Proof.Gen.Kernel
import proofs.«134835_j64166811403051_1_alg».proof.Proof.Gen.Kernel.Skeleton
import proofs.«134835_j64166811403051_1_alg».proof.Proof.Gen.Kernel.Launch
import proofs.«134835_j64166811403051_1_alg».proof.Proof.Gen.Kernel.Points
import proofs.«134835_j64166811403051_1_alg».proof.Proof.Gen.Kernel.Frame
import proofs.«134835_j64166811403051_1_alg».proof.Proof.Gen.KernelIdeal
import proofs.«134835_j64166811403051_1_alg».proof.Proof.Gen.KernelIdeal.Skeleton
import proofs.«134835_j64166811403051_1_alg».proof.Proof.Gen.KernelIdeal.Launch
import proofs.«134835_j64166811403051_1_alg».proof.Proof.Gen.KernelIdeal.Points
import proofs.«134835_j64166811403051_1_alg».proof.Proof.Gen.KernelIdeal.Frame
import proofs.«134835_j64166811403051_1_alg».proof.Proof.Gen.KernelIdeal.Value
import proofs.«134835_j64166811403051_1_alg».proof.Proof.Gen.ReferenceIdeal
import proofs.«134835_j64166811403051_1_alg».proof.Proof.Gen.Pre_finite_inputs
import proofs.«134835_j64166811403051_1_alg».proof.Proof.PreFacts
import proofs.«134835_j64166811403051_1_alg».proof.Proof.SpecAlg
import proofs.«134835_j64166811403051_1_alg».proof.Proof.Tables
import proofs.«134835_j64166811403051_1_alg».proof.Proof.KerValue
import proofs.«134835_j64166811403051_1_alg».proof.Proof.RefValue
import Idealize.ShloMosaic.Adequacy
import Idealize.ShloMosaic.Init

noncomputable section

namespace Cert.Proof

open Idealize.ShloMosaic Idealize.SL.Sem

/-- The word-level kernel terminates without a fault and leaves its arguments as they were. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference's run, with its result forgotten. -/
theorem frame_ri : Cert.frame_ReferenceIdeal := fun m ρ _ =>
  (θ_run Cert.ReferenceIdeal.defs _ _).mono (fun _ h c => (h c).2) (Cert.ReferenceIdeal.Stages.run m ρ)

/-- The kernel's result (arrangement x·s + (b − m·s), its own tables) is the reference's function
    (arrangement (x − m)·s + b, the reference's tables) of the same arrays, on the stated domain. -/
theorem results_agree (m : (ℓ : Loc Cert.KernelIdeal.nD Cert.KernelIdeal.τ Cert.KernelIdeal.sig) → Buf (Elt Ideal) ℓ)
    (hpre : Cert.Pre_KernelIdeal m) (c : Dev Cert.KernelIdeal.nD) :
    Cert.ReferenceIdeal.Stages.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))
      = Cert.KernelIdeal.Hand.result m c := by
  have d := Cert.PreFacts.dom_of_pre _ _ _ _ _ _ _ _ _ _ _ _ _ _ (hpre c)
  rw [Cert.ReferenceIdeal.RefValue.out_eq_spec, ← Cert.Tables.lit0_eq, ← Cert.Tables.lit1_eq]
  exact (Cert.Spec.G_bnK_eq_bnR _ _ _ _ _ _ _ _ _ _ _ _ _ _ _ _
    d.r0 d.r2 d.r3 d.r4 d.r5 d.r6 d.r7 d.r8 d.r9 d.r10 d.r11 d.pos6 d.pos11).symm

/-- From memories that agree on the arguments both programs end with equal results and unchanged arguments. -/
theorem algebraic : Cert.algebraic_KernelIdeal_ReferenceIdeal := by
  intro m ρ m' ρ' hpre hagree
  refine ⟨fun c => Cert.KernelIdeal.Hand.result m c, Cert.KernelIdeal.Hand.run m ρ, ?_⟩
  refine (θ_run Cert.ReferenceIdeal.defs _ _).mono (fun _ h c => ⟨(h c).1.trans ?_, (h c).2⟩)
    (Cert.ReferenceIdeal.Stages.run m' ρ')
  obtain ⟨e0, e1, e2, e3, e4, e5, e6, e7, e8, e9, e10, e11, e12, e13⟩ := hagree c
  rw [e0, e1, e2, e3, e4, e5, e6, e7, e8, e9, e10, e11, e12, e13]
  exact results_agree m hpre c

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
